-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S8x2048x64 : Shape := ⟨3, ![8, 2048, 64]⟩
abbrev S1x512x1024 : Shape := ⟨3, ![1, 512, 1024]⟩
abbrev S1x512x64 : Shape := ⟨3, ![1, 512, 64]⟩
abbrev S512x1024 : Shape := ⟨2, ![512, 1024]⟩
abbrev S512x64 : Shape := ⟨2, ![512, 64]⟩
abbrev S512x1 : Shape := ⟨2, ![512, 1]⟩
abbrev S64x512 : Shape := ⟨2, ![64, 512]⟩
abbrev S512x512 : Shape := ⟨2, ![512, 512]⟩
abbrev S512 : Shape := ⟨1, ![512]⟩

abbrev nBuf : Space → Nat
  | .hbm => 8
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .bf16⟩
  | .hbm, ⟨5, _⟩ => ⟨S8x2048x64, .bf16⟩
  | .hbm, ⟨6, _⟩ => ⟨S8x2048x64, .bf16⟩
  | .hbm, ⟨7, _⟩ => ⟨S8x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x512x64, .bf16⟩
  | .local _ .vmem, ⟨6, _⟩ => ⟨S1x512x64, .bf16⟩
  | .local _ .vmem, ⟨7, _⟩ => ⟨S1x512x64, .bf16⟩
  | .local _ .vmem, ⟨8, _⟩ => ⟨S1x512x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x512x64, .f32⟩
  | .local _ .vmem, ⟨18, _⟩ => ⟨S1x512x64, .f32⟩
  | .local _ .vmem, ⟨19, _⟩ => ⟨S512x1, .f32⟩
  | .local _ .vmem, ⟨20, _⟩ => ⟨S512x1, .f32⟩
  | .local _ .vmem, ⟨21, _⟩ => ⟨S512x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![8, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  transposes_S512x64_p1_0_S64x512 : S512x64.Transposes [1, 0] S64x512
  iota_S512x512_d1_w32 : S512x512.Iotas .tc 32 [1]
  iota_S512x512_d0_w32 : S512x512.Iotas .tc 32 [0]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  dot_S512x1024_S1024x64_S512x64_1_0_0_1_n_n_wf : DotDims.WF S512x1024 S1024x64 S512x64 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x2048x64.size a
  hwx0_4 : ∀ i : grid0.Coords, EltTy.bits .bf16 = 32 ∨ (Rect.block (s := S8x2048x64) S1x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S8x2048x64.size a
  hwx0_5 : ∀ i : grid0.Coords, EltTy.bits .bf16 = 32 ∨ (Rect.block (s := S8x2048x64) S1x512x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S8x2048x64.size a
  hwx0_6 : ∀ i : grid0.Coords, EltTy.bits .bf16 = 32 ∨ (Rect.block (s := S8x2048x64) S1x512x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .bf16 = 32 ∨ (Rect.block (s := S8x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S8x2048x64.size a
  hwx1_1 : ∀ i : grid1.Coords, EltTy.bits .bf16 = 32 ∨ (Rect.block (s := S8x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S8x2048x64.size a
  hwx1_2 : ∀ i : grid1.Coords, EltTy.bits .bf16 = 32 ∨ (Rect.block (s := S8x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S1x2048x2048, .i1⟩
  | .hbm, ⟨23, _⟩ => ⟨S_, .f32⟩
  | .hbm, ⟨24, _⟩ => ⟨S_, .f32⟩
  | .hbm, ⟨25, _⟩ => ⟨S8x2048x2048, .i1⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KFlashProj.lean ====
/- The projection call: what each grid point leaves in the three output windows, the body's triple and the
   pipeline's proof data. -/
import proofs.«169510_j23699629540193_2_alg».proof.Proof.Gen.Kernel.Launch
import proofs.«169510_j23699629540193_2_alg».proof.Proof.Gen.Kernel.Skeleton
import proofs.«169510_j23699629540193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t` of the projection call, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rX : Rect S1x512x1024 := Rect.unit (s := S1x512x1024) ![0, 0, 0] S1x512x1024.size inb_S1x512x1024_S1x512x1024_0_0_0
abbrev rW : Rect S1024x64 := Rect.unit (s := S1024x64) ![0, 0] S1024x64.size inb_S1024x64_S1024x64_0_0
abbrev rO : Rect S1x512x64 := Rect.unit (s := S1x512x64) ![0, 0, 0] S1x512x64.size inb_S1x512x64_S1x512x64_0_0_0

/-! ## What the body leaves in each output window's buffer -/

/-- The query block: the one store into window 4's buffer, of the product of the input block and the first weight. -/
def out0_4 (x0 : Vec F S1x512x1024 .f32) (x1 : Vec F S1024x64 .f32) : Vec F S1x512x64 .bf16 :=
  View.canon [⟨rO, k0_pay2 (View.ld x0 rX) (View.ld x1 rW)⟩]
/-- The key block: the one store into window 5's buffer, of the product of the input block and the second weight. -/
def out0_5 (x0 : Vec F S1x512x1024 .f32) (x2 : Vec F S1024x64 .f32) : Vec F S1x512x64 .bf16 :=
  View.canon [⟨rO, k0_pay3 (View.ld x0 rX) (View.ld x2 rW)⟩]
/-- The value block: the one store into window 6's buffer, of the product of the input block and the third weight. -/
def out0_6 (x0 : Vec F S1x512x1024 .f32) (x3 : Vec F S1024x64 .f32) : Vec F S1x512x64 .bf16 :=
  View.canon [⟨rO, k0_pay4 (View.ld x0 rX) (View.ld x3 rW)⟩]

/-- A store of the whole buffer covers it. -/
theorem cover0_O (p0 : Vec F S1x512x64 .bf16) (y : S1x512x64.Idx) :
    ∃ pc ∈ ([⟨rO, p0⟩] : List (View.Piece (Elt F) S1x512x64 .bf16)), y ∈ pc.1.set :=
  View.cover_of_tiled [⟨rO, p0⟩] S1x512x64.size (by rfl) y

/-! ## The body's triple -/

set_option maxHeartbeats 1000000 in
/-- The kernel body on whole staging memrefs, the inputs' at read contents `x0 … x3` and the outputs' at anything, runs
    to the continuation holding the inputs' as they were and each output's at its product block. -/
theorem sound_kernel0 (c : Dev nD) (E : Set ℕ) (i : grid0.Coords) (arg2 : Memref sig .tc .vmem S1x512x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole)
    (x0 : Vec F S1x512x1024 .f32) (x1 x2 x3 : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2) ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_O _)

/-! ## The pipeline's proof data -/

/-- The proof data of the projection call on core `c`: the arrays as the region finds them; after the body at point
    `t` each input's buffer at its block and each output's at the product of the input block and its weight. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Flash

end
-- ==== Proof.KFlashAttn.lean ====
/- The attention call: the softmax state carried in the three scratch buffers from point to point, what each grid point
   leaves in the output window, the body's triple per control case and the pipeline's proof data. -/
import proofs.«169510_j23699629540193_2_alg».proof.Proof.Gen.Kernel.Launch
import proofs.«169510_j23699629540193_2_alg».proof.Proof.Gen.Kernel.Skeleton
import proofs.«169510_j23699629540193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t` of the attention call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's three branch conditions, from the grid coordinates -/

/-- The first branch: the key block is block 0 (the state is reset). -/
abbrev cond1 (i : grid1.Coords) : Prop := (Scalar.cmpi .ne (Scalar.extui (Scalar.cmpi .eq (BitVec.ofNat 32 (i 2).val) 0#32)) 0#32) = 1#1
/-- The second: the key block is not after the query block (the state is updated). -/
abbrev cond2 (i : grid1.Coords) : Prop := (Scalar.cmpi .ne (Scalar.extui (Scalar.cmpi .sle (BitVec.ofNat 32 (i 2).val) (BitVec.ofNat 32 (i 1).val))) 0#32) = 1#1
/-- The third: the key block is the last one (the output block is written). -/
abbrev cond3 (i : grid1.Coords) : Prop := k1_cond3 i = 1#1

/-! ## The state in the scratch buffers: running maximum, running sum, running weighted sum -/

abbrev St (F : FTy → Type) : Type := Vec F S512x1 .f32 × Vec F S512x1 .f32 × Vec F S512x64 .f32

/-- The reset: maximum `-∞`, sums zero. -/
def st0 : St F := (k1_pay1, k1_pay2, k1_pay3)

/-- The state after the first branch. -/
def st1 (i : grid1.Coords) (s : St F) : St F := if cond1 i then st0 else s

/-- The state after the second branch, from the query, key and value blocks. -/
def st2 (i : grid1.Coords) (x0 x1 x2 : Vec F S1x512x64 .bf16) (s : St F) : St F :=
  if cond2 i then
    (k1_pay5 (k1_pay9 (BitVec.ofNat 32 (i 1).val) (BitVec.ofNat 32 (i 2).val) x0 x1 s.1),
     k1_pay12 (BitVec.ofNat 32 (i 1).val) (BitVec.ofNat 32 (i 2).val) x0 x1 s.1 s.2.1,
     k1_pay4 (k1_pay7 x2) (k1_pay10 (BitVec.ofNat 32 (i 1).val) (BitVec.ofNat 32 (i 2).val) x0 x1 s.1)
       (k1_pay11 (BitVec.ofNat 32 (i 1).val) (BitVec.ofNat 32 (i 2).val) x0 x1 s.1) s.2.2)
  else s

/-- The output block from the state: the weighted sum over the sum. -/
def outv (s : St F) : Vec F S1x512x64 .f32 := k1_pay6 s.2.2 s.2.1

/-- THE STATE after the body at position `n`: at the first point the update of the reset state, afterwards both
    branches applied to what the point before left. -/
def stAt (c : Dev nD) : (n : ℕ) → n < cfg1.N → St F
  | 0, hn => st2 (grid1.coords ⟨0, hn⟩) (iblk1 V c 0 ⟨0, hn⟩) (iblk1 V c 1 ⟨0, hn⟩) (iblk1 V c 2 ⟨0, hn⟩) st0
  | n + 1, hn => st2 (grid1.coords ⟨n + 1, hn⟩) (iblk1 V c 0 ⟨n + 1, hn⟩) (iblk1 V c 1 ⟨n + 1, hn⟩) (iblk1 V c 2 ⟨n + 1, hn⟩)
      (st1 (grid1.coords ⟨n + 1, hn⟩) (stAt c n (Nat.lt_of_succ_lt hn)))

theorem stAt_zero (c : Dev nD) (hn : 0 < cfg1.N) :
    stAt V c 0 hn = st2 (grid1.coords ⟨0, hn⟩) (iblk1 V c 0 ⟨0, hn⟩) (iblk1 V c 1 ⟨0, hn⟩) (iblk1 V c 2 ⟨0, hn⟩) st0 := rfl

theorem stAt_succ (c : Dev nD) (n : ℕ) (hn : n + 1 < cfg1.N) :
    stAt V c (n + 1) hn = st2 (grid1.coords ⟨n + 1, hn⟩) (iblk1 V c 0 ⟨n + 1, hn⟩) (iblk1 V c 1 ⟨n + 1, hn⟩) (iblk1 V c 2 ⟨n + 1, hn⟩)
      (st1 (grid1.coords ⟨n + 1, hn⟩) (stAt V c n (Nat.lt_of_succ_lt hn))) := rfl

/-! ## The scratch operands and the region invariant -/

abbrev scM0 : Memref sig .tc .vmem S512x1 .f32 := Memref.whole cc1_scratch0
abbrev scM1 : Memref sig .tc .vmem S512x1 .f32 := Memref.whole cc1_scratch1
abbrev scM2 : Memref sig .tc .vmem S512x64 .f32 := Memref.whole cc1_scratch2

/-- The other call's staging buffers, each at some contents: scoped buffers this call never touches. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region invariant before position `n`: before the first point the three scratch buffers at anything; afterwards
    at the state the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2) ∗ (∃ r, prngReg c r))

/-- The proof data of the attention call on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outv (stAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outv (stAt V c t.val t.isLt) := by dsimp only [dat1]

end Cert.Kernel.Flash

end
-- ==== Proof.KFlashAttnBody.lean ====
/- The attention call's body, control case by control case: on whole staging buffers holding the query, key and value
   blocks and scratch buffers holding a state, the body runs and leaves the scratch buffers at the next state and, when the
   output is written, the output buffer at the state's quotient. -/
import proofs.«169510_j23699629540193_2_alg».proof.Proof.Gen.Kernel.Launch
import proofs.«169510_j23699629540193_2_alg».proof.Proof.Gen.Kernel.Skeleton
import proofs.«169510_j23699629540193_2_alg».proof.Proof.Gen.Kernel.Points
import proofs.«169510_j23699629540193_2_alg».proof.Proof.KFlashAttn
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-- A load of a whole buffer through the whole-shape rectangle reads what the buffer holds. -/
theorem rd_whole {sp : Space} {S : Shape} {e : EltTy} (arg : Memref sig .tc sp S e) (h : arg.IsWhole) {off : Fin S.rank → Nat}
    (hz : off = fun _ => 0) (inb : ∀ a, off a + S.size a ≤ S.size a) (x : S.Idx → Elt F e) :
    View.readAt (Elt F) arg.view (Rect.unit off S.size inb).toLoadRect (h.unread x) = x := by
  rw [View.readAt_eq_ld, h.read_unread]; exact View.ld_unit_zero hz inb x

/-- A load through it after stores the last of which went through it reads that store's payload. -/
theorem rc_cons {sp : Space} {S : Shape} {e : EltTy} (v : View sig .tc sp S e) {off : Fin S.rank → Nat}
    (hz : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero hz inb y⟩),
    View.canon_cons_unit_zero hz inb, View.ld_unit_zero hz inb]

/-- What such a list of stores leaves in the buffer reads as the last payload. -/
theorem rw_cons {sp : Space} {S : Shape} {e : EltTy} (v : View sig .tc sp S e) (f : v.ty.Contents (Elt F)) {off : Fin S.rank → Nat}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon _ _ _ (fun y => ⟨_, List.mem_cons_self, View.mem_set_unit_zero hz inb y⟩)).trans
    (View.canon_cons_unit_zero hz inb w L)

theorem rd3 {e : EltTy} (arg : Memref sig .tc .vmem S1x512x64 e) (h : arg.IsWhole) (x : S1x512x64.Idx → Elt F e) :
    View.readAt (Elt F) arg.view (Rect.unit (s := S1x512x64) ![0, 0, 0] S1x512x64.size inb_S1x512x64_S1x512x64_0_0_0).toLoadRect (h.unread x) = x :=
  rd_whole arg h hz3 inb_S1x512x64_S1x512x64_0_0_0 x
theorem rd71 (arg : Memref sig .tc .vmem S512x1 .f32) (h : arg.IsWhole) (x : S512x1.Idx → Elt F .f32) :
    View.readAt (Elt F) arg.view (Rect.unit (s := S512x1) ![0, 0] S512x1.size inb_S512x1_S512x1_0_0).toLoadRect (h.unread x) = x :=
  rd_whole arg h hz2 inb_S512x1_S512x1_0_0 x
theorem rd964 (arg : Memref sig .tc .vmem S512x64 .f32) (h : arg.IsWhole) (x : S512x64.Idx → Elt F .f32) :
    View.readAt (Elt F) arg.view (Rect.unit (s := S512x64) ![0, 0] S512x64.size inb_S512x64_S512x64_0_0).toLoadRect (h.unread x) = x :=
  rd_whole arg h hz2 inb_S512x64_S512x64_0_0 x
theorem rc71 (v : View sig .tc .vmem S512x1 .f32) (w : S512x1.Idx → Elt F .f32) (L : List (View.Piece (Elt F) S512x1 .f32)) :
    v.readCov ((⟨Rect.unit (s := S512x1) ![0, 0] S512x1.size inb_S512x1_S512x1_0_0, w⟩ : View.Piece (Elt F) S512x1 .f32) :: L)
      (Rect.unit (s := S512x1) ![0, 0] S512x1.size inb_S512x1_S512x1_0_0).toLoadRect = w :=
  rc_cons v hz2 inb_S512x1_S512x1_0_0 w L
theorem rc964 (v : View sig .tc .vmem S512x64 .f32) (w : S512x64.Idx → Elt F .f32) (L : List (View.Piece (Elt F) S512x64 .f32)) :
    v.readCov ((⟨Rect.unit (s := S512x64) ![0, 0] S512x64.size inb_S512x64_S512x64_0_0, w⟩ : View.Piece (Elt F) S512x64 .f32) :: L)
      (Rect.unit (s := S512x64) ![0, 0] S512x64.size inb_S512x64_S512x64_0_0).toLoadRect = w :=
  rc_cons v hz2 inb_S512x64_S512x64_0_0 w L

set_option maxHeartbeats 4000000 in
/-- The body in the control case TTT (reset taken, update taken, output written). -/
theorem sound_attn_TTT (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cond1 i) (hc2 : cond2 i) (hc3 : cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = st0 from if_pos hc1]
  simp only [st2, if_pos hc2, if_pos hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case TTF (reset taken, update taken, output not written). -/
theorem sound_attn_TTF (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cond1 i) (hc2 : cond2 i) (hc3 : ¬cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = st0 from if_pos hc1]
  simp only [st2, if_pos hc2, if_neg hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case TFT (reset taken, update skipped, output written). -/
theorem sound_attn_TFT (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cond1 i) (hc2 : ¬cond2 i) (hc3 : cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = st0 from if_pos hc1]
  simp only [st2, if_neg hc2, if_pos hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case TFF (reset taken, update skipped, output not written). -/
theorem sound_attn_TFF (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cond1 i) (hc2 : ¬cond2 i) (hc3 : ¬cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = st0 from if_pos hc1]
  simp only [st2, if_neg hc2, if_neg hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case FTT (reset skipped, update taken, output written). -/
theorem sound_attn_FTT (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cond1 i) (hc2 : cond2 i) (hc3 : cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = s from if_neg hc1]
  simp only [st2, if_pos hc2, if_pos hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case FTF (reset skipped, update taken, output not written). -/
theorem sound_attn_FTF (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cond1 i) (hc2 : cond2 i) (hc3 : ¬cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = s from if_neg hc1]
  simp only [st2, if_pos hc2, if_neg hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case FFT (reset skipped, update skipped, output written). -/
theorem sound_attn_FFT (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cond1 i) (hc2 : ¬cond2 i) (hc3 : cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = s from if_neg hc1]
  simp only [st2, if_neg hc2, if_pos hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case FFF (reset skipped, update skipped, output not written). -/
theorem sound_attn_FFF (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cond1 i) (hc2 : ¬cond2 i) (hc3 : ¬cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = s from if_neg hc1]
  simp only [st2, if_neg hc2, if_neg hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

/-- The body in every control case: the three branch conditions decided either way. -/
theorem sound_attn (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  by_cases hc1 : cond1 i <;> by_cases hc2 : cond2 i <;> by_cases hc3 : cond3 i
  · exact sound_attn_TTT c E i arg3 harg3 arg4 harg4 arg5 harg5 arg6 harg6 arg7 harg7 arg8 harg8 arg9 harg9 hc1 hc2 hc3 x0 x1 x2 d6 s K
  · exact sound_attn_TTF c E i arg3 harg3 arg4 harg4 arg5 harg5 arg6 harg6 arg7 harg7 arg8 harg8 arg9 harg9 hc1 hc2 hc3 x0 x1 x2 d6 s K
  · exact sound_attn_TFT c E i arg3 harg3 arg4 harg4 arg5 harg5 arg6 harg6 arg7 harg7 arg8 harg8 arg9 harg9 hc1 hc2 hc3 x0 x1 x2 d6 s K
  · exact sound_attn_TFF c E i arg3 harg3 arg4 harg4 arg5 harg5 arg6 harg6 arg7 harg7 arg8 harg8 arg9 harg9 hc1 hc2 hc3 x0 x1 x2 d6 s K
  · exact sound_attn_FTT c E i arg3 harg3 arg4 harg4 arg5 harg5 arg6 harg6 arg7 harg7 arg8 harg8 arg9 harg9 hc1 hc2 hc3 x0 x1 x2 d6 s K
  · exact sound_attn_FTF c E i arg3 harg3 arg4 harg4 arg5 harg5 arg6 harg6 arg7 harg7 arg8 harg8 arg9 harg9 hc1 hc2 hc3 x0 x1 x2 d6 s K
  · exact sound_attn_FFT c E i arg3 harg3 arg4 harg4 arg5 harg5 arg6 harg6 arg7 harg7 arg8 harg8 arg9 harg9 hc1 hc2 hc3 x0 x1 x2 d6 s K
  · exact sound_attn_FFF c E i arg3 harg3 arg4 harg4 arg5 harg5 arg6 harg6 arg7 harg7 arg8 harg8 arg9 harg9 hc1 hc2 hc3 x0 x1 x2 d6 s K

end Cert.Kernel.Flash

end
-- ==== Proof.KFlashAttnObl.lean ====
/- The attention call's body obligation: the invariant opened and closed around the body at every grid point. -/
import proofs.«169510_j23699629540193_2_alg».proof.Proof.Gen.Kernel.Launch
import proofs.«169510_j23699629540193_2_alg».proof.Proof.Gen.Kernel.Skeleton
import proofs.«169510_j23699629540193_2_alg».proof.Proof.Gen.Kernel.Points
import proofs.«169510_j23699629540193_2_alg».proof.Proof.KFlashAttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The invariant, spelled out -/

/-- The invariant with the three scratch buffers at state `s`: the other call's staging buffers at anything, the
    running maximum, sum and weighted sum at `s`'s components, the generator register at some state. -/
def PhiAt (c : Dev nD) (s : St F) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM0 fullShare s.1 ∗ owns (c : Thread nD τ) scM1 fullShare s.2.1 ∗ owns (c : Thread nD τ) scM2 fullShare s.2.2) ∗ (∃ r, prngReg c r))

/-- What the launch hands the region, conjunct by conjunct: the scratch buffers at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

theorem PhiS_zero (c : Dev nD) (n : ℕ) (h : n ≤ cfg1.N) (hz : n = 0) : PhiS V c n h = Pipeline.ΦA spec1 c := by
  subst hz; rfl

/-- After point `n`: the scratch at the state that point left. -/
theorem PhiS_succ (c : Dev nD) (n : ℕ) (hn : n < cfg1.N) : PhiS V c (n + 1) hn = PhiAt c (stAt V c n hn) := rfl

/-- Before a point that is not the first: the scratch at the state the point before left. -/
theorem PhiS_pos (c : Dev nD) (n : ℕ) (h : n ≤ cfg1.N) (hz : n ≠ 0) :
    PhiS V c n h = PhiAt c (stAt V c (n - 1) (by omega)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-! ## The input windows -/

/-- Input window 0's current staging buffer holds its block at every point, fetched there or not, for any proof
    data whose array is `V`'s and whose body leaves the block in place: unfetched, the block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not, for any proof
    data whose array is `V`'s and whose body leaves the block in place: unfetched, the block index has not moved. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not, for any proof
    data whose array is `V`'s and whose body leaves the block in place: unfetched, the block index has not moved. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-! ## The branch conditions and the output window over the grid -/

/-- The state is reset exactly at the points whose key block is the first. -/
theorem hcond1 : ∀ t : Fin cfg1.N, cond1 (grid1.coords t) ↔ t.val % 4 = 0 :=
  (by decide +kernel : ∀ t : Fin grid1.N, cond1 (grid1.coords t) ↔ t.val % 4 = 0)
/-- The output block is written exactly at the points whose key block is the last. -/
theorem hcond3 : ∀ t : Fin cfg1.N, cond3 (grid1.coords t) ↔ t.val % 4 = 3 :=
  (by decide +kernel : ∀ t : Fin grid1.N, cond3 (grid1.coords t) ↔ t.val % 4 = 3)
/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the output block is not written the output window is idle and is not written back; -/
theorem idleAt1_3 : ∀ t : Fin cfg1.N, ¬cond3 (grid1.coords t) → cfg1.idle 3 (grid1.coords t) = true := by decide +kernel
theorem noFlush1_3 : ∀ t : Fin cfg1.N, ¬cond3 (grid1.coords t) → (cfg1.win 3).flush t = false := by decide +kernel
/-- where it is written the window is live. -/
theorem liveAt1_3 : ∀ t : Fin cfg1.N, cond3 (grid1.coords t) → cfg1.idle 3 (grid1.coords t) = false := by decide +kernel

/-! ## One step of the state -/

/-- The state after point `t` is the two branches applied to ANY state `s` that, when `t` is not the first point, is
    the state the point before left: at the first point the reset is taken, so `s` does not matter. -/
theorem stAt_step (c : Dev nD) (t : Fin cfg1.N) (s : St F)
    (hs : t.val ≠ 0 → s = stAt V c (t.val - 1) (Nat.lt_of_le_of_lt (Nat.sub_le _ _) t.isLt)) :
    stAt V c t.val t.isLt
      = st2 (grid1.coords t) (iblk1 V c 0 t) (iblk1 V c 1 t) (iblk1 V c 2 t) (st1 (grid1.coords t) s) := by
  obtain ⟨n, hn⟩ := t
  cases n with
  | zero =>
    have h1 : cond1 (grid1.coords ⟨0, hn⟩) := (hcond1 ⟨0, hn⟩).mpr (Nat.zero_mod _)
    show stAt V c 0 hn = _
    rw [stAt_zero]
    unfold st1
    rw [if_pos h1]
  | succ n =>
    rw [hs (Nat.succ_ne_zero n)]
    exact stAt_succ V c n hn

/-! ## The body with the third branch decided -/

/-- Where the output block is written: the output buffer ends at the quotient of the next state. -/
theorem sound_attn_live (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (h3 : cond3 i) (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (outv (st2 i x0 x1 x2 (st1 i s)))
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  have h := sound_attn c E i arg3 harg3 arg4 harg4 arg5 harg5 arg6 harg6 arg7 harg7 arg8 harg8 arg9 harg9 x0 x1 x2 d6 s K
  rw [if_pos h3] at h
  exact h

/-- Where it is not: the output buffer is handed back as found. -/
theorem sound_attn_idle (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (h3 : ¬cond3 i) (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare d6
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  have h := sound_attn c E i arg3 harg3 arg4 harg4 arg5 harg5 arg6 harg6 arg7 harg7 arg8 harg8 arg9 harg9 x0 x1 x2 d6 s K
  rw [if_neg h3] at h
  exact h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at point `t` from the invariant with the scratch at any state `s` that is the previous point's when there
    is one: the inputs' buffers hold their blocks, the body's triple applies, the scratch comes back at this point's
    state (one step of the state), and the output buffer at its quotient where it is written, as found where not. -/
theorem sound_body1_at (c : Dev nD) (t : Fin cfg1.N) (s : St F)
    (hs : t.val ≠ 0 → s = stAt V c (t.val - 1) (Nat.lt_of_le_of_lt (Nat.sub_le _ _) t.isLt)) :
    iprop(PhiAt c s ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ => bodyPost1 V c t) := by
  unfold bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h3 : cond3 (grid1.coords t)
  · rw [show (dat1 V c).leavesExact 3 t = owns (c : Thread nD τ) (st1_3 t) fullShare ((dat1 V c).after 3 t) from by
      unfold Dat.leavesExact; rw [liveAt1_3 t h3], after1_3]
    rw [stAt_step V c t s hs]
    unfold PhiAt
    iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
    iapply (sound_attn_live c Set.univ (grid1.coords t) _ _ _ _ _ _ _ _ _ _ _ _ _ _ h3 (iblk1 V c 0 t) (iblk1 V c 1 t) (iblk1 V c 2 t) _ s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HR0 HR1 HR2 HR3 HR4 HR5 HR6 HR7 HR8 HR9 HR10 HS0 HS1 HS2 Hg]
    · isplitl [HR0 HR1 HR2 HR3 HR4 HR5 HR6 HR7 HR8 HR9 HR10 HS0 HS1 HS2]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t h3) (noFlush1_3 t h3)]
    rw [stAt_step V c t s hs]
    unfold PhiAt
    iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
    iapply (sound_attn_idle c Set.univ (grid1.coords t) _ _ _ _ _ _ _ _ _ _ _ _ _ _ h3 (iblk1 V c 0 t) (iblk1 V c 1 t) (iblk1 V c 2 t) _ s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HR0 HR1 HR2 HR3 HR4 HR5 HR6 HR7 HR8 HR9 HR10 HS0 HS1 HS2 Hg]
    · isplitl [HR0 HR1 HR2 HR3 HR4 HR5 HR6 HR7 HR8 HR9 HR10 HS0 HS1 HS2]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexists _; iexact H3

set_option maxHeartbeats 1000000 in
/-- The body at any point: before the first point the scratch is at anything, afterwards at the state the point before
    left; either way the step above applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1
  by_cases hz : t.val = 0
  · rw [PhiS_castSucc V c t, PhiS_zero V c _ _ hz, PhiA1_eq]
    iintro ⟨⟨⟨HR0, HR1, HR2, HR3, HR4, HR5, HR6, HR7, HR8, HR9, HR10, ⟨%e0, HS0⟩, ⟨%e1, HS1⟩, ⟨%e2, HS2⟩⟩, Hg⟩, Ho, Hw0, Hw1, Hw2, Hw3⟩
    iapply (sound_body1_at V c t (e0, e1, e2) (fun h => absurd hz h))
    unfold PhiAt
    isplitl [HR0 HR1 HR2 HR3 HR4 HR5 HR6 HR7 HR8 HR9 HR10 HS0 HS1 HS2 Hg]
    · isplitl [HR0 HR1 HR2 HR3 HR4 HR5 HR6 HR7 HR8 HR9 HR10 HS0 HS1 HS2]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HS0]; · iexact HS0
        isplitl [HS1]; · iexact HS1
        iexact HS2
      iexact Hg
    isplitl [Ho]; · iexact Ho
    isplitl [Hw0]; · iexact Hw0
    isplitl [Hw1]; · iexact Hw1
    isplitl [Hw2]; · iexact Hw2
    iexact Hw3
  · rw [PhiS_castSucc V c t, PhiS_pos V c _ _ hz]
    exact sound_body1_at V c t _ (fun _ => rfl)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives that back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold PhiAt
  iintro ⟨⟨HR0, HR1, HR2, HR3, HR4, HR5, HR6, HR7, HR8, HR9, HR10, HS0, HS1, HS2⟩, Hg⟩
  isplitl [HR0 HR1 HR2 HR3 HR4 HR5 HR6 HR7 HR8 HR9 HR10 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexists _; iexact HS0
    isplitl [HS1]; · iexists _; iexact HS1
    iexists _; iexact HS2
  iexact Hg

/-- After the last point the invariant gives it back. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Flash

end
-- ==== Proof.KFlashRun.lean ====
/- The run of the whole program: the buffer contents at the three boundaries (at launch, between the projection call
   and the attention call, at the return), both calls as segments of the run, the launch, and what the final memory
   holds: the result array at what the attention call's write-backs leave, every argument array as launched. -/
import proofs.«169510_j23699629540193_2_alg».proof.Proof.KFlashProj
import proofs.«169510_j23699629540193_2_alg».proof.Proof.KFlashAttnObl
import proofs.«169510_j23699629540193_2_alg».proof.Proof.Gen.Kernel.Launch
import proofs.«169510_j23699629540193_2_alg».proof.Proof.Gen.Kernel.Skeleton
import proofs.«169510_j23699629540193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at the three boundaries -/

/-- Core `c`'s buffers at launch: what the projection call is entered from. -/
abbrev W0 : Dev nD → Valuation τ sig (Elt F) := fun c b => (s₀ m ρ).mem ((c : Thread nD τ).1, b)
/-- The same, read at the TensorCore's references. -/
abbrev V0 : (c : Dev nD) → (b : Ref sig .tc) → Buf (Elt F) ((c : Thread nD τ).loc b) := fun c b => W0 m ρ c b

/-- Between the two calls: the projection call's seven arrays at what its pipeline leaves (an input as entered, an
    output at its write-backs folded over all the points), every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same, read at the TensorCore's references: what the attention call is entered from. -/
abbrev V1 : (c : Dev nD) → (b : Ref sig .tc) → Buf (Elt F) ((c : Thread nD τ).loc b) := fun c b => W1 m ρ c b

/-- At the return: the attention call's four arrays at what its pipeline leaves, every other buffer as between the calls. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same, read at the TensorCore's references. -/
abbrev V2 : (c : Dev nD) → (b : Ref sig .tc) → Buf (Elt F) ((c : Thread nD τ).loc b) := fun c b => W2 m ρ c b

/-- After the projection call each of its arrays holds what the pipeline leaves, and every other buffer what it held. -/
theorem arr_W1 (c : Dev nD) (w : Fin cfg0.W) : (dat0 (V0 m ρ) c).arrAt w cfg0.N = V1 m ρ c (Pipeline.arrRef spec0 w) :=
  (W1_arr m ρ c w).symm
theorem rest_W1 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the attention call likewise. -/
theorem arr_W2 (c : Dev nD) (w : Fin cfg1.W) : (dat1 (V1 m ρ) c).arrAt w cfg1.N = V2 m ρ c (Pipeline.arrRef spec1 w) :=
  (W2_arr m ρ c w).symm
theorem rest_W2 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the attention call is entered from -/

/-- The launch contents of the four arguments. -/
theorem V0_main_arg0 (c : Dev nD) : V0 m ρ c main_arg0 = m ((c : Thread nD τ).loc main_arg0) := rfl
theorem V0_main_arg1 (c : Dev nD) : V0 m ρ c main_arg1 = m ((c : Thread nD τ).loc main_arg1) := rfl
theorem V0_main_arg2 (c : Dev nD) : V0 m ρ c main_arg2 = m ((c : Thread nD τ).loc main_arg2) := rfl
theorem V0_main_arg3 (c : Dev nD) : V0 m ρ c main_arg3 = m ((c : Thread nD τ).loc main_arg3) := rfl

/-- The three projections as the attention call finds them: the projection call's output windows 4, 5, 6 written back. -/
theorem V1_main_v0_0 (c : Dev nD) : V1 m ρ c main_v0_0 = (dat0 (V0 m ρ) c).arrAt 4 cfg0.N := W1_arr m ρ c 4
theorem V1_main_v0_1 (c : Dev nD) : V1 m ρ c main_v0_1 = (dat0 (V0 m ρ) c).arrAt 5 cfg0.N := W1_arr m ρ c 5
theorem V1_main_v0_2 (c : Dev nD) : V1 m ρ c main_v0_2 = (dat0 (V0 m ρ) c).arrAt 6 cfg0.N := W1_arr m ρ c 6

/-! ## The arguments and the result at the return -/

/-- An argument is an input window's array of the projection call, which the pipeline never writes, and no array of the
    attention call: at the return it holds what it was launched with. -/
theorem W1_in (c : Dev nD) (w : Fin cfg0.W) (hw : (cfg0.win w).isOut = false) :
    W1 m ρ c (Proc.devRef .tc (Pipeline.arrRef spec0 w)) = V0 m ρ c (Pipeline.arrRef spec0 w) :=
  (W1_arr m ρ c w).trans (((dat0 (V0 m ρ) c).arrAt_in w hw _).trans (A_eq0 (V0 m ρ) c w))
theorem W2_main_arg0 (c : Dev nD) : W2 m ρ c (Proc.devRef .tc main_arg0) = m ((c : Thread nD τ).loc main_arg0) :=
  (W2_of_ne m ρ c main_arg0 (by decide)).trans (W1_in m ρ c 0 rfl)
theorem W2_main_arg1 (c : Dev nD) : W2 m ρ c (Proc.devRef .tc main_arg1) = m ((c : Thread nD τ).loc main_arg1) :=
  (W2_of_ne m ρ c main_arg1 (by decide)).trans (W1_in m ρ c 2 rfl)
theorem W2_main_arg2 (c : Dev nD) : W2 m ρ c (Proc.devRef .tc main_arg2) = m ((c : Thread nD τ).loc main_arg2) :=
  (W2_of_ne m ρ c main_arg2 (by decide)).trans (W1_in m ρ c 1 rfl)
theorem W2_main_arg3 (c : Dev nD) : W2 m ρ c (Proc.devRef .tc main_arg3) = m ((c : Thread nD τ).loc main_arg3) :=
  (W2_of_ne m ρ c main_arg3 (by decide)).trans (W1_in m ρ c 3 rfl)
/-- The result is the attention call's output window 3 written back. -/
theorem W2_main_v1 (c : Dev nD) : W2 m ρ c (Proc.devRef .tc main_v1) = (dat1 (V1 m ρ) c).arrAt 3 cfg1.N := W2_arr m ρ c 3

/-! ## The proof data of both calls and the thread state between segments -/

/-- No call of this program has a prefetched table. -/
abbrev adm : (p : Fin 2) → (pcfgs (F := F) p).Adm := fun p => (cfgs p).toPCfg_adm
/-- Each call's proof data at the contents it is entered from. -/
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
/-- No core owes another anything, so no level is assigned. -/
abbrev runL : GSem nD τ sig → Finset Unit := fun _ => ∅
abbrev runLv : GSem nD τ sig → Unit → ℕ := fun _ _ => 0
/-- The core owing nothing. -/
abbrev runOwe0 (c : Dev nD) : sProp 𝕄 := iprop(∃ W, owes (c : Thread nD τ) (0 : CellTallies nD τ sig Unit) W)
/-- Between two segments: every unscoped buffer at the boundary's contents, the register, nothing owed. -/
abbrev runSt (W : Dev nD → Valuation τ sig (Elt F)) (c : Dev nD) : sProp 𝕄 :=
  iprop(StableHlo.held (c : Thread nD τ) (Pipeline.ucRefs τ sig) (W c) ∗ (∃ r, prngReg c r) ∗ runOwe0 c)

/-- At the return, beside the core owing nothing: every unscoped buffer at the last contents and the register. -/
abbrev runEnd (c : Dev nD) : sProp 𝕄 := iprop(StableHlo.held (c : Thread nD τ) (Pipeline.ucRefs τ sig) (W2 m ρ c) ∗ (∃ r, prngReg c r))

/-- An unscoped reference of the TensorCore is among the buffers the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as segments -/

set_option backward.isDefEq.respectTransparency.types false in
/-- The projection call, from the launch contents to the contents between the calls. Its seven arrays are taken out of
    the unscoped buffers at entry and put back at what the pipeline leaves; the only other unscoped buffer, the
    result array, bypasses the call; the register goes into the invariant and comes back; nothing is owed; the
    kernel has no semaphore of its own. -/
def reg0 : Pipeline.RegionSeg (pcfgs (F := F)) adm (pdats m ρ) () defs₀ Variants.none runL runLv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ runL runLv 0 fun _ _ => rfl
  pre := runSt (W0 m ρ)
  post := runSt (W1 m ρ)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hbufs, Hreg, %W, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      iexists W; isplitr
      · ipureintro; exact fun _ _ => Or.inl trivial
      iexact Howe
    isplitl [Hreg]; · iexact Hreg
    iexact Hrest
  hin c := by
    rw [show (pdats m ρ 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m ρ 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (arr_W1 m ρ c) (rest_W1 m ρ c)
    rw [Pipeline.unscopedBufs_held] at hjoin
    iintro ⟨Harr, Hown, Hreg, Hrest⟩
    imodintro
    isplitl [Harr Hrest]
    · iapply hjoin; isplitl [Harr] <;> iassumption
    isplitl [Hreg]; · iexact Hreg
    unfold Pipeline.Dat.owesAt Pipeline.owesWithin
    icases Hown with ⟨%W, -, Hown⟩; iexists W; iexact Hown

set_option backward.isDefEq.respectTransparency.types false in
/-- The attention call, from the contents between the calls to the contents at the return. Its four arrays (the three
    projections and the result) are taken out of the unscoped buffers and put back at what the pipeline leaves; the
    four arguments bypass the call; the scoped buffers no window stages (the three scratch buffers among them) and
    the register make the invariant before the first point (`hin1`) and come back from the invariant after the
    last (`hout1`). -/
def reg1 : Pipeline.RegionSeg (pcfgs (F := F)) adm (pdats m ρ) () defs₀ Variants.none runL runLv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ runL runLv 1 fun _ _ => rfl
  pre := runSt (W1 m ρ)
  post c := iprop(runEnd m ρ c ∗ runOwe0 c)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hbufs, Hreg, %W, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      iexists W; isplitr
      · ipureintro; exact fun _ _ => Or.inl trivial
      iexact Howe
    isplitl [Hreg]; · iexact Hreg
    iexact Hrest
  hin c := by
    refine BIBase.Entails.trans ?_ (show Pipeline.ΦA spec1 c ⊢ (pdats m ρ 1 c).Φ 0 from hin1 (V1 m ρ) c)
    unfold Pipeline.ΦA
    iintro ⟨Hreg, -, Hsc⟩
    isplitl [Hsc]; · iexact Hsc
    iexact Hreg
  hout c := by
    refine BIBase.Entails.trans (show (pdats m ρ 1 c).Φ (Fin.last _) ⊢ Pipeline.ΦA spec1 c from hout1 (V1 m ρ) c) ?_
    rw [Pipeline.ownSems0_none]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (arr_W2 m ρ c) (rest_W2 m ρ c)
    rw [Pipeline.unscopedBufs_held] at hjoin
    iintro ⟨Harr, Hown, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Hown with ⟨%W, -, Hown⟩; iexists W; iexact Hown

/-! ## The program as its two segments, and the launch -/

/-- The program's segments in order. -/
abbrev segs : List (Pipeline.Seg (pcfgs (F := F)) adm (pdats m ρ) () defs₀ Variants.none runL runLv) :=
  [.region (reg0 m ρ), .region (reg1 m ρ)]

/-- The program is the run of its segments. -/
theorem main_run (c : Dev nD) : main (F := F) c = Pipeline.Seg.run (segs m ρ) := (main_chain c).trans (by chain_rfl)

set_option backward.isDefEq.respectTransparency.types false in
/-- From any memory with every counter at zero, every weakly fair execution of the program on the TensorCores
    terminates without a fault, and in every final memory the result array holds what the attention call's write-backs
    leave — the fold of its output window over all the grid points, from the contents the call was entered from — while
    each of the four argument arrays holds what it was launched with. -/
theorem run_all : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj embL defs₀ Variants.none runL runLv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave Hp := (ownU_pair _ _) $$ Hu
      icases Hp with ⟨Hl, -⟩
      imodintro
      isplitl [Hl]; · iexact Hl
      iapply (show (BI.emp : sProp 𝕄) ⊢ bigSep Finset.univ (fun _ : Dev nD => (BI.emp : sProp 𝕄)) from by rw [BI.bigSep_emp_const])
      iempintro)
    (T₀ := runSt (W0 m ρ))
    (Tₙ := runEnd m ρ)
    (hch := ⟨fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]; · iexact Hb
      isplitl [Hr]; · iexists _; iexact Hr
      iexists ∅; iexact Ho)
    (QY := fun c s => ∀ b ∈ Pipeline.ucRefs τ sig, s.mem (((c : Thread nD τ)).1, b) = W2 m ρ c b)
    (hfin := fun c s' => by
      iintro ⟨⟨Hb, -⟩, HSI⟩
      unfold StableHlo.held
      imodintro
      iapply (pointsTo_read_all (Pipeline.ucRefs τ sig) (fun b => (((c : Thread nD τ)).1, b)) (W2 m ρ c) s')
      isplitl [Hb] <;> iassumption)
    (hQ := fun s h c =>
      ⟨(h c _ (run_mem_uc main_v1 (by decide))).trans (W2_main_v1 m ρ c),
       (h c _ (run_mem_uc main_arg0 (by decide))).trans (W2_main_arg0 m ρ c),
       (h c _ (run_mem_uc main_arg1 (by decide))).trans (W2_main_arg1 m ρ c),
       (h c _ (run_mem_uc main_arg2 (by decide))).trans (W2_main_arg2 m ρ c),
       (h c _ (run_mem_uc main_arg3 (by decide))).trans (W2_main_arg3 m ρ c)⟩)

/-- The frame: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.Kernel.Flash

end
-- ==== Proof.FlashProj.lean ====
/- The projection call: what each grid point leaves in the three output windows, the body's triple and the
   pipeline's proof data. -/
import proofs.«169510_j23699629540193_2_alg».proof.Proof.Gen.KernelIdeal.Launch
import proofs.«169510_j23699629540193_2_alg».proof.Proof.Gen.KernelIdeal.Skeleton
import proofs.«169510_j23699629540193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t` of the projection call, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rX : Rect S1x512x1024 := Rect.unit (s := S1x512x1024) ![0, 0, 0] S1x512x1024.size inb_S1x512x1024_S1x512x1024_0_0_0
abbrev rW : Rect S1024x64 := Rect.unit (s := S1024x64) ![0, 0] S1024x64.size inb_S1024x64_S1024x64_0_0
abbrev rO : Rect S1x512x64 := Rect.unit (s := S1x512x64) ![0, 0, 0] S1x512x64.size inb_S1x512x64_S1x512x64_0_0_0

/-! ## What the body leaves in each output window's buffer -/

/-- The query block: the one store into window 4's buffer, of the product of the input block and the first weight. -/
def out0_4 (x0 : Vec F S1x512x1024 .f32) (x1 : Vec F S1024x64 .f32) : Vec F S1x512x64 .bf16 :=
  View.canon [⟨rO, k0_pay2 (View.ld x0 rX) (View.ld x1 rW)⟩]
/-- The key block: the one store into window 5's buffer, of the product of the input block and the second weight. -/
def out0_5 (x0 : Vec F S1x512x1024 .f32) (x2 : Vec F S1024x64 .f32) : Vec F S1x512x64 .bf16 :=
  View.canon [⟨rO, k0_pay3 (View.ld x0 rX) (View.ld x2 rW)⟩]
/-- The value block: the one store into window 6's buffer, of the product of the input block and the third weight. -/
def out0_6 (x0 : Vec F S1x512x1024 .f32) (x3 : Vec F S1024x64 .f32) : Vec F S1x512x64 .bf16 :=
  View.canon [⟨rO, k0_pay4 (View.ld x0 rX) (View.ld x3 rW)⟩]

/-- A store of the whole buffer covers it. -/
theorem cover0_O (p0 : Vec F S1x512x64 .bf16) (y : S1x512x64.Idx) :
    ∃ pc ∈ ([⟨rO, p0⟩] : List (View.Piece (Elt F) S1x512x64 .bf16)), y ∈ pc.1.set :=
  View.cover_of_tiled [⟨rO, p0⟩] S1x512x64.size (by rfl) y

/-! ## The body's triple -/

set_option maxHeartbeats 1000000 in
/-- The kernel body on whole staging memrefs, the inputs' at read contents `x0 … x3` and the outputs' at anything, runs
    to the continuation holding the inputs' as they were and each output's at its product block. -/
theorem sound_kernel0 (c : Dev nD) (E : Set ℕ) (i : grid0.Coords) (arg2 : Memref sig .tc .vmem S1x512x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole)
    (x0 : Vec F S1x512x1024 .f32) (x1 x2 x3 : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2) ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_O _)

/-! ## The pipeline's proof data -/

/-- The proof data of the projection call on core `c`: the arrays as the region finds them; after the body at point
    `t` each input's buffer at its block and each output's at the product of the input block and its weight. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Flash

end
-- ==== Proof.FlashAttn.lean ====
/- The attention call: the softmax state carried in the three scratch buffers from point to point, what each grid point
   leaves in the output window, the body's triple per control case and the pipeline's proof data. -/
import proofs.«169510_j23699629540193_2_alg».proof.Proof.Gen.KernelIdeal.Launch
import proofs.«169510_j23699629540193_2_alg».proof.Proof.Gen.KernelIdeal.Skeleton
import proofs.«169510_j23699629540193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t` of the attention call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's three branch conditions, from the grid coordinates -/

/-- The first branch: the key block is block 0 (the state is reset). -/
abbrev cond1 (i : grid1.Coords) : Prop := (Scalar.cmpi .ne (Scalar.extui (Scalar.cmpi .eq (BitVec.ofNat 32 (i 2).val) 0#32)) 0#32) = 1#1
/-- The second: the key block is not after the query block (the state is updated). -/
abbrev cond2 (i : grid1.Coords) : Prop := (Scalar.cmpi .ne (Scalar.extui (Scalar.cmpi .sle (BitVec.ofNat 32 (i 2).val) (BitVec.ofNat 32 (i 1).val))) 0#32) = 1#1
/-- The third: the key block is the last one (the output block is written). -/
abbrev cond3 (i : grid1.Coords) : Prop := k1_cond3 i = 1#1

/-! ## The state in the scratch buffers: running maximum, running sum, running weighted sum -/

abbrev St (F : FTy → Type) : Type := Vec F S512x1 .f32 × Vec F S512x1 .f32 × Vec F S512x64 .f32

/-- The reset: maximum `-∞`, sums zero. -/
def st0 : St F := (k1_pay1, k1_pay2, k1_pay3)

/-- The state after the first branch. -/
def st1 (i : grid1.Coords) (s : St F) : St F := if cond1 i then st0 else s

/-- The state after the second branch, from the query, key and value blocks. -/
def st2 (i : grid1.Coords) (x0 x1 x2 : Vec F S1x512x64 .bf16) (s : St F) : St F :=
  if cond2 i then
    (k1_pay5 (k1_pay9 (BitVec.ofNat 32 (i 1).val) (BitVec.ofNat 32 (i 2).val) x0 x1 s.1),
     k1_pay12 (BitVec.ofNat 32 (i 1).val) (BitVec.ofNat 32 (i 2).val) x0 x1 s.1 s.2.1,
     k1_pay4 (k1_pay7 x2) (k1_pay10 (BitVec.ofNat 32 (i 1).val) (BitVec.ofNat 32 (i 2).val) x0 x1 s.1)
       (k1_pay11 (BitVec.ofNat 32 (i 1).val) (BitVec.ofNat 32 (i 2).val) x0 x1 s.1) s.2.2)
  else s

/-- The output block from the state: the weighted sum over the sum. -/
def outv (s : St F) : Vec F S1x512x64 .f32 := k1_pay6 s.2.2 s.2.1

/-- THE STATE after the body at position `n`: at the first point the update of the reset state, afterwards both
    branches applied to what the point before left. -/
def stAt (c : Dev nD) : (n : ℕ) → n < cfg1.N → St F
  | 0, hn => st2 (grid1.coords ⟨0, hn⟩) (iblk1 V c 0 ⟨0, hn⟩) (iblk1 V c 1 ⟨0, hn⟩) (iblk1 V c 2 ⟨0, hn⟩) st0
  | n + 1, hn => st2 (grid1.coords ⟨n + 1, hn⟩) (iblk1 V c 0 ⟨n + 1, hn⟩) (iblk1 V c 1 ⟨n + 1, hn⟩) (iblk1 V c 2 ⟨n + 1, hn⟩)
      (st1 (grid1.coords ⟨n + 1, hn⟩) (stAt c n (Nat.lt_of_succ_lt hn)))

theorem stAt_zero (c : Dev nD) (hn : 0 < cfg1.N) :
    stAt V c 0 hn = st2 (grid1.coords ⟨0, hn⟩) (iblk1 V c 0 ⟨0, hn⟩) (iblk1 V c 1 ⟨0, hn⟩) (iblk1 V c 2 ⟨0, hn⟩) st0 := rfl

theorem stAt_succ (c : Dev nD) (n : ℕ) (hn : n + 1 < cfg1.N) :
    stAt V c (n + 1) hn = st2 (grid1.coords ⟨n + 1, hn⟩) (iblk1 V c 0 ⟨n + 1, hn⟩) (iblk1 V c 1 ⟨n + 1, hn⟩) (iblk1 V c 2 ⟨n + 1, hn⟩)
      (st1 (grid1.coords ⟨n + 1, hn⟩) (stAt V c n (Nat.lt_of_succ_lt hn))) := rfl

/-! ## The scratch operands and the region invariant -/

abbrev scM0 : Memref sig .tc .vmem S512x1 .f32 := Memref.whole cc1_scratch0
abbrev scM1 : Memref sig .tc .vmem S512x1 .f32 := Memref.whole cc1_scratch1
abbrev scM2 : Memref sig .tc .vmem S512x64 .f32 := Memref.whole cc1_scratch2

/-- The other call's staging buffers, each at some contents: scoped buffers this call never touches. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region invariant before position `n`: before the first point the three scratch buffers at anything; afterwards
    at the state the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2) ∗ (∃ r, prngReg c r))

/-- The proof data of the attention call on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outv (stAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outv (stAt V c t.val t.isLt) := by dsimp only [dat1]

end Cert.KernelIdeal.Flash

end
-- ==== Proof.FlashAttnBody.lean ====
/- The attention call's body, control case by control case: on whole staging buffers holding the query, key and value
   blocks and scratch buffers holding a state, the body runs and leaves the scratch buffers at the next state and, when the
   output is written, the output buffer at the state's quotient. -/
import proofs.«169510_j23699629540193_2_alg».proof.Proof.Gen.KernelIdeal.Launch
import proofs.«169510_j23699629540193_2_alg».proof.Proof.Gen.KernelIdeal.Skeleton
import proofs.«169510_j23699629540193_2_alg».proof.Proof.Gen.KernelIdeal.Points
import proofs.«169510_j23699629540193_2_alg».proof.Proof.FlashAttn
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-- A load of a whole buffer through the whole-shape rectangle reads what the buffer holds. -/
theorem rd_whole {sp : Space} {S : Shape} {e : EltTy} (arg : Memref sig .tc sp S e) (h : arg.IsWhole) {off : Fin S.rank → Nat}
    (hz : off = fun _ => 0) (inb : ∀ a, off a + S.size a ≤ S.size a) (x : S.Idx → Elt F e) :
    View.readAt (Elt F) arg.view (Rect.unit off S.size inb).toLoadRect (h.unread x) = x := by
  rw [View.readAt_eq_ld, h.read_unread]; exact View.ld_unit_zero hz inb x

/-- A load through it after stores the last of which went through it reads that store's payload. -/
theorem rc_cons {sp : Space} {S : Shape} {e : EltTy} (v : View sig .tc sp S e) {off : Fin S.rank → Nat}
    (hz : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero hz inb y⟩),
    View.canon_cons_unit_zero hz inb, View.ld_unit_zero hz inb]

/-- What such a list of stores leaves in the buffer reads as the last payload. -/
theorem rw_cons {sp : Space} {S : Shape} {e : EltTy} (v : View sig .tc sp S e) (f : v.ty.Contents (Elt F)) {off : Fin S.rank → Nat}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon _ _ _ (fun y => ⟨_, List.mem_cons_self, View.mem_set_unit_zero hz inb y⟩)).trans
    (View.canon_cons_unit_zero hz inb w L)

theorem rd3 {e : EltTy} (arg : Memref sig .tc .vmem S1x512x64 e) (h : arg.IsWhole) (x : S1x512x64.Idx → Elt F e) :
    View.readAt (Elt F) arg.view (Rect.unit (s := S1x512x64) ![0, 0, 0] S1x512x64.size inb_S1x512x64_S1x512x64_0_0_0).toLoadRect (h.unread x) = x :=
  rd_whole arg h hz3 inb_S1x512x64_S1x512x64_0_0_0 x
theorem rd71 (arg : Memref sig .tc .vmem S512x1 .f32) (h : arg.IsWhole) (x : S512x1.Idx → Elt F .f32) :
    View.readAt (Elt F) arg.view (Rect.unit (s := S512x1) ![0, 0] S512x1.size inb_S512x1_S512x1_0_0).toLoadRect (h.unread x) = x :=
  rd_whole arg h hz2 inb_S512x1_S512x1_0_0 x
theorem rd964 (arg : Memref sig .tc .vmem S512x64 .f32) (h : arg.IsWhole) (x : S512x64.Idx → Elt F .f32) :
    View.readAt (Elt F) arg.view (Rect.unit (s := S512x64) ![0, 0] S512x64.size inb_S512x64_S512x64_0_0).toLoadRect (h.unread x) = x :=
  rd_whole arg h hz2 inb_S512x64_S512x64_0_0 x
theorem rc71 (v : View sig .tc .vmem S512x1 .f32) (w : S512x1.Idx → Elt F .f32) (L : List (View.Piece (Elt F) S512x1 .f32)) :
    v.readCov ((⟨Rect.unit (s := S512x1) ![0, 0] S512x1.size inb_S512x1_S512x1_0_0, w⟩ : View.Piece (Elt F) S512x1 .f32) :: L)
      (Rect.unit (s := S512x1) ![0, 0] S512x1.size inb_S512x1_S512x1_0_0).toLoadRect = w :=
  rc_cons v hz2 inb_S512x1_S512x1_0_0 w L
theorem rc964 (v : View sig .tc .vmem S512x64 .f32) (w : S512x64.Idx → Elt F .f32) (L : List (View.Piece (Elt F) S512x64 .f32)) :
    v.readCov ((⟨Rect.unit (s := S512x64) ![0, 0] S512x64.size inb_S512x64_S512x64_0_0, w⟩ : View.Piece (Elt F) S512x64 .f32) :: L)
      (Rect.unit (s := S512x64) ![0, 0] S512x64.size inb_S512x64_S512x64_0_0).toLoadRect = w :=
  rc_cons v hz2 inb_S512x64_S512x64_0_0 w L

set_option maxHeartbeats 4000000 in
/-- The body in the control case TTT (reset taken, update taken, output written). -/
theorem sound_attn_TTT (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cond1 i) (hc2 : cond2 i) (hc3 : cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = st0 from if_pos hc1]
  simp only [st2, if_pos hc2, if_pos hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case TTF (reset taken, update taken, output not written). -/
theorem sound_attn_TTF (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cond1 i) (hc2 : cond2 i) (hc3 : ¬cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = st0 from if_pos hc1]
  simp only [st2, if_pos hc2, if_neg hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case TFT (reset taken, update skipped, output written). -/
theorem sound_attn_TFT (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cond1 i) (hc2 : ¬cond2 i) (hc3 : cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = st0 from if_pos hc1]
  simp only [st2, if_neg hc2, if_pos hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case TFF (reset taken, update skipped, output not written). -/
theorem sound_attn_TFF (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cond1 i) (hc2 : ¬cond2 i) (hc3 : ¬cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = st0 from if_pos hc1]
  simp only [st2, if_neg hc2, if_neg hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case FTT (reset skipped, update taken, output written). -/
theorem sound_attn_FTT (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cond1 i) (hc2 : cond2 i) (hc3 : cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = s from if_neg hc1]
  simp only [st2, if_pos hc2, if_pos hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case FTF (reset skipped, update taken, output not written). -/
theorem sound_attn_FTF (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cond1 i) (hc2 : cond2 i) (hc3 : ¬cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = s from if_neg hc1]
  simp only [st2, if_pos hc2, if_neg hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case FFT (reset skipped, update skipped, output written). -/
theorem sound_attn_FFT (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cond1 i) (hc2 : ¬cond2 i) (hc3 : cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = s from if_neg hc1]
  simp only [st2, if_neg hc2, if_pos hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

set_option maxHeartbeats 4000000 in
/-- The body in the control case FFF (reset skipped, update skipped, output not written). -/
theorem sound_attn_FFF (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cond1 i) (hc2 : ¬cond2 i) (hc3 : ¬cond3 i)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  rw [show st1 i s = s from if_neg hc1]
  simp only [st2, if_neg hc2, if_neg hc3, st0, outv]
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    first
      | exact hf3
      | (refine (rw_cons _ _ hz3 inb_S1x512x64_S1x512x64_0_0_0 _ _).trans ?_
         sl_unfold_run_names
         (repeat (first | rw [rd3] | rw [rd71] | rw [rd964] | rw [rc71] | rw [rc964]))
         (try rfl))
  isplitl [H7]
  · iexists _; isplitr
    swap; · iexact H7
    ipureintro
    first
      | exact harg7.read_unread _
      | (refine (rw_cons _ _ hz2 inb_S512x1_S512x1_0_0 _ _).trans ?_
         sl_unfold_run_names
         (repeat (first | rw [rd3] | rw [rd71] | rw [rd964] | rw [rc71] | rw [rc964]))
         (try rfl))
  isplitl [H8]
  · iexists _; isplitr
    swap; · iexact H8
    ipureintro
    first
      | exact harg8.read_unread _
      | (refine (rw_cons _ _ hz2 inb_S512x1_S512x1_0_0 _ _).trans ?_
         sl_unfold_run_names
         (repeat (first | rw [rd3] | rw [rd71] | rw [rd964] | rw [rc71] | rw [rc964]))
         (try rfl))
  iexists _; isplitr
  swap; · iexact H9
  ipureintro
  first
    | exact harg9.read_unread _
    | (refine (rw_cons _ _ hz2 inb_S512x64_S512x64_0_0 _ _).trans ?_
       sl_unfold_run_names
       (repeat (first | rw [rd3] | rw [rd71] | rw [rd964] | rw [rc71] | rw [rc964]))
       (try rfl))

/-- The body in every control case: the three branch conditions decided either way. -/
theorem sound_attn (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (if cond3 i then outv (st2 i x0 x1 x2 (st1 i s)) else d6)
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  by_cases hc1 : cond1 i <;> by_cases hc2 : cond2 i <;> by_cases hc3 : cond3 i
  · exact sound_attn_TTT c E i arg3 harg3 arg4 harg4 arg5 harg5 arg6 harg6 arg7 harg7 arg8 harg8 arg9 harg9 hc1 hc2 hc3 x0 x1 x2 d6 s K
  · exact sound_attn_TTF c E i arg3 harg3 arg4 harg4 arg5 harg5 arg6 harg6 arg7 harg7 arg8 harg8 arg9 harg9 hc1 hc2 hc3 x0 x1 x2 d6 s K
  · exact sound_attn_TFT c E i arg3 harg3 arg4 harg4 arg5 harg5 arg6 harg6 arg7 harg7 arg8 harg8 arg9 harg9 hc1 hc2 hc3 x0 x1 x2 d6 s K
  · exact sound_attn_TFF c E i arg3 harg3 arg4 harg4 arg5 harg5 arg6 harg6 arg7 harg7 arg8 harg8 arg9 harg9 hc1 hc2 hc3 x0 x1 x2 d6 s K
  · exact sound_attn_FTT c E i arg3 harg3 arg4 harg4 arg5 harg5 arg6 harg6 arg7 harg7 arg8 harg8 arg9 harg9 hc1 hc2 hc3 x0 x1 x2 d6 s K
  · exact sound_attn_FTF c E i arg3 harg3 arg4 harg4 arg5 harg5 arg6 harg6 arg7 harg7 arg8 harg8 arg9 harg9 hc1 hc2 hc3 x0 x1 x2 d6 s K
  · exact sound_attn_FFT c E i arg3 harg3 arg4 harg4 arg5 harg5 arg6 harg6 arg7 harg7 arg8 harg8 arg9 harg9 hc1 hc2 hc3 x0 x1 x2 d6 s K
  · exact sound_attn_FFF c E i arg3 harg3 arg4 harg4 arg5 harg5 arg6 harg6 arg7 harg7 arg8 harg8 arg9 harg9 hc1 hc2 hc3 x0 x1 x2 d6 s K

end Cert.KernelIdeal.Flash

end
-- ==== Proof.FlashAttnObl.lean ====
/- The attention call's body obligation: the invariant opened and closed around the body at every grid point. -/
import proofs.«169510_j23699629540193_2_alg».proof.Proof.Gen.KernelIdeal.Launch
import proofs.«169510_j23699629540193_2_alg».proof.Proof.Gen.KernelIdeal.Skeleton
import proofs.«169510_j23699629540193_2_alg».proof.Proof.Gen.KernelIdeal.Points
import proofs.«169510_j23699629540193_2_alg».proof.Proof.FlashAttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The invariant, spelled out -/

/-- The invariant with the three scratch buffers at state `s`: the other call's staging buffers at anything, the
    running maximum, sum and weighted sum at `s`'s components, the generator register at some state. -/
def PhiAt (c : Dev nD) (s : St F) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM0 fullShare s.1 ∗ owns (c : Thread nD τ) scM1 fullShare s.2.1 ∗ owns (c : Thread nD τ) scM2 fullShare s.2.2) ∗ (∃ r, prngReg c r))

/-- What the launch hands the region, conjunct by conjunct: the scratch buffers at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

theorem PhiS_zero (c : Dev nD) (n : ℕ) (h : n ≤ cfg1.N) (hz : n = 0) : PhiS V c n h = Pipeline.ΦA spec1 c := by
  subst hz; rfl

/-- After point `n`: the scratch at the state that point left. -/
theorem PhiS_succ (c : Dev nD) (n : ℕ) (hn : n < cfg1.N) : PhiS V c (n + 1) hn = PhiAt c (stAt V c n hn) := rfl

/-- Before a point that is not the first: the scratch at the state the point before left. -/
theorem PhiS_pos (c : Dev nD) (n : ℕ) (h : n ≤ cfg1.N) (hz : n ≠ 0) :
    PhiS V c n h = PhiAt c (stAt V c (n - 1) (by omega)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-! ## The input windows -/

/-- Input window 0's current staging buffer holds its block at every point, fetched there or not, for any proof
    data whose array is `V`'s and whose body leaves the block in place: unfetched, the block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not, for any proof
    data whose array is `V`'s and whose body leaves the block in place: unfetched, the block index has not moved. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not, for any proof
    data whose array is `V`'s and whose body leaves the block in place: unfetched, the block index has not moved. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-! ## The branch conditions and the output window over the grid -/

/-- The state is reset exactly at the points whose key block is the first. -/
theorem hcond1 : ∀ t : Fin cfg1.N, cond1 (grid1.coords t) ↔ t.val % 4 = 0 :=
  (by decide +kernel : ∀ t : Fin grid1.N, cond1 (grid1.coords t) ↔ t.val % 4 = 0)
/-- The output block is written exactly at the points whose key block is the last. -/
theorem hcond3 : ∀ t : Fin cfg1.N, cond3 (grid1.coords t) ↔ t.val % 4 = 3 :=
  (by decide +kernel : ∀ t : Fin grid1.N, cond3 (grid1.coords t) ↔ t.val % 4 = 3)
/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the output block is not written the output window is idle and is not written back; -/
theorem idleAt1_3 : ∀ t : Fin cfg1.N, ¬cond3 (grid1.coords t) → cfg1.idle 3 (grid1.coords t) = true := by decide +kernel
theorem noFlush1_3 : ∀ t : Fin cfg1.N, ¬cond3 (grid1.coords t) → (cfg1.win 3).flush t = false := by decide +kernel
/-- where it is written the window is live. -/
theorem liveAt1_3 : ∀ t : Fin cfg1.N, cond3 (grid1.coords t) → cfg1.idle 3 (grid1.coords t) = false := by decide +kernel

/-! ## One step of the state -/

/-- The state after point `t` is the two branches applied to ANY state `s` that, when `t` is not the first point, is
    the state the point before left: at the first point the reset is taken, so `s` does not matter. -/
theorem stAt_step (c : Dev nD) (t : Fin cfg1.N) (s : St F)
    (hs : t.val ≠ 0 → s = stAt V c (t.val - 1) (Nat.lt_of_le_of_lt (Nat.sub_le _ _) t.isLt)) :
    stAt V c t.val t.isLt
      = st2 (grid1.coords t) (iblk1 V c 0 t) (iblk1 V c 1 t) (iblk1 V c 2 t) (st1 (grid1.coords t) s) := by
  obtain ⟨n, hn⟩ := t
  cases n with
  | zero =>
    have h1 : cond1 (grid1.coords ⟨0, hn⟩) := (hcond1 ⟨0, hn⟩).mpr (Nat.zero_mod _)
    show stAt V c 0 hn = _
    rw [stAt_zero]
    unfold st1
    rw [if_pos h1]
  | succ n =>
    rw [hs (Nat.succ_ne_zero n)]
    exact stAt_succ V c n hn

/-! ## The body with the third branch decided -/

/-- Where the output block is written: the output buffer ends at the quotient of the next state. -/
theorem sound_attn_live (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (h3 : cond3 i) (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (outv (st2 i x0 x1 x2 (st1 i s)))
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  have h := sound_attn c E i arg3 harg3 arg4 harg4 arg5 harg5 arg6 harg6 arg7 harg7 arg8 harg8 arg9 harg9 x0 x1 x2 d6 s K
  rw [if_pos h3] at h
  exact h

/-- Where it is not: the output buffer is handed back as found. -/
theorem sound_attn_idle (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (h3 : ¬cond3 i) (x0 x1 x2 : Vec F S1x512x64 .bf16) (d6 : Vec F S1x512x64 .f32) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare s.1 ∗ owns (c : Thread nD τ) arg8 fullShare s.2.1
        ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare d6
            ∗ owns (c : Thread nD τ) arg7 fullShare (st2 i x0 x1 x2 (st1 i s)).1 ∗ owns (c : Thread nD τ) arg8 fullShare (st2 i x0 x1 x2 (st1 i s)).2.1
            ∗ owns (c : Thread nD τ) arg9 fullShare (st2 i x0 x1 x2 (st1 i s)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  have h := sound_attn c E i arg3 harg3 arg4 harg4 arg5 harg5 arg6 harg6 arg7 harg7 arg8 harg8 arg9 harg9 x0 x1 x2 d6 s K
  rw [if_neg h3] at h
  exact h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at point `t` from the invariant with the scratch at any state `s` that is the previous point's when there
    is one: the inputs' buffers hold their blocks, the body's triple applies, the scratch comes back at this point's
    state (one step of the state), and the output buffer at its quotient where it is written, as found where not. -/
theorem sound_body1_at (c : Dev nD) (t : Fin cfg1.N) (s : St F)
    (hs : t.val ≠ 0 → s = stAt V c (t.val - 1) (Nat.lt_of_le_of_lt (Nat.sub_le _ _) t.isLt)) :
    iprop(PhiAt c s ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ => bodyPost1 V c t) := by
  unfold bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h3 : cond3 (grid1.coords t)
  · rw [show (dat1 V c).leavesExact 3 t = owns (c : Thread nD τ) (st1_3 t) fullShare ((dat1 V c).after 3 t) from by
      unfold Dat.leavesExact; rw [liveAt1_3 t h3], after1_3]
    rw [stAt_step V c t s hs]
    unfold PhiAt
    iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
    iapply (sound_attn_live c Set.univ (grid1.coords t) _ _ _ _ _ _ _ _ _ _ _ _ _ _ h3 (iblk1 V c 0 t) (iblk1 V c 1 t) (iblk1 V c 2 t) _ s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HR0 HR1 HR2 HR3 HR4 HR5 HR6 HR7 HR8 HR9 HR10 HS0 HS1 HS2 Hg]
    · isplitl [HR0 HR1 HR2 HR3 HR4 HR5 HR6 HR7 HR8 HR9 HR10 HS0 HS1 HS2]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t h3) (noFlush1_3 t h3)]
    rw [stAt_step V c t s hs]
    unfold PhiAt
    iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
    iapply (sound_attn_idle c Set.univ (grid1.coords t) _ _ _ _ _ _ _ _ _ _ _ _ _ _ h3 (iblk1 V c 0 t) (iblk1 V c 1 t) (iblk1 V c 2 t) _ s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HR0 HR1 HR2 HR3 HR4 HR5 HR6 HR7 HR8 HR9 HR10 HS0 HS1 HS2 Hg]
    · isplitl [HR0 HR1 HR2 HR3 HR4 HR5 HR6 HR7 HR8 HR9 HR10 HS0 HS1 HS2]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexists _; iexact H3

set_option maxHeartbeats 1000000 in
/-- The body at any point: before the first point the scratch is at anything, afterwards at the state the point before
    left; either way the step above applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1
  by_cases hz : t.val = 0
  · rw [PhiS_castSucc V c t, PhiS_zero V c _ _ hz, PhiA1_eq]
    iintro ⟨⟨⟨HR0, HR1, HR2, HR3, HR4, HR5, HR6, HR7, HR8, HR9, HR10, ⟨%e0, HS0⟩, ⟨%e1, HS1⟩, ⟨%e2, HS2⟩⟩, Hg⟩, Ho, Hw0, Hw1, Hw2, Hw3⟩
    iapply (sound_body1_at V c t (e0, e1, e2) (fun h => absurd hz h))
    unfold PhiAt
    isplitl [HR0 HR1 HR2 HR3 HR4 HR5 HR6 HR7 HR8 HR9 HR10 HS0 HS1 HS2 Hg]
    · isplitl [HR0 HR1 HR2 HR3 HR4 HR5 HR6 HR7 HR8 HR9 HR10 HS0 HS1 HS2]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HS0]; · iexact HS0
        isplitl [HS1]; · iexact HS1
        iexact HS2
      iexact Hg
    isplitl [Ho]; · iexact Ho
    isplitl [Hw0]; · iexact Hw0
    isplitl [Hw1]; · iexact Hw1
    isplitl [Hw2]; · iexact Hw2
    iexact Hw3
  · rw [PhiS_castSucc V c t, PhiS_pos V c _ _ hz]
    exact sound_body1_at V c t _ (fun _ => rfl)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives that back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold PhiAt
  iintro ⟨⟨HR0, HR1, HR2, HR3, HR4, HR5, HR6, HR7, HR8, HR9, HR10, HS0, HS1, HS2⟩, Hg⟩
  isplitl [HR0 HR1 HR2 HR3 HR4 HR5 HR6 HR7 HR8 HR9 HR10 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexists _; iexact HS0
    isplitl [HS1]; · iexists _; iexact HS1
    iexists _; iexact HS2
  iexact Hg

/-- After the last point the invariant gives it back. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Flash

end
-- ==== Proof.FlashRun.lean ====
/- The run of the whole program: the buffer contents at the three boundaries (at launch, between the projection call
   and the attention call, at the return), both calls as segments of the run, the launch, and what the final memory
   holds: the result array at what the attention call's write-backs leave, every argument array as launched. -/
import proofs.«169510_j23699629540193_2_alg».proof.Proof.FlashProj
import proofs.«169510_j23699629540193_2_alg».proof.Proof.FlashAttnObl
import proofs.«169510_j23699629540193_2_alg».proof.Proof.Gen.KernelIdeal.Launch
import proofs.«169510_j23699629540193_2_alg».proof.Proof.Gen.KernelIdeal.Skeleton
import proofs.«169510_j23699629540193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The buffer contents at the three boundaries -/

/-- Core `c`'s buffers at launch: what the projection call is entered from. -/
abbrev W0 : Dev nD → Valuation τ sig (Elt F) := fun c b => (s₀ m ρ).mem ((c : Thread nD τ).1, b)
/-- The same, read at the TensorCore's references. -/
abbrev V0 : (c : Dev nD) → (b : Ref sig .tc) → Buf (Elt F) ((c : Thread nD τ).loc b) := fun c b => W0 m ρ c b

/-- Between the two calls: the projection call's seven arrays at what its pipeline leaves (an input as entered, an
    output at its write-backs folded over all the points), every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same, read at the TensorCore's references: what the attention call is entered from. -/
abbrev V1 : (c : Dev nD) → (b : Ref sig .tc) → Buf (Elt F) ((c : Thread nD τ).loc b) := fun c b => W1 m ρ c b

/-- At the return: the attention call's four arrays at what its pipeline leaves, every other buffer as between the calls. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same, read at the TensorCore's references. -/
abbrev V2 : (c : Dev nD) → (b : Ref sig .tc) → Buf (Elt F) ((c : Thread nD τ).loc b) := fun c b => W2 m ρ c b

/-- After the projection call each of its arrays holds what the pipeline leaves, and every other buffer what it held. -/
theorem arr_W1 (c : Dev nD) (w : Fin cfg0.W) : (dat0 (V0 m ρ) c).arrAt w cfg0.N = V1 m ρ c (Pipeline.arrRef spec0 w) :=
  (W1_arr m ρ c w).symm
theorem rest_W1 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the attention call likewise. -/
theorem arr_W2 (c : Dev nD) (w : Fin cfg1.W) : (dat1 (V1 m ρ) c).arrAt w cfg1.N = V2 m ρ c (Pipeline.arrRef spec1 w) :=
  (W2_arr m ρ c w).symm
theorem rest_W2 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the attention call is entered from -/

/-- The launch contents of the four arguments. -/
theorem V0_main_arg0 (c : Dev nD) : V0 m ρ c main_arg0 = m ((c : Thread nD τ).loc main_arg0) := rfl
theorem V0_main_arg1 (c : Dev nD) : V0 m ρ c main_arg1 = m ((c : Thread nD τ).loc main_arg1) := rfl
theorem V0_main_arg2 (c : Dev nD) : V0 m ρ c main_arg2 = m ((c : Thread nD τ).loc main_arg2) := rfl
theorem V0_main_arg3 (c : Dev nD) : V0 m ρ c main_arg3 = m ((c : Thread nD τ).loc main_arg3) := rfl

/-- The three projections as the attention call finds them: the projection call's output windows 4, 5, 6 written back. -/
theorem V1_main_v0_0 (c : Dev nD) : V1 m ρ c main_v0_0 = (dat0 (V0 m ρ) c).arrAt 4 cfg0.N := W1_arr m ρ c 4
theorem V1_main_v0_1 (c : Dev nD) : V1 m ρ c main_v0_1 = (dat0 (V0 m ρ) c).arrAt 5 cfg0.N := W1_arr m ρ c 5
theorem V1_main_v0_2 (c : Dev nD) : V1 m ρ c main_v0_2 = (dat0 (V0 m ρ) c).arrAt 6 cfg0.N := W1_arr m ρ c 6

/-! ## The arguments and the result at the return -/

/-- An argument is an input window's array of the projection call, which the pipeline never writes, and no array of the
    attention call: at the return it holds what it was launched with. -/
theorem W1_in (c : Dev nD) (w : Fin cfg0.W) (hw : (cfg0.win w).isOut = false) :
    W1 m ρ c (Proc.devRef .tc (Pipeline.arrRef spec0 w)) = V0 m ρ c (Pipeline.arrRef spec0 w) :=
  (W1_arr m ρ c w).trans (((dat0 (V0 m ρ) c).arrAt_in w hw _).trans (A_eq0 (V0 m ρ) c w))
theorem W2_main_arg0 (c : Dev nD) : W2 m ρ c (Proc.devRef .tc main_arg0) = m ((c : Thread nD τ).loc main_arg0) :=
  (W2_of_ne m ρ c main_arg0 (by decide)).trans (W1_in m ρ c 0 rfl)
theorem W2_main_arg1 (c : Dev nD) : W2 m ρ c (Proc.devRef .tc main_arg1) = m ((c : Thread nD τ).loc main_arg1) :=
  (W2_of_ne m ρ c main_arg1 (by decide)).trans (W1_in m ρ c 2 rfl)
theorem W2_main_arg2 (c : Dev nD) : W2 m ρ c (Proc.devRef .tc main_arg2) = m ((c : Thread nD τ).loc main_arg2) :=
  (W2_of_ne m ρ c main_arg2 (by decide)).trans (W1_in m ρ c 1 rfl)
theorem W2_main_arg3 (c : Dev nD) : W2 m ρ c (Proc.devRef .tc main_arg3) = m ((c : Thread nD τ).loc main_arg3) :=
  (W2_of_ne m ρ c main_arg3 (by decide)).trans (W1_in m ρ c 3 rfl)
/-- The result is the attention call's output window 3 written back. -/
theorem W2_main_v1 (c : Dev nD) : W2 m ρ c (Proc.devRef .tc main_v1) = (dat1 (V1 m ρ) c).arrAt 3 cfg1.N := W2_arr m ρ c 3

/-! ## The proof data of both calls and the thread state between segments -/

/-- No call of this program has a prefetched table. -/
abbrev adm : (p : Fin 2) → (pcfgs (F := F) p).Adm := fun p => (cfgs p).toPCfg_adm
/-- Each call's proof data at the contents it is entered from. -/
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
/-- No core owes another anything, so no level is assigned. -/
abbrev runL : GSem nD τ sig → Finset Unit := fun _ => ∅
abbrev runLv : GSem nD τ sig → Unit → ℕ := fun _ _ => 0
/-- The core owing nothing. -/
abbrev runOwe0 (c : Dev nD) : sProp 𝕄 := iprop(∃ W, owes (c : Thread nD τ) (0 : CellTallies nD τ sig Unit) W)
/-- Between two segments: every unscoped buffer at the boundary's contents, the register, nothing owed. -/
abbrev runSt (W : Dev nD → Valuation τ sig (Elt F)) (c : Dev nD) : sProp 𝕄 :=
  iprop(StableHlo.held (c : Thread nD τ) (Pipeline.ucRefs τ sig) (W c) ∗ (∃ r, prngReg c r) ∗ runOwe0 c)

/-- At the return, beside the core owing nothing: every unscoped buffer at the last contents and the register. -/
abbrev runEnd (c : Dev nD) : sProp 𝕄 := iprop(StableHlo.held (c : Thread nD τ) (Pipeline.ucRefs τ sig) (W2 m ρ c) ∗ (∃ r, prngReg c r))

/-- An unscoped reference of the TensorCore is among the buffers the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as segments -/

set_option backward.isDefEq.respectTransparency.types false in
/-- The projection call, from the launch contents to the contents between the calls. Its seven arrays are taken out of
    the unscoped buffers at entry and put back at what the pipeline leaves; the only other unscoped buffer, the
    result array, bypasses the call; the register goes into the invariant and comes back; nothing is owed; the
    kernel has no semaphore of its own. -/
def reg0 : Pipeline.RegionSeg (pcfgs (F := F)) adm (pdats m ρ) () defs₀ Variants.none runL runLv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ runL runLv 0 fun _ _ => rfl
  pre := runSt (W0 m ρ)
  post := runSt (W1 m ρ)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hbufs, Hreg, %W, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      iexists W; isplitr
      · ipureintro; exact fun _ _ => Or.inl trivial
      iexact Howe
    isplitl [Hreg]; · iexact Hreg
    iexact Hrest
  hin c := by
    rw [show (pdats m ρ 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m ρ 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (arr_W1 m ρ c) (rest_W1 m ρ c)
    rw [Pipeline.unscopedBufs_held] at hjoin
    iintro ⟨Harr, Hown, Hreg, Hrest⟩
    imodintro
    isplitl [Harr Hrest]
    · iapply hjoin; isplitl [Harr] <;> iassumption
    isplitl [Hreg]; · iexact Hreg
    unfold Pipeline.Dat.owesAt Pipeline.owesWithin
    icases Hown with ⟨%W, -, Hown⟩; iexists W; iexact Hown

set_option backward.isDefEq.respectTransparency.types false in
/-- The attention call, from the contents between the calls to the contents at the return. Its four arrays (the three
    projections and the result) are taken out of the unscoped buffers and put back at what the pipeline leaves; the
    four arguments bypass the call; the scoped buffers no window stages (the three scratch buffers among them) and
    the register make the invariant before the first point (`hin1`) and come back from the invariant after the
    last (`hout1`). -/
def reg1 : Pipeline.RegionSeg (pcfgs (F := F)) adm (pdats m ρ) () defs₀ Variants.none runL runLv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ runL runLv 1 fun _ _ => rfl
  pre := runSt (W1 m ρ)
  post c := iprop(runEnd m ρ c ∗ runOwe0 c)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hbufs, Hreg, %W, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      iexists W; isplitr
      · ipureintro; exact fun _ _ => Or.inl trivial
      iexact Howe
    isplitl [Hreg]; · iexact Hreg
    iexact Hrest
  hin c := by
    refine BIBase.Entails.trans ?_ (show Pipeline.ΦA spec1 c ⊢ (pdats m ρ 1 c).Φ 0 from hin1 (V1 m ρ) c)
    unfold Pipeline.ΦA
    iintro ⟨Hreg, -, Hsc⟩
    isplitl [Hsc]; · iexact Hsc
    iexact Hreg
  hout c := by
    refine BIBase.Entails.trans (show (pdats m ρ 1 c).Φ (Fin.last _) ⊢ Pipeline.ΦA spec1 c from hout1 (V1 m ρ) c) ?_
    rw [Pipeline.ownSems0_none]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (arr_W2 m ρ c) (rest_W2 m ρ c)
    rw [Pipeline.unscopedBufs_held] at hjoin
    iintro ⟨Harr, Hown, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Hown with ⟨%W, -, Hown⟩; iexists W; iexact Hown

/-! ## The program as its two segments, and the launch -/

/-- The program's segments in order. -/
abbrev segs : List (Pipeline.Seg (pcfgs (F := F)) adm (pdats m ρ) () defs₀ Variants.none runL runLv) :=
  [.region (reg0 m ρ), .region (reg1 m ρ)]

/-- The program is the run of its segments. -/
theorem main_run (c : Dev nD) : main (F := F) c = Pipeline.Seg.run (segs m ρ) := (main_chain c).trans (by chain_rfl)

set_option backward.isDefEq.respectTransparency.types false in
/-- From any memory with every counter at zero, every weakly fair execution of the program on the TensorCores
    terminates without a fault, and in every final memory the result array holds what the attention call's write-backs
    leave — the fold of its output window over all the grid points, from the contents the call was entered from — while
    each of the four argument arrays holds what it was launched with. -/
theorem run_all : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj embL defs₀ Variants.none runL runLv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave Hp := (ownU_pair _ _) $$ Hu
      icases Hp with ⟨Hl, -⟩
      imodintro
      isplitl [Hl]; · iexact Hl
      iapply (show (BI.emp : sProp 𝕄) ⊢ bigSep Finset.univ (fun _ : Dev nD => (BI.emp : sProp 𝕄)) from by rw [BI.bigSep_emp_const])
      iempintro)
    (T₀ := runSt (W0 m ρ))
    (Tₙ := runEnd m ρ)
    (hch := ⟨fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]; · iexact Hb
      isplitl [Hr]; · iexists _; iexact Hr
      iexists ∅; iexact Ho)
    (QY := fun c s => ∀ b ∈ Pipeline.ucRefs τ sig, s.mem (((c : Thread nD τ)).1, b) = W2 m ρ c b)
    (hfin := fun c s' => by
      iintro ⟨⟨Hb, -⟩, HSI⟩
      unfold StableHlo.held
      imodintro
      iapply (pointsTo_read_all (Pipeline.ucRefs τ sig) (fun b => (((c : Thread nD τ)).1, b)) (W2 m ρ c) s')
      isplitl [Hb] <;> iassumption)
    (hQ := fun s h c =>
      ⟨(h c _ (run_mem_uc main_v1 (by decide))).trans (W2_main_v1 m ρ c),
       (h c _ (run_mem_uc main_arg0 (by decide))).trans (W2_main_arg0 m ρ c),
       (h c _ (run_mem_uc main_arg1 (by decide))).trans (W2_main_arg1 m ρ c),
       (h c _ (run_mem_uc main_arg2 (by decide))).trans (W2_main_arg2 m ρ c),
       (h c _ (run_mem_uc main_arg3 (by decide))).trans (W2_main_arg3 m ρ c)⟩)

/-- The frame: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.KernelIdeal.Flash

end
-- ==== Proof.LibOnlineAttention.lean ====
/-
  A causal attention row computed block by block (running maximum, rescaled running sum of exponentials and rescaled
  running weighted sum) against the whole-row softmax followed by the weighted sum, on the extended reals. General: any
  row, any block width, any number of swept blocks, any row length.

  A row of scores is a function `g : ℕ → EReal` whose entries are real numbers or `-∞` (a masked entry); entry `0` is a
  real number. A sequence of real weights `w : ℕ → EReal` is one column of the values. The block-wise sweep visits blocks
  `0 … n` of `b` entries each and keeps three numbers: the largest entry met so far (`runMax`), the sum of
  `exp (entry - that maximum)` over the entries met so far (`runSum`) and the same sum weighted by `w` (`runAcc`), the two
  sums rescaled by `exp (old maximum - new maximum)` whenever the maximum grows; it returns `runAcc / runSum`. The
  whole-row formula takes the maximum of all `N` entries, normalises `exp (entry - maximum)` by their sum and then takes
  the weighted sum. When every entry the sweep does not visit is `-∞` the two agree (`online_attention`).
-/
import Idealize.ShloMosaic.PureOps.Ideal

noncomputable section

namespace Cert.LibOnlineAttention

open Idealize.ShloMosaic

/-- The largest of the `b` entries of block `j` of the row, from `-∞`. -/
def blockMax (g : ℕ → EReal) (b j : ℕ) : EReal :=
  (Finset.univ : Finset (Fin b)).fold max ⊥ (fun o => g (b * j + o.val))

/-- The running maximum after blocks `0 … j`: each block's maximum joined to the one before, from `-∞`. -/
def runMax (g : ℕ → EReal) (b : ℕ) : ℕ → EReal
  | 0 => max ⊥ (blockMax g b 0)
  | j + 1 => max (runMax g b j) (blockMax g b (j + 1))

/-- The running sum after blocks `0 … j`: the sum before, rescaled from the old maximum to the new one, plus the
    block's own `exp (entry - new maximum)`; from `0` under the maximum `-∞`. -/
def runSum (g : ℕ → EReal) (b : ℕ) : ℕ → EReal
  | 0 => Ideal.exp (⊥ - runMax g b 0) * 0 + ∑ o : Fin b, Ideal.exp (g (b * 0 + o.val) - runMax g b 0)
  | j + 1 => Ideal.exp (runMax g b j - runMax g b (j + 1)) * runSum g b j
      + ∑ o : Fin b, Ideal.exp (g (b * (j + 1) + o.val) - runMax g b (j + 1))

/-- The running weighted sum after blocks `0 … j`, rescaled the same way; from `0`. -/
def runAcc (g w : ℕ → EReal) (b : ℕ) : ℕ → EReal
  | 0 => Ideal.exp (⊥ - runMax g b 0) * 0 + ∑ o : Fin b, Ideal.exp (g (b * 0 + o.val) - runMax g b 0) * w (b * 0 + o.val)
  | j + 1 => Ideal.exp (runMax g b j - runMax g b (j + 1)) * runAcc g w b j
      + ∑ o : Fin b, Ideal.exp (g (b * (j + 1) + o.val) - runMax g b (j + 1)) * w (b * (j + 1) + o.val)

/-- The maximum of the first `N` entries of the row, joined once more to `-∞`. -/
def rowMax (g : ℕ → EReal) (N : ℕ) : EReal :=
  max ⊥ ((Finset.univ : Finset (Fin N)).fold max ⊥ (fun o => g o.val))

/-- The sum over the first `N` entries of `exp (entry - rowMax)`, from `0`. -/
def rowSum (g : ℕ → EReal) (N : ℕ) : EReal :=
  0 + ∑ o : Fin N, Ideal.exp (g o.val - rowMax g N)

/-! ### The real numbers under the extended-real expressions

Every quantity of the sweep and of the whole-row formula is the coercion of a real number: the maxima because entry `0`
is real and no entry is `+∞`, the exponentials because `exp (-∞) = 0`, the sums because they are finite sums of reals. -/

/-- A finite sum of coerced reals is the coercion of the real sum. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The real number `exp (g u - M)`: `0` at a masked entry. -/
def ew (g : ℕ → EReal) (M : ℝ) (u : ℕ) : ℝ :=
  if g u = ⊥ then 0 else Real.exp ((g u).toReal - M)

theorem ew_nonneg (g : ℕ → EReal) (M : ℝ) (u : ℕ) : 0 ≤ ew g M u := by
  unfold ew
  split_ifs
  · exact le_rfl
  · exact (Real.exp_pos _).le

theorem ew_pos (g : ℕ → EReal) (M : ℝ) (u : ℕ) (h : g u ≠ ⊥) : 0 < ew g M u := by
  unfold ew
  rw [if_neg h]
  exact Real.exp_pos _

theorem ew_of_bot (g : ℕ → EReal) (M : ℝ) (u : ℕ) (h : g u = ⊥) : ew g M u = 0 := by
  unfold ew
  rw [if_pos h]

/-- Moving the reference point: `exp (M - M') * exp (a - M) = exp (a - M')`. -/
theorem exp_mul_ew (g : ℕ → EReal) (M M' : ℝ) (u : ℕ) : Real.exp (M - M') * ew g M u = ew g M' u := by
  unfold ew
  split_ifs with h
  · rw [mul_zero]
  · rw [← Real.exp_add]
    congr 1
    ring

/-- The extended-real exponential of `entry - M` is the coercion of `ew`. -/
theorem exp_sub_coe (g : ℕ → EReal) (hg : ∀ u, g u = ⊥ ∨ ∃ r : ℝ, g u = (r : EReal)) (M : ℝ) (u : ℕ) :
    Ideal.exp (g u - (M : EReal)) = ((ew g M u : ℝ) : EReal) := by
  rcases hg u with h | ⟨r, h⟩
  · rw [ew_of_bot g M u h, h, EReal.bot_sub, Ideal.exp_bot, EReal.coe_zero]
  · have hne : g u ≠ ⊥ := by rw [h]; exact EReal.coe_ne_bot r
    unfold ew
    rw [if_neg hne, h, ← EReal.coe_sub, Ideal.exp_coe, EReal.toReal_coe]

theorem coe_toReal_of_real (w : ℕ → EReal) (hw : ∀ u, ∃ r : ℝ, w u = (r : EReal)) (u : ℕ) :
    w u = (((w u).toReal : ℝ) : EReal) := by
  obtain ⟨r, hr⟩ := hw u
  rw [hr, EReal.toReal_coe]

/-- The sum of the exponentials over one block. -/
theorem block_sum_exp (g : ℕ → EReal) (hg : ∀ u, g u = ⊥ ∨ ∃ r : ℝ, g u = (r : EReal)) (M : ℝ) (b j : ℕ) :
    ∑ o : Fin b, Ideal.exp (g (b * j + o.val) - (M : EReal))
      = ((∑ i ∈ Finset.range b, ew g M (b * j + i) : ℝ) : EReal) := by
  rw [coe_finset_sum, ← Fin.sum_univ_eq_sum_range (fun i => ((ew g M (b * j + i) : ℝ) : EReal)) b]
  exact Finset.sum_congr rfl (fun o _ => exp_sub_coe g hg M _)

/-- The weighted sum of the exponentials over one block. -/
theorem block_sum_exp_mul (g w : ℕ → EReal) (hg : ∀ u, g u = ⊥ ∨ ∃ r : ℝ, g u = (r : EReal))
    (hw : ∀ u, ∃ r : ℝ, w u = (r : EReal)) (M : ℝ) (b j : ℕ) :
    ∑ o : Fin b, Ideal.exp (g (b * j + o.val) - (M : EReal)) * w (b * j + o.val)
      = ((∑ i ∈ Finset.range b, ew g M (b * j + i) * (w (b * j + i)).toReal : ℝ) : EReal) := by
  rw [coe_finset_sum,
    ← Fin.sum_univ_eq_sum_range (fun i => ((ew g M (b * j + i) * (w (b * j + i)).toReal : ℝ) : EReal)) b]
  refine Finset.sum_congr rfl (fun o _ => ?_)
  rw [exp_sub_coe g hg M _, EReal.coe_mul, ← coe_toReal_of_real w hw]

/-- No entry is `+∞`, so no block maximum is. -/
theorem blockMax_lt_top (g : ℕ → EReal) (hg : ∀ u, g u = ⊥ ∨ ∃ r : ℝ, g u = (r : EReal)) (b j : ℕ) :
    blockMax g b j < ⊤ := by
  unfold blockMax
  rw [Finset.fold_max_lt]
  refine ⟨bot_lt_top, fun o _ => ?_⟩
  rcases hg (b * j + o.val) with h | ⟨r, h⟩ <;> rw [h]
  · exact bot_lt_top
  · exact EReal.coe_lt_top r

/-- A block maximum is at least each entry of the block. -/
theorem le_blockMax (g : ℕ → EReal) (b j : ℕ) (o : Fin b) : g (b * j + o.val) ≤ blockMax g b j := by
  unfold blockMax
  rw [Finset.le_fold_max]
  exact Or.inr ⟨o, Finset.mem_univ o, le_rfl⟩

/-- Every running maximum is a real number: at least the real entry `0`, and below `+∞`. -/
theorem runMax_real (g : ℕ → EReal) (b : ℕ) (hb : 0 < b)
    (hg : ∀ u, g u = ⊥ ∨ ∃ r : ℝ, g u = (r : EReal)) (h0 : ∃ r : ℝ, g 0 = (r : EReal)) (j : ℕ) :
    ∃ M : ℝ, runMax g b j = (M : EReal) := by
  have key : ∀ j, ⊥ < runMax g b j ∧ runMax g b j < ⊤ := by
    intro j
    induction j with
    | zero =>
      obtain ⟨r, hr⟩ := h0
      have h1 : g 0 ≤ blockMax g b 0 := by simpa using le_blockMax g b 0 ⟨0, hb⟩
      constructor
      · show ⊥ < max ⊥ (blockMax g b 0)
        refine lt_of_lt_of_le ?_ (le_trans h1 (le_max_right _ _))
        rw [hr]
        exact EReal.bot_lt_coe r
      · show max ⊥ (blockMax g b 0) < ⊤
        exact max_lt bot_lt_top (blockMax_lt_top g hg b 0)
    | succ j ih =>
      constructor
      · exact lt_of_lt_of_le ih.1 (le_max_left _ _)
      · exact max_lt ih.2 (blockMax_lt_top g hg b (j + 1))
  obtain ⟨h1, h2⟩ := key j
  exact ⟨(runMax g b j).toReal, (EReal.coe_toReal h2.ne h1.ne').symm⟩

/-- The row maximum is a real number. -/
theorem rowMax_real (g : ℕ → EReal) (N : ℕ) (hN : 0 < N)
    (hg : ∀ u, g u = ⊥ ∨ ∃ r : ℝ, g u = (r : EReal)) (h0 : ∃ r : ℝ, g 0 = (r : EReal)) :
    ∃ M : ℝ, rowMax g N = (M : EReal) := by
  obtain ⟨r, hr⟩ := h0
  have h1 : ⊥ < rowMax g N := by
    unfold rowMax
    refine lt_of_lt_of_le ?_ (le_max_right _ _)
    rw [Finset.lt_fold_max]
    refine Or.inr ⟨⟨0, hN⟩, Finset.mem_univ _, ?_⟩
    show ⊥ < g 0
    rw [hr]
    exact EReal.bot_lt_coe r
  have h2 : rowMax g N < ⊤ := by
    unfold rowMax
    refine max_lt bot_lt_top ?_
    rw [Finset.fold_max_lt]
    refine ⟨bot_lt_top, fun o _ => ?_⟩
    rcases hg o.val with h | ⟨r, h⟩ <;> rw [h]
    · exact bot_lt_top
    · exact EReal.coe_lt_top r
  exact ⟨(rowMax g N).toReal, (EReal.coe_toReal h2.ne h1.ne').symm⟩

/-- The sweep in real numbers: after blocks `0 … j` the running sum is the sum of `exp (entry - M)` over the entries
    met, and the running weighted sum the same sum with the weights, `M` the running maximum. -/
theorem runSum_runAcc_eq (g w : ℕ → EReal) (b : ℕ) (hb : 0 < b)
    (hg : ∀ u, g u = ⊥ ∨ ∃ r : ℝ, g u = (r : EReal)) (h0 : ∃ r : ℝ, g 0 = (r : EReal))
    (hw : ∀ u, ∃ r : ℝ, w u = (r : EReal)) (j : ℕ) :
    ∃ M : ℝ, runMax g b j = (M : EReal) ∧
      runSum g b j = ((∑ i ∈ Finset.range (b * (j + 1)), ew g M i : ℝ) : EReal) ∧
      runAcc g w b j = ((∑ i ∈ Finset.range (b * (j + 1)), ew g M i * (w i).toReal : ℝ) : EReal) := by
  induction j with
  | zero =>
    obtain ⟨M, hM⟩ := runMax_real g b hb hg h0 0
    refine ⟨M, hM, ?_, ?_⟩
    · show Ideal.exp (⊥ - runMax g b 0) * 0 + ∑ o : Fin b, Ideal.exp (g (b * 0 + o.val) - runMax g b 0) = _
      rw [hM, mul_zero, zero_add, block_sum_exp g hg M b 0]
      simp
    · show Ideal.exp (⊥ - runMax g b 0) * 0
          + ∑ o : Fin b, Ideal.exp (g (b * 0 + o.val) - runMax g b 0) * w (b * 0 + o.val) = _
      rw [hM, mul_zero, zero_add, block_sum_exp_mul g w hg hw M b 0]
      simp
  | succ j ih =>
    obtain ⟨M, hM, hS, hA⟩ := ih
    obtain ⟨M', hM'⟩ := runMax_real g b hb hg h0 (j + 1)
    have hlen : b * (j + 1 + 1) = b * (j + 1) + b := by ring
    refine ⟨M', hM', ?_, ?_⟩
    · show Ideal.exp (runMax g b j - runMax g b (j + 1)) * runSum g b j
          + ∑ o : Fin b, Ideal.exp (g (b * (j + 1) + o.val) - runMax g b (j + 1)) = _
      rw [hM, hM', hS, block_sum_exp g hg M' b (j + 1), ← EReal.coe_sub, Ideal.exp_coe, ← EReal.coe_mul,
        ← EReal.coe_add, hlen, Finset.sum_range_add, Finset.mul_sum]
      simp only [exp_mul_ew]
    · show Ideal.exp (runMax g b j - runMax g b (j + 1)) * runAcc g w b j
          + ∑ o : Fin b, Ideal.exp (g (b * (j + 1) + o.val) - runMax g b (j + 1)) * w (b * (j + 1) + o.val) = _
      rw [hM, hM', hA, block_sum_exp_mul g w hg hw M' b (j + 1), ← EReal.coe_sub, Ideal.exp_coe, ← EReal.coe_mul,
        ← EReal.coe_add, hlen, Finset.sum_range_add, Finset.mul_sum]
      simp only [← mul_assoc, exp_mul_ew]

/-- For a row whose entries are real or `-∞`, entry `0` real, swept in `n + 1` blocks of `b ≥ 1` entries, every entry
    from `b * (n + 1)` on being `-∞`: the rescaled weighted sum over the rescaled sum is the softmax-weighted sum of the
    weights over the first `N` entries. -/
theorem online_attention (g w : ℕ → EReal) (b n N : ℕ) (hb : 0 < b) (hN : b * (n + 1) ≤ N)
    (hmask : ∀ u, b * (n + 1) ≤ u → g u = ⊥)
    (hg : ∀ u, g u = ⊥ ∨ ∃ r : ℝ, g u = (r : EReal)) (h0 : ∃ r : ℝ, g 0 = (r : EReal))
    (hw : ∀ u, ∃ r : ℝ, w u = (r : EReal)) :
    Ideal.div (runAcc g w b n) (runSum g b n)
      = ∑ u : Fin N, Ideal.div (Ideal.exp (g u.val - rowMax g N)) (rowSum g N) * w u.val := by
  have hlen : 0 < b * (n + 1) := Nat.mul_pos hb (Nat.succ_pos n)
  have hNpos : 0 < N := lt_of_lt_of_le hlen hN
  obtain ⟨M, _, hS, hA⟩ := runSum_runAcc_eq g w b hb hg h0 hw n
  obtain ⟨M', hM'⟩ := rowMax_real g N hNpos hg h0
  -- a sum over the first N entries of a sequence that vanishes past the swept blocks is the sum over the swept blocks
  have hext : ∀ F : ℕ → ℝ, (∀ u, b * (n + 1) ≤ u → F u = 0) →
      ∑ i ∈ Finset.range N, F i = ∑ i ∈ Finset.range (b * (n + 1)), F i := by
    intro F hF
    obtain ⟨k, hk⟩ := Nat.exists_eq_add_of_le hN
    rw [hk, Finset.sum_range_add, Finset.sum_eq_zero (fun i _ => hF _ (Nat.le_add_right _ _)), add_zero]
  have hg0 : g 0 ≠ ⊥ := by
    obtain ⟨r, hr⟩ := h0
    rw [hr]
    exact EReal.coe_ne_bot r
  -- the swept sum of exponentials is positive: entry 0 contributes a positive term
  have hZpos : 0 < ∑ i ∈ Finset.range (b * (n + 1)), ew g M i :=
    Finset.sum_pos' (fun i _ => ew_nonneg g M i) ⟨0, Finset.mem_range.mpr hlen, ew_pos g M 0 hg0⟩
  -- the whole-row sum, as a real
  have hR : rowSum g N = ((∑ i ∈ Finset.range N, ew g M' i : ℝ) : EReal) := by
    have h := block_sum_exp g hg M' N 0
    simp only [Nat.mul_zero, Nat.zero_add] at h
    unfold rowSum
    rw [hM', zero_add, h]
  -- the two reference points differ by the positive factor exp (M - M')
  have hc : 0 < Real.exp (M - M') := Real.exp_pos _
  have e1 : ∀ i, ew g M' i = Real.exp (M - M') * ew g M i := fun i => (exp_mul_ew g M M' i).symm
  have hZ' : ∑ i ∈ Finset.range N, ew g M' i
      = Real.exp (M - M') * ∑ i ∈ Finset.range (b * (n + 1)), ew g M i := by
    simp only [e1]
    rw [← Finset.mul_sum, hext (ew g M) (fun u hu => ew_of_bot g M u (hmask u hu))]
  have hZ'pos : 0 < ∑ i ∈ Finset.range N, ew g M' i := by
    rw [hZ']
    exact mul_pos hc hZpos
  -- the right-hand side, as a real
  have hRHS : ∑ u : Fin N, Ideal.div (Ideal.exp (g u.val - rowMax g N)) (rowSum g N) * w u.val
      = ((∑ i ∈ Finset.range N, ew g M' i * (1 / ∑ i ∈ Finset.range N, ew g M' i) * (w i).toReal : ℝ) : EReal) := by
    rw [coe_finset_sum, ← Fin.sum_univ_eq_sum_range
      (fun i => ((ew g M' i * (1 / ∑ i ∈ Finset.range N, ew g M' i) * (w i).toReal : ℝ) : EReal)) N]
    refine Finset.sum_congr rfl (fun u _ => ?_)
    rw [hM', hR, exp_sub_coe g hg M' _, Ideal.div_coe hZ'pos.ne', EReal.coe_mul, EReal.coe_mul,
      ← coe_toReal_of_real w hw]
  rw [hRHS, hS, hA, Ideal.div_coe hZpos.ne', ← EReal.coe_mul]
  congr 1
  rw [hZ']
  simp only [e1]
  have hterm : ∀ i, Real.exp (M - M') * ew g M i
        * (1 / (Real.exp (M - M') * ∑ i ∈ Finset.range (b * (n + 1)), ew g M i)) * (w i).toReal
      = (1 / ∑ i ∈ Finset.range (b * (n + 1)), ew g M i) * (ew g M i * (w i).toReal) := by
    intro i
    field_simp
  simp only [hterm]
  rw [← Finset.mul_sum,
    hext (fun i => ew g M i * (w i).toReal) (fun u hu => by rw [ew_of_bot g M u (hmask u hu), zero_mul])]
  ring

end Cert.LibOnlineAttention

end
-- ==== Proof.Spec.lean ====
/-
  Causal single-head attention on the extended reals, index by index: the three projections, the masked and scaled
  scores of one query row, and the output row computed two ways — by the whole-row softmax (`refOut`) and by the
  block-wise sweep over the key blocks up to the query's own block (`kernOut`).
-/
import Idealize.ShloMosaic.PureOps.Ideal
import Idealize.ShloMosaic.Lib.ValueIdx
import proofs.«169510_j23699629540193_2_alg».proof.Proof.LibOnlineAttention

noncomputable section

namespace Cert.Attn

open Idealize.ShloMosaic Idealize.ShloMosaic.ValueIdx Cert.LibOnlineAttention

/-- The input sequence [8, 2048, 1024], a weight matrix [1024, 64], a projected sequence [8, 2048, 64]. -/
abbrev SX : Shape := ⟨3, ![8, 2048, 1024]⟩
abbrev SW : Shape := ⟨2, ![1024, 64]⟩
abbrev SQ : Shape := ⟨3, ![8, 2048, 64]⟩

/-- A projection: entry (batch, position, head coordinate) is the sum over the 1024 channels of the input at
    (batch, position, channel) times the weight at (channel, head coordinate). -/
def proj (x : SX.Idx → EReal) (w : SW.Idx → EReal) : SQ.Idx → EReal :=
  fun i => ∑ c : Fin 1024, x (ix3 (i 0) (i 1) c) * w (ix2 c (i 2))

/-- The score of key position `u` for query position `t` in batch `bt`: the dot product of the query and key rows
    scaled by 1/8 (the word 0x3E000000) when the key is not after the query, `-∞` otherwise. -/
def scoreAt (q k : SQ.Idx → EReal) (bt : Fin 8) (t u : Fin 2048) : EReal :=
  if u.val ≤ t.val then (∑ h : Fin 64, q (ix3 bt t h) * k (ix3 bt u h)) * Ideal.ofBits .f32 0x3E000000#32 else ⊥

/-- The row of scores of query (bt, t) as a sequence; past the 2048 keys it is `-∞`. -/
def gRow (q k : SQ.Idx → EReal) (bt : Fin 8) (t : Fin 2048) : ℕ → EReal :=
  fun u => if h : u < 2048 then scoreAt q k bt t ⟨u, h⟩ else ⊥

/-- Column `hh` of the values of batch `bt` as a sequence; past the 2048 keys it is `0`. -/
def wRow (v : SQ.Idx → EReal) (bt : Fin 8) (hh : Fin 64) : ℕ → EReal :=
  fun u => if h : u < 2048 then v (ix3 bt ⟨u, h⟩ hh) else 0

/-- The reference: softmax of the whole score row, then the weighted sum of the value rows. -/
def refOut (x : SX.Idx → EReal) (wk wq wv : SW.Idx → EReal) : SQ.Idx → EReal :=
  fun i => ∑ u : Fin 2048,
    Ideal.div (Ideal.exp (gRow (proj x wq) (proj x wk) (i 0) (i 1) u.val - rowMax (gRow (proj x wq) (proj x wk) (i 0) (i 1)) 2048))
      (rowSum (gRow (proj x wq) (proj x wk) (i 0) (i 1)) 2048) * wRow (proj x wv) (i 0) (i 2) u.val

/-- The kernel: the sweep over key blocks `0 … t / 512` of 512 keys each, then one division. -/
def kernOut (x : SX.Idx → EReal) (wk wq wv : SW.Idx → EReal) : SQ.Idx → EReal :=
  fun i => Ideal.div
    (runAcc (gRow (proj x wq) (proj x wk) (i 0) (i 1)) (wRow (proj x wv) (i 0) (i 2)) 512 ((i 1).val / 512))
    (runSum (gRow (proj x wq) (proj x wk) (i 0) (i 1)) 512 ((i 1).val / 512))

/-! ### Finite inputs give real projections, real scores below the diagonal and real values -/

/-- A finite sum of real numbers is a real number. -/
theorem sum_real {ι : Type*} (s : Finset ι) (f : ι → EReal) (hf : ∀ i ∈ s, ∃ r : ℝ, f i = (r : EReal)) :
    ∃ r : ℝ, ∑ i ∈ s, f i = (r : EReal) := by
  classical
  revert hf
  refine Finset.induction_on s ?_ ?_
  · intro _
    exact ⟨0, by simp⟩
  · intro a s ha ih hf
    obtain ⟨r1, h1⟩ := hf a (Finset.mem_insert_self a s)
    obtain ⟨r2, h2⟩ := ih (fun i hi => hf i (Finset.mem_insert_of_mem hi))
    exact ⟨r1 + r2, by rw [Finset.sum_insert ha, h1, h2, EReal.coe_add]⟩

/-- A product of two real numbers is a real number. -/
theorem mul_real {a b : EReal} (ha : ∃ r : ℝ, a = (r : EReal)) (hb : ∃ r : ℝ, b = (r : EReal)) :
    ∃ r : ℝ, a * b = (r : EReal) := by
  obtain ⟨r1, h1⟩ := ha
  obtain ⟨r2, h2⟩ := hb
  exact ⟨r1 * r2, by rw [h1, h2, EReal.coe_mul]⟩

/-- A projection of a real sequence by a real matrix is real. -/
theorem proj_real (x : SX.Idx → EReal) (w : SW.Idx → EReal)
    (hx : ∀ i, ∃ r : ℝ, x i = (r : EReal)) (hw : ∀ i, ∃ r : ℝ, w i = (r : EReal)) (i : SQ.Idx) :
    ∃ r : ℝ, proj x w i = (r : EReal) :=
  sum_real _ _ (fun _ _ => mul_real (hx _) (hw _))

/-- The word 0x3E000000 is the real number 1/8. -/
theorem ofBits_eighth_f32 : Ideal.ofBits .f32 0x3E000000#32 = (((1 : ℝ) / 8 : ℝ) : EReal) := by
  simp [Ideal.ofBits, Ideal.ieee, -EReal.coe_mul]; norm_num

/-- At or below the diagonal the score is a real number. -/
theorem scoreAt_real (q k : SQ.Idx → EReal) (hq : ∀ i, ∃ r : ℝ, q i = (r : EReal))
    (hk : ∀ i, ∃ r : ℝ, k i = (r : EReal)) (bt : Fin 8) (t u : Fin 2048) (h : u.val ≤ t.val) :
    ∃ r : ℝ, scoreAt q k bt t u = (r : EReal) := by
  unfold scoreAt
  rw [if_pos h]
  exact mul_real (sum_real _ _ (fun _ _ => mul_real (hq _) (hk _))) ⟨_, ofBits_eighth_f32⟩

/-- Every entry of the score row is real or `-∞`. -/
theorem gRow_real_or_bot (q k : SQ.Idx → EReal) (hq : ∀ i, ∃ r : ℝ, q i = (r : EReal))
    (hk : ∀ i, ∃ r : ℝ, k i = (r : EReal)) (bt : Fin 8) (t : Fin 2048) (u : ℕ) :
    gRow q k bt t u = ⊥ ∨ ∃ r : ℝ, gRow q k bt t u = (r : EReal) := by
  unfold gRow
  by_cases hu : u < 2048
  · rw [dif_pos hu]
    by_cases h : u ≤ t.val
    · exact Or.inr (scoreAt_real q k hq hk bt t ⟨u, hu⟩ h)
    · left
      unfold scoreAt
      rw [if_neg h]
  · rw [dif_neg hu]
    exact Or.inl rfl

/-- Entry `0` of the score row is real: key `0` is never after the query. -/
theorem gRow_zero_real (q k : SQ.Idx → EReal) (hq : ∀ i, ∃ r : ℝ, q i = (r : EReal))
    (hk : ∀ i, ∃ r : ℝ, k i = (r : EReal)) (bt : Fin 8) (t : Fin 2048) :
    ∃ r : ℝ, gRow q k bt t 0 = (r : EReal) := by
  unfold gRow
  rw [dif_pos (by norm_num : (0 : ℕ) < 2048)]
  exact scoreAt_real q k hq hk bt t ⟨0, by norm_num⟩ (Nat.zero_le _)

/-- Past the query's own block of 512 keys every entry of the score row is `-∞`. -/
theorem gRow_mask (q k : SQ.Idx → EReal) (bt : Fin 8) (t : Fin 2048) (u : ℕ)
    (h : 512 * (t.val / 512 + 1) ≤ u) : gRow q k bt t u = ⊥ := by
  unfold gRow
  by_cases hu : u < 2048
  · rw [dif_pos hu]
    unfold scoreAt
    have hlt : ¬ (u ≤ t.val) := by omega
    rw [if_neg hlt]
  · rw [dif_neg hu]

/-- A column of real values is a real sequence. -/
theorem wRow_real (v : SQ.Idx → EReal) (hv : ∀ i, ∃ r : ℝ, v i = (r : EReal)) (bt : Fin 8) (hh : Fin 64) (u : ℕ) :
    ∃ r : ℝ, wRow v bt hh u = (r : EReal) := by
  unfold wRow
  by_cases hu : u < 2048
  · rw [dif_pos hu]
    exact hv _
  · rw [dif_neg hu]
    exact ⟨0, by simp⟩

/-- With finite inputs the two are the same array. -/
theorem kernOut_eq_refOut (x : SX.Idx → EReal) (wk wq wv : SW.Idx → EReal)
    (hx : ∀ i, ∃ r : ℝ, x i = (r : EReal)) (hwk : ∀ i, ∃ r : ℝ, wk i = (r : EReal))
    (hwq : ∀ i, ∃ r : ℝ, wq i = (r : EReal)) (hwv : ∀ i, ∃ r : ℝ, wv i = (r : EReal)) :
    kernOut x wk wq wv = refOut x wk wq wv := by
  funext i
  have hq := proj_real x wq hx hwq
  have hk := proj_real x wk hx hwk
  have hv := proj_real x wv hx hwv
  have ht : (i 1).val < 2048 := (i 1).isLt
  have hN : 512 * ((i 1).val / 512 + 1) ≤ 2048 := by omega
  exact (online_attention (gRow (proj x wq) (proj x wk) (i 0) (i 1)) (wRow (proj x wv) (i 0) (i 2)) 512
    ((i 1).val / 512) 2048 (by norm_num) hN
    (fun u hu => gRow_mask (proj x wq) (proj x wk) (i 0) (i 1) u hu)
    (fun u => gRow_real_or_bot (proj x wq) (proj x wk) hq hk (i 0) (i 1) u)
    (gRow_zero_real (proj x wq) (proj x wk) hq hk (i 0) (i 1))
    (fun u => wRow_real (proj x wv) hv (i 0) (i 2) u))

end Cert.Attn

end
-- ==== Proof.FlashProjValue.lean ====
/- The projection call's three output arrays, entry by entry: each is the product of the input sequence with one
   weight matrix. -/
import proofs.«169510_j23699629540193_2_alg».proof.Proof.FlashProj
import proofs.«169510_j23699629540193_2_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.FlashValue

open Cert.KernelIdeal Cert.KernelIdeal.Gen
open Idealize.ShloMosaic Idealize.ShloMosaic.TcCoe Idealize.SL.Sem
open Idealize.ShloMosaic.ValueIdx
open Idealize.ShloMosaic.Pipeline (Dat)

/-! ## The body's payloads at an entry -/

/-- The staged input block with its unit batch axis dropped: entry (r, k) is entry (0, r, k) of the block. -/
theorem k0_pay1_apply (x0 : Vec Ideal S1x512x1024 .f32) (r : Fin 512) (k : Fin 1024) :
    k0_pay1 x0 (ix2 r k) = x0 (ix3 (0 : Fin 1) r k) := by
  unfold k0_pay1
  refine (shapeCast_dropUnit_apply ![512, 1024] x0 _ (ix2 r k)).trans (congrArg x0 ?_)
  funext a
  match a with
  | ⟨0, _⟩ => rfl
  | ⟨1, _⟩ => rfl
  | ⟨2, _⟩ => rfl

/-- The contraction of a [512, 1024] matrix with a [1024, 64] matrix, at entry (r, h): the sum over the 1024 shared
    coordinates of the products of row r of the left with column h of the right. -/
theorem sum_contr (lhs : S512x1024.Idx → EReal) (rhs : S1024x64.Idx → EReal) (r : Fin 512) (h : Fin 64) :
    ∑ q : dot_S512x1024_S1024x64_S512x64_1_0_0_1_n_n.contr.Idx,
        lhs (dot_S512x1024_S1024x64_S512x64_1_0_0_1_n_n.lhsIdx (ix2 r h) q) * rhs (dot_S512x1024_S1024x64_S512x64_1_0_0_1_n_n.rhsIdx (ix2 r h) q)
      = ∑ k : Fin 1024, lhs (ix2 r k) * rhs (ix2 k h) := by
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 r h) ((contrEquiv1 dot_S512x1024_S1024x64_S512x64_1_0_0_1_n_n 1024 rfl rfl).symm k) = ix2 r k :=
    funext fun a => Fin.ext (by
      match a with
      | ⟨0, _⟩ => rfl
      | ⟨1, _⟩ => exact (dot_S512x1024_S1024x64_S512x64_1_0_0_1_n_n.lhsIdx_val_of_single rfl _ _).trans hk)
  have er : dot_S512x1024_S1024x64_S512x64_1_0_0_1_n_n.rhsIdx (ix2 r h) ((contrEquiv1 dot_S512x1024_S1024x64_S512x64_1_0_0_1_n_n 1024 rfl rfl).symm k) = ix2 k h :=
    funext fun a => Fin.ext (by
      match a with
      | ⟨0, _⟩ => exact (dot_S512x1024_S1024x64_S512x64_1_0_0_1_n_n.rhsIdx_val_of_single rfl _ _).trans hk
      | ⟨1, _⟩ => rfl)
  rw [el, er]

/-- A product block with its unit batch axis restored, at entry (0, r, h): the sum over the 1024 channels of the input
    block at (0, r, channel) times the weight at (channel, h). The narrowing format changes are the identity on the
    extended reals, and the accumulator the product is added to is zero. -/
theorem product_apply (x0 : Vec Ideal S1x512x1024 .f32) (x1 : FVec Ideal S1024x64 .bf16)
    (hc : S512x64.ShapeCasts S1x512x64) (r : Fin 512) (h : Fin 64) :
    shapeCast S1x512x64
        (FloatOps.matmul dot_S512x1024_S1024x64_S512x64_1_0_0_1_n_n none (k0_pay1 x0) x1 (constant (F := Ideal) S512x64 .f32 0x00000000#32)) hc
        (ix3 (0 : Fin 1) r h)
      = ∑ k : Fin 1024, x0 (ix3 (0 : Fin 1) r k) * x1 (ix2 k h) := by
  refine (shapeCast_addUnit_apply ![512, 64] _ hc (ix3 (0 : Fin 1) r h)).trans ?_
  have e : (fun a : Fin 2 => (ix3 (0 : Fin 1) r h) a.succ) = ix2 r h := funext fun a => by
    match a with
    | ⟨0, _⟩ => rfl
    | ⟨1, _⟩ => rfl
  rw [e, Ideal.matmul_constant_zero_apply, sum_contr]
  exact Finset.sum_congr rfl fun k _ => by rw [k0_pay1_apply]

theorem k0_pay2_apply (x0 : Vec Ideal S1x512x1024 .f32) (x1 : Vec Ideal S1024x64 .f32) (r : Fin 512) (h : Fin 64) :
    k0_pay2 x0 x1 (ix3 (0 : Fin 1) r h) = ∑ k : Fin 1024, x0 (ix3 (0 : Fin 1) r k) * x1 (ix2 k h) :=
  product_apply x0 x1 _ r h
theorem k0_pay3_apply (x0 : Vec Ideal S1x512x1024 .f32) (x2 : Vec Ideal S1024x64 .f32) (r : Fin 512) (h : Fin 64) :
    k0_pay3 x0 x2 (ix3 (0 : Fin 1) r h) = ∑ k : Fin 1024, x0 (ix3 (0 : Fin 1) r k) * x2 (ix2 k h) :=
  product_apply x0 x2 _ r h
theorem k0_pay4_apply (x0 : Vec Ideal S1x512x1024 .f32) (x3 : Vec Ideal S1024x64 .f32) (r : Fin 512) (h : Fin 64) :
    k0_pay4 x0 x3 (ix3 (0 : Fin 1) r h) = ∑ k : Fin 1024, x0 (ix3 (0 : Fin 1) r k) * x3 (ix2 k h) :=
  product_apply x0 x3 _ r h

/-! ## From blocks to the arrays -/

-- the TensorCore's buffer contents when the region is entered, at the extended reals
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The payloads at any entry of the block, by its coordinates (the batch coordinate of a block is 0). -/
theorem k0_pay2_entry (x0 : Vec Ideal S1x512x1024 .f32) (x1 : Vec Ideal S1024x64 .f32) (j : S1x512x64.Idx) :
    k0_pay2 x0 x1 j = ∑ k : Fin 1024, x0 (ix3 (j 0) (j 1) k) * x1 (ix2 k (j 2)) := by
  obtain ⟨b, r, h, rfl⟩ : ∃ (b : Fin 1) (r : Fin 512) (h : Fin 64), j = ix3 b r h := ⟨j 0, j 1, j 2, eq_ix3 j⟩
  obtain rfl : b = 0 := Subsingleton.elim _ _
  exact k0_pay2_apply x0 x1 r h
theorem k0_pay3_entry (x0 : Vec Ideal S1x512x1024 .f32) (x1 : Vec Ideal S1024x64 .f32) (j : S1x512x64.Idx) :
    k0_pay3 x0 x1 j = ∑ k : Fin 1024, x0 (ix3 (j 0) (j 1) k) * x1 (ix2 k (j 2)) := by
  obtain ⟨b, r, h, rfl⟩ : ∃ (b : Fin 1) (r : Fin 512) (h : Fin 64), j = ix3 b r h := ⟨j 0, j 1, j 2, eq_ix3 j⟩
  obtain rfl : b = 0 := Subsingleton.elim _ _
  exact k0_pay3_apply x0 x1 r h
theorem k0_pay4_entry (x0 : Vec Ideal S1x512x1024 .f32) (x1 : Vec Ideal S1024x64 .f32) (j : S1x512x64.Idx) :
    k0_pay4 x0 x1 j = ∑ k : Fin 1024, x0 (ix3 (j 0) (j 1) k) * x1 (ix2 k (j 2)) := by
  obtain ⟨b, r, h, rfl⟩ : ∃ (b : Fin 1) (r : Fin 512) (h : Fin 64), j = ix3 b r h := ⟨j 0, j 1, j 2, eq_ix3 j⟩
  obtain rfl : b = 0 := Subsingleton.elim _ _
  exact k0_pay4_apply x0 x1 r h

/-- The printed index maps over the 32 grid points: point `t` is batch `t / 4`, row block `t % 4`, for the input
    sequence and the three outputs alike; the weights are always at block (0, 0). -/
theorem idx_facts : ∀ t : Fin cfg0.N,
    win0_0.index t (0 : Fin 3) = t.val / 4 ∧ win0_0.index t (1 : Fin 3) = t.val % 4 ∧ win0_0.index t (2 : Fin 3) = 0
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0 :=
  (by decide +kernel : ∀ t : Fin grid0.N, _)

/-- The input window's block at point `t`: rows `(t % 4) · 512 …` of batch `t / 4` of the input sequence. -/
theorem xblk_apply (c : Dev nD) (t : Fin cfg0.N) (y : S1x512x1024.Idx) (i : S8x2048x1024.Idx)
    (h0 : (i 0).val = t.val / 4 + (y 0).val) (h1 : (i 1).val = t.val % 4 * 512 + (y 1).val) (h2 : (i 2).val = (y 2).val) :
    (Flash.iblk0 V c 0 t : Vec Ideal S1x512x1024 .f32) y = (V c main_arg0 : S8x2048x1024.Idx → EReal) i := by
  obtain ⟨e00, e01, e02, -⟩ := idx_facts t
  unfold Flash.iblk0
  rw [View.read_apply]
  show V c main_arg0 _ = V c main_arg0 _
  congr 1
  funext a
  apply Fin.ext
  match a with
  | ⟨0, _⟩ => show win0_0.index t (0 : Fin 3) * 1 + 1 * (y 0).val = (i 0).val; rw [e00, h0]; omega
  | ⟨1, _⟩ => show win0_0.index t (1 : Fin 3) * 512 + 1 * (y 1).val = (i 1).val; rw [e01, h1]; omega
  | ⟨2, _⟩ => show win0_0.index t (2 : Fin 3) * 1024 + 1 * (y 2).val = (i 2).val; rw [e02, h2]; omega

/-- Weight window 1's block at any point is the whole weight matrix. -/
theorem wblk1_apply (c : Dev nD) (t : Fin cfg0.N) (y : S1024x64.Idx) (i : S1024x64.Idx)
    (h0 : (i 0).val = (y 0).val) (h1 : (i 1).val = (y 1).val) :
    (Flash.iblk0 V c 1 t : Vec Ideal S1024x64 .f32) y = (V c main_arg2 : S1024x64.Idx → EReal) i := by
  obtain ⟨-, -, -, e1, e2, e3, -⟩ := idx_facts t
  unfold Flash.iblk0
  rw [View.read_apply]
  show V c main_arg2 _ = V c main_arg2 _
  congr 1
  funext a
  apply Fin.ext
  match a with
  | ⟨0, _⟩ => show win0_1.index t (0 : Fin 2) * 1024 + 1 * (y 0).val = (i 0).val; rw [e1.1, h0]; omega
  | ⟨1, _⟩ => show win0_1.index t (1 : Fin 2) * 64 + 1 * (y 1).val = (i 1).val; rw [e1.2, h1]; omega

/-- Weight window 2's block at any point is the whole weight matrix. -/
theorem wblk2_apply (c : Dev nD) (t : Fin cfg0.N) (y : S1024x64.Idx) (i : S1024x64.Idx)
    (h0 : (i 0).val = (y 0).val) (h1 : (i 1).val = (y 1).val) :
    (Flash.iblk0 V c 2 t : Vec Ideal S1024x64 .f32) y = (V c main_arg1 : S1024x64.Idx → EReal) i := by
  obtain ⟨-, -, -, e1, e2, e3, -⟩ := idx_facts t
  unfold Flash.iblk0
  rw [View.read_apply]
  show V c main_arg1 _ = V c main_arg1 _
  congr 1
  funext a
  apply Fin.ext
  match a with
  | ⟨0, _⟩ => show win0_2.index t (0 : Fin 2) * 1024 + 1 * (y 0).val = (i 0).val; rw [e2.1, h0]; omega
  | ⟨1, _⟩ => show win0_2.index t (1 : Fin 2) * 64 + 1 * (y 1).val = (i 1).val; rw [e2.2, h1]; omega

/-- Weight window 3's block at any point is the whole weight matrix. -/
theorem wblk3_apply (c : Dev nD) (t : Fin cfg0.N) (y : S1024x64.Idx) (i : S1024x64.Idx)
    (h0 : (i 0).val = (y 0).val) (h1 : (i 1).val = (y 1).val) :
    (Flash.iblk0 V c 3 t : Vec Ideal S1024x64 .f32) y = (V c main_arg3 : S1024x64.Idx → EReal) i := by
  obtain ⟨-, -, -, e1, e2, e3, -⟩ := idx_facts t
  unfold Flash.iblk0
  rw [View.read_apply]
  show V c main_arg3 _ = V c main_arg3 _
  congr 1
  funext a
  apply Fin.ext
  match a with
  | ⟨0, _⟩ => show win0_3.index t (0 : Fin 2) * 1024 + 1 * (y 0).val = (i 0).val; rw [e3.1, h0]; omega
  | ⟨1, _⟩ => show win0_3.index t (1 : Fin 2) * 64 + 1 * (y 1).val = (i 1).val; rw [e3.2, h1]; omega

/-- What point `t` writes back through window 4 is its block of the query projection. -/
theorem flushed4_eq (c : Dev nD) (t : Fin cfg0.N) :
    (Flash.dat0 V c).flushed 4 t = ((cfg0.win 4).blk t).view.read (Elt Ideal) (Cert.Attn.proj (V c main_arg0) (V c main_arg2)) := by
  show (cfg0.win 4).cut (grid0.coords t) ((Flash.dat0 V c).after 4 t) = _
  rw [Flash.after0_4]
  unfold Flash.out0_4
  rw [View.canon_unit_zero hz3]
  simp only [View.ld_unit_zero (S := S1x512x1024) hz3, View.ld_unit_zero (S := S1024x64) hz2]
  obtain ⟨e00, e01, e02, e1, e2, e3, e40, e41, e42, e50, e51, e52, e60, e61, e62⟩ := idx_facts t
  funext j
  show k0_pay2 (Flash.iblk0 V c 0 t) (Flash.iblk0 V c 1 t) j
    = Cert.Attn.proj (V c main_arg0) (V c main_arg2) (((cfg0.win 4).blk t).view.emb j)
  refine (k0_pay2_entry _ _ j).trans ?_
  unfold Cert.Attn.proj
  refine Finset.sum_congr rfl fun k _ => ?_
  refine congrArg₂ (· * ·) (xblk_apply V c t _ _ ?_ ?_ ?_) (wblk1_apply V c t _ _ ?_ ?_)
  · show win0_4.index t (0 : Fin 3) * 1 + 1 * (j 0).val = t.val / 4 + (j 0).val; omega
  · show win0_4.index t (1 : Fin 3) * 512 + 1 * (j 1).val = t.val % 4 * 512 + (j 1).val; omega
  · rfl
  · rfl
  · show win0_4.index t (2 : Fin 3) * 64 + 1 * (j 2).val = (j 2).val; omega

/-- An entry of the array is in point `t`'s block of window 4 iff each coordinate is in the block's range. -/
theorem mem_blk4 (t : Fin cfg0.N) (i : S8x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v0_0).slice (win0_4.rect t)).set ↔ _
  rw [View.set_slice_whole, Rect.mem_set_unit]
  exact Iff.rfl

/-- Every entry of the array is in the block of the point of its batch and its row's block of 512. -/
theorem cover4 (i : S8x2048x64.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 64 := (i 2).isLt
  have hN : cfg0.N = 32 := N_0
  have hlt : (i 0).val * 4 + (i 1).val / 512 < cfg0.N := by rw [hN]; omega
  obtain ⟨t, ht⟩ : ∃ t : Fin cfg0.N, t.val = (i 0).val * 4 + (i 1).val / 512 := ⟨⟨_, hlt⟩, rfl⟩
  refine ⟨t, flush0_4 t, ?_⟩
  rw [mem_blk4]
  obtain ⟨e00, e01, e02, e1, e2, e3, e40, e41, e42, e50, e51, e52, e60, e61, e62⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- What point `t` writes back through window 5 is its block of the key projection. -/
theorem flushed5_eq (c : Dev nD) (t : Fin cfg0.N) :
    (Flash.dat0 V c).flushed 5 t = ((cfg0.win 5).blk t).view.read (Elt Ideal) (Cert.Attn.proj (V c main_arg0) (V c main_arg1)) := by
  show (cfg0.win 5).cut (grid0.coords t) ((Flash.dat0 V c).after 5 t) = _
  rw [Flash.after0_5]
  unfold Flash.out0_5
  rw [View.canon_unit_zero hz3]
  simp only [View.ld_unit_zero (S := S1x512x1024) hz3, View.ld_unit_zero (S := S1024x64) hz2]
  obtain ⟨e00, e01, e02, e1, e2, e3, e40, e41, e42, e50, e51, e52, e60, e61, e62⟩ := idx_facts t
  funext j
  show k0_pay3 (Flash.iblk0 V c 0 t) (Flash.iblk0 V c 2 t) j
    = Cert.Attn.proj (V c main_arg0) (V c main_arg1) (((cfg0.win 5).blk t).view.emb j)
  refine (k0_pay3_entry _ _ j).trans ?_
  unfold Cert.Attn.proj
  refine Finset.sum_congr rfl fun k _ => ?_
  refine congrArg₂ (· * ·) (xblk_apply V c t _ _ ?_ ?_ ?_) (wblk2_apply V c t _ _ ?_ ?_)
  · show win0_5.index t (0 : Fin 3) * 1 + 1 * (j 0).val = t.val / 4 + (j 0).val; omega
  · show win0_5.index t (1 : Fin 3) * 512 + 1 * (j 1).val = t.val % 4 * 512 + (j 1).val; omega
  · rfl
  · rfl
  · show win0_5.index t (2 : Fin 3) * 64 + 1 * (j 2).val = (j 2).val; omega

/-- An entry of the array is in point `t`'s block of window 5 iff each coordinate is in the block's range. -/
theorem mem_blk5 (t : Fin cfg0.N) (i : S8x2048x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v0_1).slice (win0_5.rect t)).set ↔ _
  rw [View.set_slice_whole, Rect.mem_set_unit]
  exact Iff.rfl

/-- Every entry of the array is in the block of the point of its batch and its row's block of 512. -/
theorem cover5 (i : S8x2048x64.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 64 := (i 2).isLt
  have hN : cfg0.N = 32 := N_0
  have hlt : (i 0).val * 4 + (i 1).val / 512 < cfg0.N := by rw [hN]; omega
  obtain ⟨t, ht⟩ : ∃ t : Fin cfg0.N, t.val = (i 0).val * 4 + (i 1).val / 512 := ⟨⟨_, hlt⟩, rfl⟩
  refine ⟨t, flush0_5 t, ?_⟩
  rw [mem_blk5]
  obtain ⟨e00, e01, e02, e1, e2, e3, e40, e41, e42, e50, e51, e52, e60, e61, e62⟩ := idx_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-- What point `t` writes back through window 6 is its block of the value projection. -/
theorem flushed6_eq (c : Dev nD) (t : Fin cfg0.N) :
    (Flash.dat0 V c).flushed 6 t = ((cfg0.win 6).blk t).view.read (Elt Ideal) (Cert.Attn.proj (V c main_arg0) (V c main_arg3)) := by
  show (cfg0.win 6).cut (grid0.coords t) ((Flash.dat0 V c).after 6 t) = _
  rw [Flash.after0_6]
  unfold Flash.out0_6
  rw [View.canon_unit_zero hz3]
  simp only [View.ld_unit_zero (S := S1x512x1024) hz3, View.ld_unit_zero (S := S1024x64) hz2]
  obtain ⟨e00, e01, e02, e1, e2, e3, e40, e41, e42, e50, e51, e52, e60, e61, e62⟩ := idx_facts t
  funext j
  show k0_pay4 (Flash.iblk0 V c 0 t) (Flash.iblk0 V c 3 t) j
    = Cert.Attn.proj (V c main_arg0) (V c main_arg3) (((cfg0.win 6).blk t).view.emb j)
  refine (k0_pay4_entry _ _ j).trans ?_
  unfold Cert.Attn.proj
  refine Finset.sum_congr rfl fun k _ => ?_
  refine congrArg₂ (· * ·) (xblk_apply V c t _ _ ?_ ?_ ?_) (wblk3_apply V c t _ _ ?_ ?_)
  · show win0_6.index t (0 : Fin 3) * 1 + 1 * (j 0).val = t.val / 4 + (j 0).val; omega
  · show win0_6.index t (1 : Fin 3) * 512 + 1 * (j 1).val = t.val % 4 * 512 + (j 1).val; omega
  · rfl
  · rfl
  · show win0_6.index t (2 : Fin 3) * 64 + 1 * (j 2).val = (j 2).val; omega

/-- An entry of the array is in point `t`'s block of window 6 iff each coordinate is in the block's range. -/
theorem mem_blk6 (t : Fin cfg0.N) (i : S8x2048x64.Idx) :
    i ∈ ((cfg0.win 6).blk t).view.set ↔ ∀ a : Fin 3, win0_6.index t a * S1x512x64.size a ≤ (i a).val ∧ (i a).val < win0_6.index t a * S1x512x64.size a + S1x512x64.size a := by
  show i ∈ ((View.whole main_v0_2).slice (win0_6.rect t)).set ↔ _
  rw [View.set_slice_whole, Rect.mem_set_unit]
  exact Iff.rfl

/-- Every entry of the array is in the block of the point of its batch and its row's block of 512. -/
theorem cover6 (i : S8x2048x64.Idx) : ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 64 := (i 2).isLt
  have hN : cfg0.N = 32 := N_0
  have hlt : (i 0).val * 4 + (i 1).val / 512 < cfg0.N := by rw [hN]; omega
  obtain ⟨t, ht⟩ : ∃ t : Fin cfg0.N, t.val = (i 0).val * 4 + (i 1).val / 512 := ⟨⟨_, hlt⟩, rfl⟩
  refine ⟨t, flush0_6 t, ?_⟩
  rw [mem_blk6]
  obtain ⟨e00, e01, e02, e1, e2, e3, e40, e41, e42, e50, e51, e52, e60, e61, e62⟩ := idx_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 64 ≤ (i 2).val ∧ (i 2).val < win0_6.index t (2 : Fin 3) * 64 + 64; omega

/-! ## The three arrays after the projection call -/

/-- The query array is the input sequence times the query weight. -/
theorem q_array (c : Dev nD) : (Flash.dat0 (F := Ideal) V c).arrAt 4 cfg0.N = Cert.Attn.proj (V c main_arg0) (V c main_arg2) :=
  (Flash.dat0 (F := Ideal) V c).arrAt_eq_of_cover 4 (Cert.Attn.proj (V c main_arg0) (V c main_arg2)) (fun t _ => flushed4_eq V c t) cover4
/-- The key array is the input sequence times the key weight. -/
theorem k_array (c : Dev nD) : (Flash.dat0 (F := Ideal) V c).arrAt 5 cfg0.N = Cert.Attn.proj (V c main_arg0) (V c main_arg1) :=
  (Flash.dat0 (F := Ideal) V c).arrAt_eq_of_cover 5 (Cert.Attn.proj (V c main_arg0) (V c main_arg1)) (fun t _ => flushed5_eq V c t) cover5
/-- The value array is the input sequence times the value weight. -/
theorem v_array (c : Dev nD) : (Flash.dat0 (F := Ideal) V c).arrAt 6 cfg0.N = Cert.Attn.proj (V c main_arg0) (V c main_arg3) :=
  (Flash.dat0 (F := Ideal) V c).arrAt_eq_of_cover 6 (Cert.Attn.proj (V c main_arg0) (V c main_arg3)) (fun t _ => flushed6_eq V c t) cover6

end Cert.KernelIdeal.FlashValue

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibTransposeEntry.lean ====
/-
  A transposed matrix read at an entry.

  The transpose with permutation [1, 0] of a [d, k] matrix is the [k, d] matrix whose entry (j, o) is the operand's entry
  (o, j).  General in the extents and the element type: the form a weight matrix W takes where a program contracts
  against W transposed.
-/
import Idealize.ShloMosaic.Lib.Pipeline.Value
import Idealize.ShloMosaic.Lib.ValueIdx

noncomputable section

namespace Cert.LibTransposeEntry

open Idealize.ShloMosaic Idealize.ShloMosaic.ValueIdx

/-- Entry (j, o) of the transpose is entry (o, j) of the operand. -/
theorem transpose_apply_ix2 {α : Type} {d k : ℕ} (W : (⟨2, ![d, k]⟩ : Shape).Idx → α)
    (h : (⟨2, ![d, k]⟩ : Shape).Transposes [1, 0] ⟨2, ![k, d]⟩) (j : Fin k) (o : Fin d) :
    transpose ⟨2, ![k, d]⟩ [1, 0] W h (ix2 j o) = W (ix2 o j) :=
  transpose_apply [1, 0] W h (ix2 j o) (ix2 o j) (fun b => by
    match b with
    | ⟨0, _⟩ => rfl
    | ⟨1, _⟩ => rfl)

end Cert.LibTransposeEntry

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.AttnPayload.lean ====
/-
  The attention kernel's pure values read at an index, on the extended reals: the masked and scaled block of scores,
  the running row maximum, the two rescaling exponentials, the running row sum, the running weighted sum, the final
  quotient, and the three start values.  Every statement is over variables of the literal vector types and explicit
  coordinates: row `p` and column `c` of a 512 × 512 block, head coordinate `h`.
-/
import proofs.«169510_j23699629540193_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«169510_j23699629540193_2_alg».proof.Proof.LibKeepdims
import proofs.«169510_j23699629540193_2_alg».proof.Proof.LibTransposeEntry
import proofs.«169510_j23699629540193_2_alg».proof.Proof.LibPlainDot
import proofs.«169510_j23699629540193_2_alg».proof.Proof.LibRowReduce

noncomputable section

namespace Cert.KernelIdeal.FlashValue

open Cert.KernelIdeal Cert.KernelIdeal.Gen Idealize.ShloMosaic Idealize.ShloMosaic.ValueIdx

/-! ### The causal comparison on 32-bit words -/

/-- On numbers below 2048 the signed comparison of the 32-bit words is the comparison of the numbers. -/
theorem sle_ofNat_small (a b : ℕ) (ha : a < 2048) (hb : b < 2048) :
    (BitVec.ofNat 32 a).sle (BitVec.ofNat 32 b) = decide (a ≤ b) := by
  unfold BitVec.sle
  rw [decide_eq_decide, BitVec.toInt_eq_toNat_cond, BitVec.toInt_eq_toNat_cond, BitVec.toNat_ofNat, BitVec.toNat_ofNat]
  omega

/-- The word of a position: block number times 512 plus the coordinate inside the block. -/
theorem position_word (k c : ℕ) :
    IntOp.addi (Scalar.muli (BitVec.ofNat 32 k) 512#32) (BitVec.ofNat 32 c) = BitVec.ofNat 32 (k * 512 + c) := by
  show BitVec.ofNat 32 k * 512#32 + BitVec.ofNat 32 c = _
  rw [BitVec.ofNat_add, BitVec.ofNat_mul]

/-- The mask bit at row `p` and column `c` of query block `qi` and key block `kv`: set exactly when the key position is
    not after the query position. -/
theorem causal_bit (qi kv : ℕ) (hqi : qi < 4) (hkv : kv < 4) (p c : Fin 512) :
    IntOp.cmpi .sle (IntOp.addi (Scalar.muli (BitVec.ofNat 32 kv) 512#32) (BitVec.ofNat 32 c.val))
        (IntOp.addi (Scalar.muli (BitVec.ofNat 32 qi) 512#32) (BitVec.ofNat 32 p.val))
      = if kv * 512 + c.val ≤ qi * 512 + p.val then 1#1 else 0#1 := by
  have hc := c.isLt
  have hp := p.isLt
  rw [position_word, position_word]
  show BitVec.ofBool ((BitVec.ofNat 32 (kv * 512 + c.val)).sle (BitVec.ofNat 32 (qi * 512 + p.val))) = _
  rw [sle_ofNat_small _ _ (by omega) (by omega)]
  by_cases h : kv * 512 + c.val ≤ qi * 512 + p.val
  · rw [if_pos h, decide_eq_true h]
    rfl
  · rw [if_neg h, decide_eq_false h]
    rfl

/-! ### The block of scores -/

/-- The product of the query rows with the transposed key rows, at row `p` and column `c`: the dot product of query row
    `p` with key row `c`. -/
theorem scores_apply (xq xk : Vec Ideal S1x512x64 .bf16) (p c : Fin 512) :
    matmul (F := Ideal) (φ₁ := .bf16) (φ₂ := .bf16) dot_S512x64_S64x512_S512x512_1_0_0_1_n_n none
        (shapeCast S512x64 xq shapeCasts_S1x512x64_S512x64 : FVec Ideal S512x64 .bf16)
        (transpose S64x512 [1, 0] (shapeCast S512x64 xk shapeCasts_S1x512x64_S512x64 : FVec Ideal S512x64 .bf16)
          transposes_S512x64_p1_0_S64x512 : FVec Ideal S64x512 .bf16)
        (constant S512x512 .f32 0x00000000#32) (ix2 p c)
      = ∑ h : Fin 64, xq (ix3 0 p h) * xk (ix3 0 c h) := by
  refine (Cert.LibPlainDot.matmul_zero_apply _ rfl rfl rfl rfl rfl rfl none _ _ p c).trans ?_
  refine Finset.sum_congr rfl fun h _ => ?_
  rw [shapeCast_1ab_ab_apply, Cert.LibTransposeEntry.transpose_apply_ix2, shapeCast_1ab_ab_apply]

/-- The masking constant is `-∞` on the extended reals. -/
theorem neg_big_eq : Named.named (F := Ideal) κ "neg_big" (φ := .f32) 0xFF333332#32 = ⊥ :=
  IdealRules.named_const.ideal_named_scalar _ _ _ _ rfl

/-- The start value of the running maximum is `-∞`. -/
theorem pay1_apply (p : Fin 512) : k1_pay1 (F := Ideal) (ix2 p 0) = ⊥ := by
  unfold k1_pay1
  rw [shapeCast_self]
  show Ideal.ofBits .f32 0xFF800000#32 = ⊥
  simp [Ideal.ofBits, Ideal.ieee]

/-- The start value of the running sum is `0`. -/
theorem pay2_apply (p : Fin 512) : k1_pay2 (F := Ideal) (ix2 p 0) = 0 := by
  unfold k1_pay2
  rw [shapeCast_self]
  exact Ideal.ofBits_zero_f32

/-- The start value of the running weighted sum is `0`. -/
theorem pay3_apply (p : Fin 512) (h : Fin 64) : k1_pay3 (F := Ideal) (ix2 p h) = 0 := by
  unfold k1_pay3
  rw [shapeCast_self]
  exact Ideal.ofBits_zero_f32

/-- The stored running maximum is the running maximum. -/
theorem pay5_eq (x : FVec Ideal S512x1 .f32) : k1_pay5 (F := Ideal) x = x := by
  unfold k1_pay5
  exact shapeCast_self x _

/-- The result: the running weighted sum divided by the running sum of its row. -/
theorem pay6_apply (acc : Vec Ideal S512x64 .f32) (l : Vec Ideal S512x1 .f32) (p : Fin 512) (h : Fin 64) :
    k1_pay6 (F := Ideal) acc l (ix3 0 p h) = Ideal.div (acc (ix2 p h)) (l (ix2 p 0)) := by
  unfold k1_pay6
  refine (shapeCast_ab_1ab_apply _ _ 0 p h).trans ?_
  rw [divf_apply]
  exact congrArg (Ideal.div (acc (ix2 p h))) (Cert.LibKeepdims.broadcastTo_a1_ab_apply l _ p h)

/-- The block of scores at query block `qi` and key block `kv`: at row `p` and column `c` the dot product of query row
    `p` with key row `c` scaled by the word 0x3E000000 when key position `kv * 512 + c` is not after query position
    `qi * 512 + p`, and `-∞` otherwise. -/
theorem pay8_apply (qi kv : ℕ) (hqi : qi < 4) (hkv : kv < 4) (xq xk : Vec Ideal S1x512x64 .bf16) (p c : Fin 512) :
    k1_pay8 (F := Ideal) (BitVec.ofNat 32 qi) (BitVec.ofNat 32 kv) xq xk (ix2 p c)
      = if kv * 512 + c.val ≤ qi * 512 + p.val
        then (∑ h : Fin 64, xq (ix3 0 p h) * xk (ix3 0 c h)) * Ideal.ofBits .f32 0x3E000000#32 else ⊥ := by
  unfold k1_pay8
  rw [select_apply]
  show Scalar.select
      (IntOp.cmpi .sle
        (IntOp.addi (Scalar.muli (BitVec.ofNat 32 kv) 512#32) (iota .tc S512x512 32 [1] iota_S512x512_d1_w32 (ix2 p c)))
        (IntOp.addi (Scalar.muli (BitVec.ofNat 32 qi) 512#32) (iota .tc S512x512 32 [0] iota_S512x512_d0_w32 (ix2 p c))))
      (matmul (F := Ideal) dot_S512x64_S64x512_S512x512_1_0_0_1_n_n none
          (shapeCast S512x64 xq shapeCasts_S1x512x64_S512x64)
          (transpose S64x512 [1, 0] (shapeCast S512x64 xk shapeCasts_S1x512x64_S512x64) transposes_S512x64_p1_0_S64x512)
          (constant S512x512 .f32 0x00000000#32) (ix2 p c) * Ideal.ofBits .f32 0x3E000000#32)
      (Named.named (F := Ideal) κ "neg_big" (φ := .f32) 0xFF333332#32) = _
  rw [iota_single_apply, iota_single_apply, scores_apply, neg_big_eq]
  show Scalar.select
      (IntOp.cmpi .sle (IntOp.addi (Scalar.muli (BitVec.ofNat 32 kv) 512#32) (BitVec.ofNat 32 c.val))
        (IntOp.addi (Scalar.muli (BitVec.ofNat 32 qi) 512#32) (BitVec.ofNat 32 p.val))) _ _ = _
  rw [causal_bit qi kv hqi hkv p c]
  by_cases h : kv * 512 + c.val ≤ qi * 512 + p.val
  · rw [if_pos h, if_pos h, select_one]
  · rw [if_neg h, if_neg h, select_zero]

/-- The new running maximum of row `p`: the old one joined to the largest score of the row in this block. -/
theorem pay9_apply (a1 a2 : BitVec 32) (xq xk : Vec Ideal S1x512x64 .bf16) (m : Vec Ideal S512x1 .f32) (p : Fin 512) :
    k1_pay9 (F := Ideal) a1 a2 xq xk m (ix2 p 0)
      = max (m (ix2 p 0)) ((Finset.univ : Finset (Fin 512)).fold max ⊥ (fun c => k1_pay8 (F := Ideal) a1 a2 xq xk (ix2 p c))) := by
  unfold k1_pay9
  refine congrArg (max (m (ix2 p 0))) ?_
  refine (Cert.LibKeepdims.shapeCast_a_a1_apply _ _ p 0).trans ?_
  refine (Cert.LibRowReduce.multiReduction_max_row _ _ _ _ _ p).trans ?_
  have hb : Ideal.ofBits .f32 0xFF800000#32 = ⊥ := by simp [Ideal.ofBits, Ideal.ieee]
  rw [hb]

/-- The rescaling factor of row `p`: the exponential of the old maximum minus the new one. -/
theorem pay10_apply (a1 a2 : BitVec 32) (xq xk : Vec Ideal S1x512x64 .bf16) (m : Vec Ideal S512x1 .f32) (p : Fin 512) :
    k1_pay10 (F := Ideal) a1 a2 xq xk m (ix2 p 0)
      = Ideal.exp (m (ix2 p 0) - k1_pay9 (F := Ideal) a1 a2 xq xk m (ix2 p 0)) := by
  unfold k1_pay10
  rfl

/-- The block's exponentials: the exponential of the score minus the new maximum of its row. -/
theorem pay11_apply (a1 a2 : BitVec 32) (xq xk : Vec Ideal S1x512x64 .bf16) (m : Vec Ideal S512x1 .f32) (p c : Fin 512) :
    k1_pay11 (F := Ideal) a1 a2 xq xk m (ix2 p c)
      = Ideal.exp (k1_pay8 (F := Ideal) a1 a2 xq xk (ix2 p c) - k1_pay9 (F := Ideal) a1 a2 xq xk m (ix2 p 0)) := by
  unfold k1_pay11
  show Ideal.exp (k1_pay8 (F := Ideal) a1 a2 xq xk (ix2 p c)
    - broadcastTo S512x512 (k1_pay9 (F := Ideal) a1 a2 xq xk m) broadcasts_S512x1_S512x512 (ix2 p c)) = _
  rw [Cert.LibKeepdims.broadcastTo_a1_ab_apply]

/-- The new running sum of row `p`: the old one rescaled, plus the row's exponentials of this block. -/
theorem pay12_apply (a1 a2 : BitVec 32) (xq xk : Vec Ideal S1x512x64 .bf16) (m l : Vec Ideal S512x1 .f32) (p : Fin 512) :
    k1_pay12 (F := Ideal) a1 a2 xq xk m l (ix2 p 0)
      = k1_pay10 (F := Ideal) a1 a2 xq xk m (ix2 p 0) * l (ix2 p 0)
        + ∑ c : Fin 512, k1_pay11 (F := Ideal) a1 a2 xq xk m (ix2 p c) := by
  unfold k1_pay12
  rw [shapeCast_self]
  refine congrArg (k1_pay10 (F := Ideal) a1 a2 xq xk m (ix2 p 0) * l (ix2 p 0) + ·) ?_
  refine (Cert.LibKeepdims.shapeCast_a_a1_apply _ _ p 0).trans ?_
  exact Cert.LibRowReduce.multiReduction_add_row _ _ _ _ _ p

/-- The new running weighted sum at row `p` and head coordinate `h`: the old one rescaled by the row's factor, plus the
    row of exponentials against column `h` of the values. -/
theorem pay4_apply (xv : Vec Ideal S1x512x64 .bf16) (a : FVec Ideal S512x1 .f32) (P : FVec Ideal S512x512 .f32)
    (acc : Vec Ideal S512x64 .f32) (p : Fin 512) (h : Fin 64) :
    k1_pay4 (F := Ideal) (k1_pay7 (F := Ideal) xv) a P acc (ix2 p h)
      = a (ix2 p 0) * acc (ix2 p h) + ∑ c : Fin 512, P (ix2 p c) * xv (ix3 0 c h) := by
  unfold k1_pay4
  rw [shapeCast_self]
  refine congrArg₂ (· + ·) ?_ ?_
  · exact congrArg (· * acc (ix2 p h)) (Cert.LibKeepdims.broadcastTo_a1_ab_apply a _ p h)
  · refine (Cert.LibPlainDot.matmul_zero_apply _ rfl rfl rfl rfl rfl rfl none _ _ p h).trans ?_
    refine Finset.sum_congr rfl fun c _ => ?_
    unfold k1_pay7
    exact congrArg (P (ix2 p c) * ·) (shapeCast_1ab_ab_apply xv _ c h)

end Cert.KernelIdeal.FlashValue

end
-- ==== Proof.AttnValue.lean ====
/-
  The attention call's output array at the extended reals: the three scratch buffers carry, row by row, the running
  maximum, the running sum of exponentials and the running weighted sum of the block-wise sweep over the key blocks,
  and the block written back after the last key block is the weighted sum over the sum.
-/
import proofs.«169510_j23699629540193_2_alg».proof.Proof.FlashAttn
import proofs.«169510_j23699629540193_2_alg».proof.Proof.AttnPayload
import proofs.«169510_j23699629540193_2_alg».proof.Proof.Spec
import Idealize.ShloMosaic.Lib.Pipeline.Value

set_option maxRecDepth 16384

noncomputable section

namespace Cert.KernelIdeal.FlashValue

open Cert.KernelIdeal Cert.KernelIdeal.Gen Cert.KernelIdeal.Flash
open Idealize.ShloMosaic Idealize.ShloMosaic.TcCoe Idealize.ShloMosaic.ValueIdx Idealize.SL.Sem
open Idealize.ShloMosaic.Pipeline (Dat)
open Cert.LibOnlineAttention Cert.Attn

/-- The block-wise attention of projected queries, keys and values: entry (batch, query position, head coordinate) is the
    rescaled weighted sum over the rescaled sum after the key blocks up to the query's own block. -/
def attnOf (q k v : Cert.Attn.SQ.Idx → EReal) : Cert.Attn.SQ.Idx → EReal :=
  fun i => Ideal.div (runAcc (gRow q k (i 0) (i 1)) (wRow v (i 0) (i 2)) 512 ((i 1).val / 512))
    (runSum (gRow q k (i 0) (i 1)) 512 ((i 1).val / 512))

theorem kernOut_eq_attnOf (x : Cert.Attn.SX.Idx → EReal) (wk wq wv : Cert.Attn.SW.Idx → EReal) :
    Cert.Attn.kernOut x wk wq wv = attnOf (proj x wq) (proj x wk) (proj x wv) := rfl

/-- The schedule over the 128 grid points: point `t` is (batch t / 16, query block t / 4 mod 4, key block t mod 4); the
    query and output windows sit at block (batch, query block, 0), the key and value windows at (batch, key block, 0);
    the state is reset at key block 0, updated while the key block is not after the query block, and the output block
    is written at key block 3. -/
theorem pointFacts : ∀ t : Fin cfg1.N,
    ((grid1.coords t 0).val = t.val / 16 ∧ (grid1.coords t 1).val = t.val / 4 % 4 ∧ (grid1.coords t 2).val = t.val % 4)
    ∧ (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val % 4 ∧ win1_1.index t (2 : Fin 3) = 0)
    ∧ (win1_2.index t (0 : Fin 3) = t.val / 16 ∧ win1_2.index t (1 : Fin 3) = t.val % 4 ∧ win1_2.index t (2 : Fin 3) = 0)
    ∧ (win1_3.index t (0 : Fin 3) = t.val / 16 ∧ win1_3.index t (1 : Fin 3) = t.val / 4 % 4 ∧ win1_3.index t (2 : Fin 3) = 0)
    ∧ ((cond1 (grid1.coords t) ↔ t.val % 4 = 0) ∧ (cond2 (grid1.coords t) ↔ t.val % 4 ≤ t.val / 4 % 4)
        ∧ (cond3 (grid1.coords t) ↔ t.val % 4 = 3)) :=
  (by decide +kernel : ∀ t : Fin grid1.N, _)

variable (V : (c : Dev nD) → (b : Ref sig .tc) → Buf (Elt Ideal) ((c : Thread nD τ).loc b))

/-! ## The input blocks, read where the array index says -/

/-- The query window's block at point `t`: row `p`, head coordinate `h` is the query array at
    (batch, 512 · query block + p, h). -/
theorem qblk_apply (c : Dev nD) (t : Fin cfg1.N) (b : Fin 8) (r : Fin 2048) (p : Fin 512) (h : Fin 64)
    (hb : b.val = t.val / 16) (hr : r.val = t.val / 4 % 4 * 512 + p.val) :
    (iblk1 V c 0 t : Vec Ideal S1x512x64 .bf16) (ix3 0 p h)
      = (V c main_v0_0 : S8x2048x64.Idx → Elt Ideal .bf16) (ix3 b r h) := by
  obtain ⟨-, ⟨e0, e1, e2⟩, -⟩ := pointFacts t
  unfold iblk1
  rw [View.read_apply]
  show V c main_v0_0 _ = V c main_v0_0 _
  congr 1
  funext a; apply Fin.ext
  match a with
  | ⟨0, _⟩ => show win1_0.index t (0 : Fin 3) * 1 + 1 * 0 = b.val; omega
  | ⟨1, _⟩ => show win1_0.index t (1 : Fin 3) * 512 + 1 * p.val = r.val; omega
  | ⟨2, _⟩ => show win1_0.index t (2 : Fin 3) * 64 + 1 * h.val = h.val; omega

/-- The key window's block at point `t`: row `p` is the key array's row 512 · key block + p of the batch. -/
theorem kblk_apply (c : Dev nD) (t : Fin cfg1.N) (b : Fin 8) (r : Fin 2048) (p : Fin 512) (h : Fin 64)
    (hb : b.val = t.val / 16) (hr : r.val = t.val % 4 * 512 + p.val) :
    (iblk1 V c 1 t : Vec Ideal S1x512x64 .bf16) (ix3 0 p h)
      = (V c main_v0_1 : S8x2048x64.Idx → Elt Ideal .bf16) (ix3 b r h) := by
  obtain ⟨-, -, ⟨e0, e1, e2⟩, -⟩ := pointFacts t
  unfold iblk1
  rw [View.read_apply]
  show V c main_v0_1 _ = V c main_v0_1 _
  congr 1
  funext a; apply Fin.ext
  match a with
  | ⟨0, _⟩ => show win1_1.index t (0 : Fin 3) * 1 + 1 * 0 = b.val; omega
  | ⟨1, _⟩ => show win1_1.index t (1 : Fin 3) * 512 + 1 * p.val = r.val; omega
  | ⟨2, _⟩ => show win1_1.index t (2 : Fin 3) * 64 + 1 * h.val = h.val; omega

/-- The value window's block at point `t`: row `p` is the value array's row 512 · key block + p of the batch. -/
theorem vblk_apply (c : Dev nD) (t : Fin cfg1.N) (b : Fin 8) (r : Fin 2048) (p : Fin 512) (h : Fin 64)
    (hb : b.val = t.val / 16) (hr : r.val = t.val % 4 * 512 + p.val) :
    (iblk1 V c 2 t : Vec Ideal S1x512x64 .bf16) (ix3 0 p h)
      = (V c main_v0_2 : S8x2048x64.Idx → Elt Ideal .bf16) (ix3 b r h) := by
  obtain ⟨-, -, -, ⟨e0, e1, e2⟩, -⟩ := pointFacts t
  unfold iblk1
  rw [View.read_apply]
  show V c main_v0_2 _ = V c main_v0_2 _
  congr 1
  funext a; apply Fin.ext
  match a with
  | ⟨0, _⟩ => show win1_2.index t (0 : Fin 3) * 1 + 1 * 0 = b.val; omega
  | ⟨1, _⟩ => show win1_2.index t (1 : Fin 3) * 512 + 1 * p.val = r.val; omega
  | ⟨2, _⟩ => show win1_2.index t (2 : Fin 3) * 64 + 1 * h.val = h.val; omega

/-! ## One update of the state, row by row -/

/-- The projected queries, keys and values as the region finds them, as arrays of extended reals. -/
abbrev Qa (c : Dev nD) : Cert.Attn.SQ.Idx → EReal := V c main_v0_0
abbrev Ka (c : Dev nD) : Cert.Attn.SQ.Idx → EReal := V c main_v0_1
abbrev Va (c : Dev nD) : Cert.Attn.SQ.Idx → EReal := V c main_v0_2

/-- Row `p` of the block of scores at point `t` is the stretch of the query's score row that starts at key
    512 · key block: the key is masked exactly when it is after the query. -/
theorem scores_row (c : Dev nD) (t : Fin cfg1.N) (b : Fin 8) (tq : Fin 2048) (p : Fin 512)
    (hb : b.val = t.val / 16) (htq : tq.val = t.val / 4 % 4 * 512 + p.val) (o : Fin 512) :
    k1_pay8 (F := Ideal) (BitVec.ofNat 32 (t.val / 4 % 4)) (BitVec.ofNat 32 (t.val % 4)) (iblk1 V c 0 t) (iblk1 V c 1 t) (ix2 p o)
      = gRow (Qa V c) (Ka V c) b tq (512 * (t.val % 4) + o.val) := by
  have ho := o.isLt
  have hp := p.isLt
  have hqi : t.val / 4 % 4 < 4 := Nat.mod_lt _ (by decide)
  have hkv : t.val % 4 < 4 := Nat.mod_lt _ (by decide)
  have hu : 512 * (t.val % 4) + o.val < 2048 := by omega
  rw [pay8_apply _ _ hqi hkv]
  unfold gRow
  rw [dif_pos hu]
  unfold scoreAt
  by_cases hle : t.val % 4 * 512 + o.val ≤ t.val / 4 % 4 * 512 + p.val
  · rw [if_pos hle, if_pos (by show 512 * (t.val % 4) + o.val ≤ tq.val; omega)]
    refine congrArg (fun z : EReal => z * Ideal.ofBits .f32 0x3E000000#32) ?_
    refine Finset.sum_congr rfl fun hh _ => ?_
    rw [qblk_apply V c t b tq p hh hb htq,
      kblk_apply V c t b (⟨512 * (t.val % 4) + o.val, hu⟩ : Fin 2048) o hh hb (by show 512 * (t.val % 4) + o.val = _; omega)]
  · rw [if_neg hle, if_neg (by show ¬ 512 * (t.val % 4) + o.val ≤ tq.val; omega)]

/-- Row `o` of the block of values at point `t`, at head coordinate `h`, is the value column's entry at key
    512 · key block + o. -/
theorem values_row (c : Dev nD) (t : Fin cfg1.N) (b : Fin 8) (h : Fin 64) (hb : b.val = t.val / 16) (o : Fin 512) :
    (iblk1 V c 2 t : Vec Ideal S1x512x64 .bf16) (ix3 0 o h) = wRow (Va V c) b h (512 * (t.val % 4) + o.val) := by
  have ho := o.isLt
  have hkv : t.val % 4 < 4 := Nat.mod_lt _ (by decide)
  have hu : 512 * (t.val % 4) + o.val < 2048 := by omega
  unfold wRow
  rw [dif_pos hu]
  exact vblk_apply V c t b (⟨512 * (t.val % 4) + o.val, hu⟩ : Fin 2048) o h hb (by show 512 * (t.val % 4) + o.val = _; omega)

/-- One update of the state at a point whose key block is not after its query block, read at row `p` (and head
    coordinate `h`): the maximum is joined to the block's maximum of the row; the sum and the weighted sum are rescaled
    from the old maximum to the new one and the block's exponentials (against the values) are added. -/
theorem st2_row (c : Dev nD) (t : Fin cfg1.N) (s : St Ideal) (b : Fin 8) (tq : Fin 2048) (p : Fin 512) (h : Fin 64)
    (hb : b.val = t.val / 16) (htq : tq.val = t.val / 4 % 4 * 512 + p.val) (h2 : t.val % 4 ≤ t.val / 4 % 4) :
    (st2 (grid1.coords t) (iblk1 V c 0 t) (iblk1 V c 1 t) (iblk1 V c 2 t) s).1 (ix2 p 0)
        = max (s.1 (ix2 p 0)) (blockMax (gRow (Qa V c) (Ka V c) b tq) 512 (t.val % 4))
    ∧ (st2 (grid1.coords t) (iblk1 V c 0 t) (iblk1 V c 1 t) (iblk1 V c 2 t) s).2.1 (ix2 p 0)
        = Ideal.exp (s.1 (ix2 p 0) - max (s.1 (ix2 p 0)) (blockMax (gRow (Qa V c) (Ka V c) b tq) 512 (t.val % 4))) * s.2.1 (ix2 p 0)
          + ∑ o : Fin 512, Ideal.exp (gRow (Qa V c) (Ka V c) b tq (512 * (t.val % 4) + o.val)
              - max (s.1 (ix2 p 0)) (blockMax (gRow (Qa V c) (Ka V c) b tq) 512 (t.val % 4)))
    ∧ (st2 (grid1.coords t) (iblk1 V c 0 t) (iblk1 V c 1 t) (iblk1 V c 2 t) s).2.2 (ix2 p h)
        = Ideal.exp (s.1 (ix2 p 0) - max (s.1 (ix2 p 0)) (blockMax (gRow (Qa V c) (Ka V c) b tq) 512 (t.val % 4))) * s.2.2 (ix2 p h)
          + ∑ o : Fin 512, Ideal.exp (gRow (Qa V c) (Ka V c) b tq (512 * (t.val % 4) + o.val)
              - max (s.1 (ix2 p 0)) (blockMax (gRow (Qa V c) (Ka V c) b tq) 512 (t.val % 4)))
            * wRow (Va V c) b h (512 * (t.val % 4) + o.val) := by
  obtain ⟨⟨c0, c1, c2⟩, -, -, -, -, ⟨-, hc2, -⟩⟩ := pointFacts t
  unfold st2
  rw [if_pos (hc2.mpr h2)]
  simp only [c1, c2]
  have hM : k1_pay9 (F := Ideal) (BitVec.ofNat 32 (t.val / 4 % 4)) (BitVec.ofNat 32 (t.val % 4)) (iblk1 V c 0 t) (iblk1 V c 1 t) s.1 (ix2 p 0)
      = max (s.1 (ix2 p 0)) (blockMax (gRow (Qa V c) (Ka V c) b tq) 512 (t.val % 4)) := by
    rw [pay9_apply]
    unfold blockMax
    simp only [scores_row V c t b tq p hb htq]
  refine ⟨?_, ?_, ?_⟩
  · rw [pay5_eq]; exact hM
  · rw [pay12_apply, pay10_apply]
    simp only [pay11_apply, hM, scores_row V c t b tq p hb htq]
  · rw [pay4_apply, pay10_apply]
    simp only [pay11_apply, hM, scores_row V c t b tq p hb htq, values_row V c t b h hb]

/-! ## The state after every point -/

/-- At key block 0 the update starts from the reset state (maximum `-∞`, sums zero): the state of row `p` is the
    sweep after block 0. -/
theorem reset_row (c : Dev nD) (t : Fin cfg1.N) (b : Fin 8) (tq : Fin 2048) (p : Fin 512) (h : Fin 64)
    (hb : b.val = t.val / 16) (htq : tq.val = t.val / 4 % 4 * 512 + p.val) (hkv : t.val % 4 = 0) :
    (st2 (grid1.coords t) (iblk1 V c 0 t) (iblk1 V c 1 t) (iblk1 V c 2 t) st0).1 (ix2 p 0) = runMax (gRow (Qa V c) (Ka V c) b tq) 512 0
    ∧ (st2 (grid1.coords t) (iblk1 V c 0 t) (iblk1 V c 1 t) (iblk1 V c 2 t) st0).2.1 (ix2 p 0) = runSum (gRow (Qa V c) (Ka V c) b tq) 512 0
    ∧ (st2 (grid1.coords t) (iblk1 V c 0 t) (iblk1 V c 1 t) (iblk1 V c 2 t) st0).2.2 (ix2 p h)
        = runAcc (gRow (Qa V c) (Ka V c) b tq) (wRow (Va V c) b h) 512 0 := by
  obtain ⟨e1, e2, e3⟩ := st2_row V c t st0 b tq p h hb htq (by omega)
  rw [hkv] at e1 e2 e3
  rw [show (st0 (F := Ideal)).1 (ix2 p 0) = ⊥ from pay1_apply p] at e1 e2 e3
  rw [show (st0 (F := Ideal)).2.1 (ix2 p 0) = 0 from pay2_apply p] at e2
  rw [show (st0 (F := Ideal)).2.2 (ix2 p h) = 0 from pay3_apply p h] at e3
  exact ⟨e1.trans rfl, e2.trans rfl, e3.trans rfl⟩

/-- At a later key block not after the query block, one update takes the sweep after block `j` to the sweep after
    block `j + 1`. -/
theorem update_row (c : Dev nD) (t : Fin cfg1.N) (s : St Ideal) (b : Fin 8) (tq : Fin 2048) (p : Fin 512) (h : Fin 64)
    (hb : b.val = t.val / 16) (htq : tq.val = t.val / 4 % 4 * 512 + p.val) (j : ℕ) (hkv : t.val % 4 = j + 1)
    (h2 : t.val % 4 ≤ t.val / 4 % 4)
    (i1 : s.1 (ix2 p 0) = runMax (gRow (Qa V c) (Ka V c) b tq) 512 j) (i2 : s.2.1 (ix2 p 0) = runSum (gRow (Qa V c) (Ka V c) b tq) 512 j)
    (i3 : s.2.2 (ix2 p h) = runAcc (gRow (Qa V c) (Ka V c) b tq) (wRow (Va V c) b h) 512 j) :
    (st2 (grid1.coords t) (iblk1 V c 0 t) (iblk1 V c 1 t) (iblk1 V c 2 t) s).1 (ix2 p 0) = runMax (gRow (Qa V c) (Ka V c) b tq) 512 (j + 1)
    ∧ (st2 (grid1.coords t) (iblk1 V c 0 t) (iblk1 V c 1 t) (iblk1 V c 2 t) s).2.1 (ix2 p 0) = runSum (gRow (Qa V c) (Ka V c) b tq) 512 (j + 1)
    ∧ (st2 (grid1.coords t) (iblk1 V c 0 t) (iblk1 V c 1 t) (iblk1 V c 2 t) s).2.2 (ix2 p h)
        = runAcc (gRow (Qa V c) (Ka V c) b tq) (wRow (Va V c) b h) 512 (j + 1) := by
  obtain ⟨e1, e2, e3⟩ := st2_row V c t s b tq p h hb htq h2
  rw [hkv] at e1 e2 e3
  rw [i1] at e1 e2 e3
  rw [i2] at e2
  rw [i3] at e3
  exact ⟨e1.trans rfl, e2.trans rfl, e3.trans rfl⟩

/-- THE INVARIANT. After the body at position `n` = (batch, query block, key block), row `p` of the three scratch
    buffers holds the sweep of the query's score row (query position 512 · query block + p) after the key blocks
    0 … min (key block) (query block): the blocks after the query's own change nothing. -/
theorem inv (c : Dev nD) : ∀ (n : ℕ) (hn : n < cfg1.N) (b : Fin 8) (tq : Fin 2048) (p : Fin 512) (h : Fin 64),
    b.val = n / 16 → tq.val = n / 4 % 4 * 512 + p.val →
    (stAt V c n hn).1 (ix2 p 0) = runMax (gRow (Qa V c) (Ka V c) b tq) 512 (min (n % 4) (n / 4 % 4))
    ∧ (stAt V c n hn).2.1 (ix2 p 0) = runSum (gRow (Qa V c) (Ka V c) b tq) 512 (min (n % 4) (n / 4 % 4))
    ∧ (stAt V c n hn).2.2 (ix2 p h) = runAcc (gRow (Qa V c) (Ka V c) b tq) (wRow (Va V c) b h) 512 (min (n % 4) (n / 4 % 4)) := by
  intro n
  induction n with
  | zero =>
    intro hn b tq p h hb htq
    rw [stAt_zero]
    exact reset_row V c ⟨0, hn⟩ b tq p h hb htq rfl
  | succ n ih =>
    intro hn b tq p h hb htq
    have hN : cfg1.N = 128 := N_1
    obtain ⟨-, -, -, -, -, ⟨hc1, hc2, -⟩⟩ := pointFacts ⟨n + 1, hn⟩
    rw [stAt_succ]
    by_cases hk : (n + 1) % 4 = 0
    · have hs : st1 (grid1.coords ⟨n + 1, hn⟩) (stAt V c n (Nat.lt_of_succ_lt hn)) = st0 := by
        unfold st1; rw [if_pos (hc1.mpr hk)]
      rw [hs, show min ((n + 1) % 4) ((n + 1) / 4 % 4) = 0 by omega]
      exact reset_row V c ⟨n + 1, hn⟩ b tq p h hb htq hk
    · have hs : st1 (grid1.coords ⟨n + 1, hn⟩) (stAt V c n (Nat.lt_of_succ_lt hn)) = stAt V c n (Nat.lt_of_succ_lt hn) := by
        unfold st1; rw [if_neg (fun hh => hk (hc1.mp hh))]
      rw [hs]
      obtain ⟨i1, i2, i3⟩ := ih (Nat.lt_of_succ_lt hn) b tq p h (by omega) (by omega)
      by_cases h2 : (n + 1) % 4 ≤ (n + 1) / 4 % 4
      · rw [show min ((n + 1) % 4) ((n + 1) / 4 % 4) = min (n % 4) (n / 4 % 4) + 1 by omega]
        exact update_row V c ⟨n + 1, hn⟩ _ b tq p h hb htq (min (n % 4) (n / 4 % 4))
          (by show (n + 1) % 4 = _; omega) h2 i1 i2 i3
      · have hs2 : st2 (grid1.coords ⟨n + 1, hn⟩) (iblk1 V c 0 ⟨n + 1, hn⟩) (iblk1 V c 1 ⟨n + 1, hn⟩) (iblk1 V c 2 ⟨n + 1, hn⟩)
            (stAt V c n (Nat.lt_of_succ_lt hn)) = stAt V c n (Nat.lt_of_succ_lt hn) := by
          unfold st2; rw [if_neg (fun hh => h2 (hc2.mp hh))]
        rw [hs2, show min ((n + 1) % 4) ((n + 1) / 4 % 4) = min (n % 4) (n / 4 % 4) by omega]
        exact ⟨i1, i2, i3⟩

/-! ## The output block and the output array -/

/-- At key block 3 the sweep has passed the query's own block, and the output block's entry (row `p`, head
    coordinate `h`) is the block-wise attention at (batch, 512 · query block + p, h). -/
theorem out_row (c : Dev nD) (t : Fin cfg1.N) (h3 : t.val % 4 = 3) (b : Fin 8) (tq : Fin 2048) (p : Fin 512) (h : Fin 64)
    (hb : b.val = t.val / 16) (htq : tq.val = t.val / 4 % 4 * 512 + p.val) :
    (outv (stAt V c t.val t.isLt) : Vec Ideal S1x512x64 .f32) (ix3 0 p h) = attnOf (Qa V c) (Ka V c) (Va V c) (ix3 b tq h) := by
  obtain ⟨-, i2, i3⟩ := inv V c t.val t.isLt b tq p h hb htq
  unfold outv
  rw [pay6_apply, i2, i3]
  have hj : min (t.val % 4) (t.val / 4 % 4) = tq.val / 512 := by have := p.isLt; omega
  rw [hj]
  rfl

/-- What a point at key block 3 writes back is its block of the block-wise attention of the three arrays. -/
theorem outBlock_flushed (c : Dev nD) (t : Fin cfg1.N) (hf : (cfg1.win 3).flush t = true) :
    (dat1 V c).flushed 3 t = ((cfg1.win 3).blk t).view.read (Elt Ideal) (attnOf (Qa V c) (Ka V c) (Va V c)) := by
  have h3 : t.val % 4 = 3 := (flush1_3 t).mp hf
  obtain ⟨-, -, -, -, ⟨e0, e1, e2⟩, -⟩ := pointFacts t
  have hN : cfg1.N = 128 := N_1
  have hlt := t.isLt
  show (cfg1.win 3).cut (grid1.coords t) ((dat1 V c).after 3 t) = _
  rw [after1_3]
  funext j
  have hj0 : (j 0).val < 1 := (j 0).isLt
  have hj1 : (j 1).val < 512 := (j 1).isLt
  have hj2 : (j 2).val < 64 := (j 2).isLt
  rw [View.read_apply]
  have hl : (cfg1.win 3).cut (grid1.coords t) (outv (stAt V c t.val t.isLt)) j
      = (outv (stAt V c t.val t.isLt) : Vec Ideal S1x512x64 .f32) (ix3 0 (⟨(j 1).val, hj1⟩ : Fin 512) (⟨(j 2).val, hj2⟩ : Fin 64)) :=
    congrArg (outv (stAt V c t.val t.isLt) : Vec Ideal S1x512x64 .f32) (funext fun a => Fin.ext (by
      match a with
      | ⟨0, _⟩ => show (j 0).val = 0; omega
      | ⟨1, _⟩ => rfl
      | ⟨2, _⟩ => rfl))
  rw [hl, out_row V c t h3 (⟨t.val / 16, by omega⟩ : Fin 8) (⟨t.val / 4 % 4 * 512 + (j 1).val, by omega⟩ : Fin 2048)
    (⟨(j 1).val, hj1⟩ : Fin 512) (⟨(j 2).val, hj2⟩ : Fin 64) rfl rfl]
  show attnOf (Qa V c) (Ka V c) (Va V c) _ = attnOf (Qa V c) (Ka V c) (Va V c) (((cfg1.win 3).blk t).view.emb j)
  congr 1
  funext a; apply Fin.ext
  match a with
  | ⟨0, _⟩ => show t.val / 16 = win1_3.index t (0 : Fin 3) * 1 + 1 * (j 0).val; omega
  | ⟨1, _⟩ => show t.val / 4 % 4 * 512 + (j 1).val = win1_3.index t (1 : Fin 3) * 512 + 1 * (j 1).val; omega
  | ⟨2, _⟩ => show (j 2).val = win1_3.index t (2 : Fin 3) * 64 + 1 * (j 2).val; omega

/-- An index of the output array is in point `t`'s block iff each coordinate is in the block's range on its axis. -/
theorem mem_outBlock (t : Fin cfg1.N) (i : S8x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v1).slice (win1_3.rect t)).set ↔ _
  rw [View.set_slice_whole, Rect.mem_set_unit]
  exact Iff.rfl

/-- Every index (batch, position, head coordinate) of the output array is in the block written back at the point
    (batch, position / 512, key block 3). -/
theorem outBlocks_cover (i : S8x2048x64.Idx) :
    ∃ t : Fin cfg1.N, (cfg1.win 3).flush t = true ∧ i ∈ ((cfg1.win 3).blk t).view.set := by
  have hN : cfg1.N = 128 := N_1
  have h0 : (i 0).val < 8 := (i 0).isLt
  have h1 : (i 1).val < 2048 := (i 1).isLt
  have h2 : (i 2).val < 64 := (i 2).isLt
  obtain ⟨n, hn⟩ : ∃ n, n = (i 0).val * 16 + (i 1).val / 512 * 4 + 3 := ⟨_, rfl⟩
  have hlt : n < cfg1.N := by omega
  refine ⟨⟨n, hlt⟩, (flush1_3 _).mpr (by show n % 4 = 3; omega), ?_⟩
  obtain ⟨-, -, -, -, ⟨e0, e1, e2⟩, -⟩ := pointFacts ⟨n, hlt⟩
  have e0' : win1_3.index ⟨n, hlt⟩ (0 : Fin 3) = n / 16 := e0
  have e1' : win1_3.index ⟨n, hlt⟩ (1 : Fin 3) = n / 4 % 4 := e1
  have e2' : win1_3.index ⟨n, hlt⟩ (2 : Fin 3) = 0 := e2
  rw [mem_outBlock]
  intro a
  match a with
  | ⟨0, _⟩ =>
    show win1_3.index ⟨n, hlt⟩ (0 : Fin 3) * 1 ≤ (i 0).val ∧ (i 0).val < win1_3.index ⟨n, hlt⟩ (0 : Fin 3) * 1 + 1
    omega
  | ⟨1, _⟩ =>
    show win1_3.index ⟨n, hlt⟩ (1 : Fin 3) * 512 ≤ (i 1).val ∧ (i 1).val < win1_3.index ⟨n, hlt⟩ (1 : Fin 3) * 512 + 512
    omega
  | ⟨2, _⟩ =>
    show win1_3.index ⟨n, hlt⟩ (2 : Fin 3) * 64 ≤ (i 2).val ∧ (i 2).val < win1_3.index ⟨n, hlt⟩ (2 : Fin 3) * 64 + 64
    omega

/-- THE OUTPUT ARRAY of the attention call after the run is the block-wise attention of the three projected arrays as
    the region finds them. -/
theorem attn_result (c : Dev nD) :
    (dat1 (F := Ideal) V c).arrAt 3 cfg1.N = attnOf (V c main_v0_0) (V c main_v0_1) (V c main_v0_2) :=
  (dat1 V c).arrAt_eq_of_cover 3 (attnOf (Qa V c) (Ka V c) (Va V c)) (outBlock_flushed V c) outBlocks_cover

end Cert.KernelIdeal.FlashValue

end
-- ==== Proof.RefValue.lean ====
/-
  The reference program's result, read index by index, is the whole-row causal softmax attention `refOut` of the
  specification: the three projections are the sums over the 1024 channels, the masked and scaled score of a key for a
  query is `scoreAt`, the row maximum and the row sum of exponentials are `rowMax` and `rowSum`, and the output entry is
  the sum over the 2048 keys of the normalised weight times the value.
-/
import proofs.«169510_j23699629540193_2_alg».proof.Proof.Gen.ReferenceIdeal.Read
import proofs.«169510_j23699629540193_2_alg».proof.Proof.Spec

noncomputable section

namespace Cert.Attn.RefValue

open Cert.ReferenceIdeal Cert.ReferenceIdeal.Gen Cert.ReferenceIdeal.Read Idealize.ShloMosaic Idealize.ShloMosaic.ValueIdx
  Cert.LibOnlineAttention Cert.Attn

/-- The input sequence and a weight matrix as the program's argument contents at the extended reals. -/
abbrev XArr : Type := (⟨S8x2048x1024, .f32⟩ : BufTy).Contents (Elt Ideal)
abbrev WArr : Type := (⟨S1024x64, .f32⟩ : BufTy).Contents (Elt Ideal)

/-! ## The three projections -/

/-- Projection number 0 of the program (the input times a weight matrix, contracted over the 1024 channels) is `proj`. -/
theorem v0_eq (x : XArr) (w : WArr) : val_main_v0 (F := Ideal) x w = proj x w := by
  funext i
  rw [val_main_v0_apply]
  unfold proj
  refine Finset.sum_congr rfl fun k _ => ?_
  have el : lidx_main_v0 i k = ix3 (i 0) (i 1) k :=
    funext fun a => by match a with | ⟨0, _⟩ => rfl | ⟨1, _⟩ => rfl | ⟨2, _⟩ => rfl
  have er : ridx_main_v0 i k = ix2 k (i 2) :=
    funext fun a => by match a with | ⟨0, _⟩ => rfl | ⟨1, _⟩ => rfl
  rw [el, er]
  rfl

/-- Projection number 1 of the program (the input times a weight matrix, contracted over the 1024 channels) is `proj`. -/
theorem v1_eq (x : XArr) (w : WArr) : val_main_v1 (F := Ideal) x w = proj x w := by
  funext i
  rw [val_main_v1_apply]
  unfold proj
  refine Finset.sum_congr rfl fun k _ => ?_
  have el : lidx_main_v1 i k = ix3 (i 0) (i 1) k :=
    funext fun a => by match a with | ⟨0, _⟩ => rfl | ⟨1, _⟩ => rfl | ⟨2, _⟩ => rfl
  have er : ridx_main_v1 i k = ix2 k (i 2) :=
    funext fun a => by match a with | ⟨0, _⟩ => rfl | ⟨1, _⟩ => rfl
  rw [el, er]
  rfl

/-- Projection number 2 of the program (the input times a weight matrix, contracted over the 1024 channels) is `proj`. -/
theorem v2_eq (x : XArr) (w : WArr) : val_main_v2 (F := Ideal) x w = proj x w := by
  funext i
  rw [val_main_v2_apply]
  unfold proj
  refine Finset.sum_congr rfl fun k _ => ?_
  have el : lidx_main_v2 i k = ix3 (i 0) (i 1) k :=
    funext fun a => by match a with | ⟨0, _⟩ => rfl | ⟨1, _⟩ => rfl | ⟨2, _⟩ => rfl
  have er : ridx_main_v2 i k = ix2 k (i 2) :=
    funext fun a => by match a with | ⟨0, _⟩ => rfl | ⟨1, _⟩ => rfl
  rw [el, er]
  rfl

/-! ## The mask and the scores -/

/-- A position below 2048 as a 32-bit word reads back, signed, as itself. -/
theorem toInt_ofNat_pos (n : Nat) (h : n < 2048) : (BitVec.ofNat 32 n).toInt = (n : Int) := by
  have hN : (BitVec.ofNat 32 n).toNat = n := by rw [BitVec.toNat_ofNat]; omega
  rw [BitVec.toInt_eq_toNat_of_lt (by omega), hN]

/-- The lower-triangular mask's bit at (query position t, key position u): the signed comparison "t + 0 ≥ u" selects
    `true` exactly when the key is not after the query. -/
theorem mask_bit (t u : Fin 2048) :
    Scalar.select (IntOp.cmpi .sge (IntOp.addi (BitVec.ofNat 32 t.val) 0#32) (BitVec.ofNat 32 u.val)) (1#1 : BitVec 1) 0#1
      = if u.val ≤ t.val then 1#1 else 0#1 := by
  have e0 : IntOp.addi (BitVec.ofNat 32 t.val) 0#32 = BitVec.ofNat 32 t.val := by
    unfold IntOp.addi; exact BitVec.add_zero _
  rw [e0]
  by_cases h : u.val ≤ t.val
  · have hc : IntOp.cmpi .sge (BitVec.ofNat 32 t.val) (BitVec.ofNat 32 u.val) = 1#1 := by
      rw [IntOp.cmpi_sge, toInt_ofNat_pos _ t.isLt, toInt_ofNat_pos _ u.isLt]; exact_mod_cast h
    rw [hc, if_pos h, select_one]
  · have hc : IntOp.cmpi .sge (BitVec.ofNat 32 t.val) (BitVec.ofNat 32 u.val) = 0#1 := by
      apply eq_zero_of_ne_one
      rw [IntOp.cmpi_sge, toInt_ofNat_pos _ t.isLt, toInt_ofNat_pos _ u.isLt]; exact_mod_cast h
    rw [hc, if_neg h, select_zero]

/-- The 2048 × 2048 mask (the lower triangle of an all-true matrix) at an index. -/
theorem v7_apply (j : S2048x2048.Idx) :
    val_main_v7 (F := Ideal) j = if (j 1).val ≤ (j 0).val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  exact mask_bit (j 0) (j 1)

/-- The mask broadcast over the 8 batches, at (batch, query position, key position). -/
theorem mask_apply (bt : Fin 8) (t u : Fin 2048) :
    val_main_call1_v1 (F := Ideal) (ix3 bt t u) = if u.val ≤ t.val then 1#1 else 0#1 := by
  rw [val_main_call1_v1_apply, val_main_v8_apply, v7_apply]

/-- The word 0xFF800000 is `-∞`. -/
theorem ofBits_neg_inf : Ideal.ofBits .f32 0xFF800000#32 = (⊥ : EReal) := by simp [Ideal.ofBits, Ideal.ieee]

/-- The masked, scaled score the program computes at (batch, query position, key position) is `scoreAt` of the query
    and key projections. -/
theorem v9_apply (x : XArr) (wk wq : WArr) (bt : Fin 8) (t u : Fin 2048) :
    val_main_v9 (F := Ideal) x wk wq (ix3 bt t u) = scoreAt (proj x wq) (proj x wk) bt t u := by
  rw [val_main_v9_apply, mask_apply, val_main_call1_v2_apply, val_main_call1_v0_apply, val_main_cst_0_apply,
    val_main_v5_apply, val_main_v4_apply, val_main_cst_apply, val_main_v3_apply, v1_eq, v0_eq]
  unfold scoreAt
  have e1 : ∀ k : Fin 64, lidx_main_v3 (ix3 bt t u) k = ix3 bt t k := fun k =>
    funext fun a => by match a with | ⟨0, _⟩ => rfl | ⟨1, _⟩ => rfl | ⟨2, _⟩ => rfl
  have e2 : ∀ k : Fin 64, ridx_main_v3 (ix3 bt t u) k = ix3 bt u k := fun k =>
    funext fun a => by match a with | ⟨0, _⟩ => rfl | ⟨1, _⟩ => rfl | ⟨2, _⟩ => rfl
  simp only [e1, e2]
  by_cases h : u.val ≤ t.val
  · rw [if_pos h, if_pos h, select_one]; rfl
  · rw [if_neg h, if_neg h, select_zero]; exact ofBits_neg_inf

/-! ## The row maximum -/

/-- A score row read at a key position below 2048 is the score of that key. -/
theorem gRow_fin (q k : SQ.Idx → EReal) (bt : Fin 8) (t u : Fin 2048) : gRow q k bt t u.val = scoreAt q k bt t u := by
  unfold gRow; rw [dif_pos u.isLt]

/-- The [8, 2048, 2048] scores with the key axis removed are an [8, 2048] array. -/
theorem keys_reduce : S8x2048x2048.Reduces [2] S8x2048 := by decide

/-- The index (batch, query position) with key position `k` put back on the removed axis is (batch, query position, k). -/
theorem lift_keys (bt : Fin 8) (t : Fin 2048) (k : Fin (S8x2048x2048.size 2)) :
    keys_reduce.lift (ix2 bt t) k = ix3 bt t (⟨k.val, k.isLt⟩ : Fin 2048) := by
  funext c; apply Fin.ext
  fin_cases c <;> rfl

/-- The program's row maximum (the maximum-reduce over the keys from `-∞`, joined once more with `-∞`) at
    (batch, query position) is `rowMax` of the score row. -/
theorem v12_apply (x : XArr) (wk wq : WArr) (bt : Fin 8) (t : Fin 2048) :
    val_main_v12 (F := Ideal) x wk wq (ix2 bt t) = rowMax (gRow (proj x wq) (proj x wk) bt t) 2048 := by
  rw [val_main_v12_apply, val_main_v11_apply, val_main_cst_2_apply]
  unfold val_main_v10
  rw [Host.reduce_eq_fold_single FloatOps.maximumf _ _ reducesTo_S8x2048x2048_S8x2048_d2 keys_reduce h_S_]
  have hf : (val_main_v9 (F := Ideal) x wk wq ∘ keys_reduce.lift (ix2 bt t))
      = fun o : Fin 2048 => gRow (proj x wq) (proj x wk) bt t o.val := by
    funext o
    show val_main_v9 (F := Ideal) x wk wq (keys_reduce.lift (ix2 bt t) o) = _
    rw [lift_keys, v9_apply]
    exact (gRow_fin _ _ bt t (⟨o.val, o.isLt⟩ : Fin 2048)).symm
  rw [hf, val_main_cst_1_apply]
  unfold rowMax
  show max (Ideal.ofBits .f32 0xFF800000#32) (Finset.fold max (Ideal.ofBits .f32 0xFF800000#32) _ _) = _
  rw [ofBits_neg_inf]
  rfl

/-! ## The exponentials, their row sum, and the weights -/

/-- The program's `exp (score - row maximum)` at (batch, query position, key position). -/
theorem v16_apply (x : XArr) (wk wq : WArr) (bt : Fin 8) (t u : Fin 2048) :
    val_main_v16 (F := Ideal) x wk wq (ix3 bt t u)
      = Ideal.exp (gRow (proj x wq) (proj x wk) bt t u.val - rowMax (gRow (proj x wq) (proj x wk) bt t) 2048) := by
  have e : idx_main_v13 (idx_main_v14 (ix3 bt t u)) = ix2 bt t :=
    funext fun a => by match a with | ⟨0, _⟩ => rfl | ⟨1, _⟩ => rfl
  rw [val_main_v16_apply, val_main_v15_apply, val_main_v14_apply, val_main_v13_apply, e, v12_apply, v9_apply, gRow_fin]
  rfl

/-- The program's row sum of the exponentials (from the zero word) at (batch, query position) is `rowSum`. -/
theorem v17_apply (x : XArr) (wk wq : WArr) (bt : Fin 8) (t : Fin 2048) :
    val_main_v17 (F := Ideal) x wk wq (ix2 bt t) = rowSum (gRow (proj x wq) (proj x wk) bt t) 2048 := by
  rw [val_main_v17_apply, val_main_cst_3_apply]
  have e : ∀ k : Fin 2048, idx_main_v17 (ix2 bt t) k = ix3 bt t k := fun k =>
    funext fun a => by match a with | ⟨0, _⟩ => rfl | ⟨1, _⟩ => rfl | ⟨2, _⟩ => rfl
  simp only [e, v16_apply]
  unfold rowSum
  rw [Ideal.ofBits_def, Ideal.ofBits_zero_f32]

/-- The program's normalised weight of a key at (batch, query position, key position). -/
theorem v20_apply (x : XArr) (wk wq : WArr) (bt : Fin 8) (t u : Fin 2048) :
    val_main_v20 (F := Ideal) x wk wq (ix3 bt t u)
      = Ideal.div (Ideal.exp (gRow (proj x wq) (proj x wk) bt t u.val - rowMax (gRow (proj x wq) (proj x wk) bt t) 2048))
          (rowSum (gRow (proj x wq) (proj x wk) bt t) 2048) := by
  have e : idx_main_v18 (idx_main_v19 (ix3 bt t u)) = ix2 bt t :=
    funext fun a => by match a with | ⟨0, _⟩ => rfl | ⟨1, _⟩ => rfl
  rw [val_main_v20_apply, val_main_v19_apply, val_main_v18_apply, e, v17_apply, v16_apply]
  rfl

/-! ## The result -/

/-- Column `hh` of the values read at a key position below 2048 is the value entry of that key. -/
theorem wRow_fin (v : SQ.Idx → EReal) (bt : Fin 8) (hh : Fin 64) (u : Fin 2048) : wRow v bt hh u.val = v (ix3 bt u hh) := by
  unfold wRow; rw [dif_pos u.isLt]

/-- The reference program's result, as a function of the input and the key, query and value weights, is the
    whole-row softmax attention `refOut`. -/
theorem ref_is_spec (x : (⟨S8x2048x1024, .f32⟩ : BufTy).Contents (Elt Ideal))
    (wk wq wv : (⟨S1024x64, .f32⟩ : BufTy).Contents (Elt Ideal)) :
    val_main_v21 (F := Ideal) x wk wq wv = Cert.Attn.refOut x wk wq wv := by
  funext i
  obtain ⟨bt, t, hh, rfl⟩ : ∃ (bt : Fin 8) (t : Fin 2048) (hh : Fin 64), i = ix3 bt t hh := ⟨i 0, i 1, i 2, eq_ix3 i⟩
  rw [val_main_v21_apply, v2_eq]
  show _ = ∑ u : Fin 2048,
    Ideal.div (Ideal.exp (gRow (proj x wq) (proj x wk) bt t u.val - rowMax (gRow (proj x wq) (proj x wk) bt t) 2048))
      (rowSum (gRow (proj x wq) (proj x wk) bt t) 2048) * wRow (proj x wv) bt hh u.val
  refine Finset.sum_congr rfl fun u _ => ?_
  have el : lidx_main_v21 (ix3 bt t hh) u = ix3 bt t u :=
    funext fun a => by match a with | ⟨0, _⟩ => rfl | ⟨1, _⟩ => rfl | ⟨2, _⟩ => rfl
  have er : ridx_main_v21 (ix3 bt t hh) u = ix3 bt u hh :=
    funext fun a => by match a with | ⟨0, _⟩ => rfl | ⟨1, _⟩ => rfl | ⟨2, _⟩ => rfl
  rw [el, er, v20_apply, wRow_fin]

end Cert.Attn.RefValue

end
-- ==== Proof.Finite.lean ====
/- From the precondition on the inputs — every entry of the four argument arrays has absolute value below +∞ — to:
   every entry of the four argument arrays is a real number. -/
import proofs.«169510_j23699629540193_2_alg».proof.Defs
import proofs.«169510_j23699629540193_2_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic Idealize.ShloMosaic.TcCoe Idealize.ShloMosaic.ValueIdx
open Cert.KernelIdeal (nD τ sig main_arg0 main_arg1 main_arg2 main_arg3)
open Cert.Pre_finite_inputs (S_)

/-- The shape of a scalar has one index. -/
instance : Subsingleton S_.Idx := ⟨fun a b => funext fun d => d.elim0⟩

/-- The pattern the precondition compares against denotes +∞. -/
theorem inf_pattern : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison as the precondition computes it. -/
theorem real_of_cmp (x : EReal) (e : Ideal.cmp .olt (max x (-x)) (Ideal.ofBits .f32 0x7F800000#32) = 1#1) :
    ∃ r : ℝ, x = (r : EReal) := by
  refine real_of_abs_lt_top x ?_
  rw [← inf_pattern]
  by_contra hn
  simp [Ideal.cmp, hn] at e

/-- One array: if the conjunction over all its entries of "the absolute value is below +∞" is true, every entry is real. -/
theorem all_real {S : Shape} {axes : List (Fin S.rank)} (A : FVec Ideal S .f32) (d : Fin S_.rank → Fin S.rank)
    (hb : S_.BroadcastsInDim S d) (hr : S.ReducesTo axes S_) (hu : 0 < S_.numel)
    (e : Host.reduce IntOp.andi (cmpf .olt (Host.absf A) (broadcastInDim S d hb (constant S_ .f32 0x7F800000#32)))
      (constantI S_ 1 1#1) hr hu ix0 = 1#1) (i : S.Idx) : ∃ r : ℝ, A i = (r : EReal) :=
  real_of_cmp (A i) (Host.reduce_andi_all _ _ hr hu ix0 e i)

variable [hP : Cert.Pre_finite_inputs.Facts]

/-- Under the precondition every entry of each of the four argument arrays, on every core, is a real number. -/
theorem args_real (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal)) := by
  have h0 := congrFun (h c) ix0
  dsimp only [Cert.Pre_finite_inputs.fn, Cert.Pre_finite_inputs.fn_part1, andi] at h0
  obtain ⟨⟨⟨e0, e1⟩, e2⟩, e3⟩ :
      ((_ = 1#1 ∧ _ = 1#1) ∧ _ = 1#1) ∧ _ = 1#1 := by
    simpa only [IntOp.andi_eq_one] using h0
  exact ⟨all_real _ _ _ _ _ e0, all_real _ _ _ _ _ e1, all_real _ _ _ _ _ e2, all_real _ _ _ _ _ e3⟩

end Cert.Attn.Finite

end
-- ==== Proof.lean ====
/- The five claims of this certificate.
   * The word-level program and its idealization both run to the end without a fault and leave the four argument arrays
     as launched (the two calls as segments of one run: Proof/KFlashRun.lean, Proof/FlashRun.lean), and so does the
     reference (its generated run).
   * The idealization differs from the word-level program in one constant, the mask value, which the table names -∞.
   * At the extended reals, from finite inputs, both results are the causal softmax attention of the projected input:
     the projection call leaves x·Wq, x·Wk, x·Wv (Proof/FlashProjValue.lean); the attention call leaves, row by row, the
     block-wise sweep over the key blocks up to the query's own (Proof/AttnValue.lean); the reference is the whole-row
     softmax (Proof/RefValue.lean); and on real scores with the masked ones at -∞ the two agree (Proof/Spec.lean over
     Proof/LibOnlineAttention.lean), the inputs being real by the precondition (Proof/Finite.lean). -/
import proofs.«169510_j23699629540193_2_alg».proof.Defs
import proofs.«169510_j23699629540193_2_alg».proof.Proof.Gen.Kernel
import proofs.«169510_j23699629540193_2_alg».proof.Proof.Gen.KernelIdeal
import proofs.«169510_j23699629540193_2_alg».proof.Proof.Gen.ReferenceIdeal
import proofs.«169510_j23699629540193_2_alg».proof.Proof.Gen.ReferenceIdeal.Run
import proofs.«169510_j23699629540193_2_alg».proof.Proof.Gen.ReferenceIdeal.Read
import proofs.«169510_j23699629540193_2_alg».proof.Proof.Gen.Pre_finite_inputs
import proofs.«169510_j23699629540193_2_alg».proof.Proof.KFlashRun
import proofs.«169510_j23699629540193_2_alg».proof.Proof.FlashRun
import proofs.«169510_j23699629540193_2_alg».proof.Proof.FlashProjValue
import proofs.«169510_j23699629540193_2_alg».proof.Proof.AttnValue
import proofs.«169510_j23699629540193_2_alg».proof.Proof.RefValue
import proofs.«169510_j23699629540193_2_alg».proof.Proof.Spec
import proofs.«169510_j23699629540193_2_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_Kernel : Cert.frame_Kernel (hKernel := Cert.Kernel.Gen.facts) (hPre_finite_inputs := Cert.Pre_finite_inputs.Gen.facts) :=
  fun m ρ _ => Cert.Kernel.Flash.frame m ρ

/-- So does its idealization. -/
theorem frame_KernelIdeal : Cert.frame_KernelIdeal (hKernelIdeal := Cert.KernelIdeal.Gen.facts) (hPre_finite_inputs := Cert.Pre_finite_inputs.Gen.facts) :=
  fun m ρ _ => Cert.KernelIdeal.Flash.frame m ρ

/-- So does the reference. -/
theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization: the mask constant is the value the table names, -∞. -/
theorem preserves : Cert.preserves_Kernel_KernelIdeal :=
  IdealRules.named_const.statement Cert.KernelIdeal.κ "neg_big" .f32 0xFF333332#32 ⊥ rfl

/-- What the kernel's result array holds at the extended reals: the block-wise attention of the launch arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Flash.dat1 (F := Ideal) (Cert.KernelIdeal.Flash.V1 m ρ) c).arrAt 3 Cert.KernelIdeal.cfg1.N
      = Cert.Attn.kernOut (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.FlashValue.attn_result (Cert.KernelIdeal.Flash.V1 m ρ) c,
    Cert.KernelIdeal.Flash.V1_main_v0_0 m ρ c, Cert.KernelIdeal.Flash.V1_main_v0_1 m ρ c, Cert.KernelIdeal.Flash.V1_main_v0_2 m ρ c,
    Cert.KernelIdeal.FlashValue.q_array (Cert.KernelIdeal.Flash.V0 m ρ) c, Cert.KernelIdeal.FlashValue.k_array (Cert.KernelIdeal.Flash.V0 m ρ) c,
    Cert.KernelIdeal.FlashValue.v_array (Cert.KernelIdeal.Flash.V0 m ρ) c, Cert.KernelIdeal.FlashValue.kernOut_eq_attnOf]

/-- At the extended reals, from finite inputs that agree, the kernel and the reference end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.kernOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (kernel_result m ρ c), (h c).2⟩)
      (Cert.KernelIdeal.Flash.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := Cert.Attn.Finite.args_real m hpre c
    rw [Cert.ReferenceIdeal.Read.val_main_v21_eq, Cert.Attn.RefValue.ref_is_spec,
      (hagree c).1, (hagree c).2.1, (hagree c).2.2.1, (hagree c).2.2.2]
    exact (Cert.Attn.kernOut_eq_refOut _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
